-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v135)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v135) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S3x128x256 : Shape := ⟨3, ![3, 128, 256]⟩
abbrev S256 : Shape := ⟨1, ![256]⟩
abbrev S3x256x128 : Shape := ⟨3, ![3, 256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x256 : S_.BroadcastsInDim S3x128x256 (![] : Fin 0 → Fin S3x128x256.rank)
  reducesTo_S3x128x256_S_d0_1_2 : S3x128x256.ReducesTo [0, 1, 2] S_
  bcast_S_S256 : S_.BroadcastsInDim S256 (![] : Fin 0 → Fin S256.rank)
  reducesTo_S256_S_d0 : S256.ReducesTo [0] S_
  bcast_S_S3x256x128 : S_.BroadcastsInDim S3x256x128 (![] : Fin 0 → Fin S3x256x128.rank)
  reducesTo_S3x256x128_S_d0_1_2 : S3x256x128.ReducesTo [0, 1, 2] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S256 .f32) (main_arg6 : FVec F S3x256x128 .f32) (main_arg7 : FVec F S128 .f32) (main_arg8 : FVec F S128 .f32) (main_arg9 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S3x256x128 .f32 := Host.absf main_arg6
  let main_cst_8 : FVec F S_ .f32 := constant S_ .f32 0x7F800000#32
  let main_v25 : FVec F S3x256x128 .f32 := broadcastInDim S3x256x128 ![] bcast_S_S3x256x128 main_cst_8
  let main_v26 : IVec S3x256x128 1 := cmpf .olt main_v24 main_v25
  let main_c_9 : IVec S_ 1 := constantI S_ 1 1#1
  let main_v27 : IVec S_ 1 := (fun x v => Host.reduce IntOp.andi x v reducesTo_S3x256x128_S_d0_1_2 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S3x128x256 .f32) (main_arg3 : FVec F S256 .f32) (main_arg4 : FVec F S256 .f32) (main_arg5 : FVec F S256 .f32) (main_arg6 : FVec F S3x256x128 .f32) (main_arg7 : FVec F S128 .f32) (main_arg8 : FVec F S128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x256 .f32 := Host.absf main_arg2
  let main_cst_0 : FVec F S_ .f32 := constant S_ .f32 0x7F800000#32
  let main_v5 : FVec F S3x128x256 .f32 := broadcastInDim S3x128x256 ![] bcast_S_S3x128x256 main_cst_0
  let main_v6 : IVec S3x128x256 1 := cmpf .olt main_v4 main_v5
  let main_c_1 : IVec S_ 1 := constantI S_ 1 1#1
  let main_v7 : IVec S_ 1 := (fun x v => Host.reduce IntOp.andi x v reducesTo_S3x128x256_S_d0_1_2 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S3x128x256 : Shape := ⟨3, ![3, 128, 256]⟩
abbrev S256 : Shape := ⟨1, ![256]⟩
abbrev S3x256x128 : Shape := ⟨3, ![3, 256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128x256 : Shape := ⟨3, ![1, 128, 256]⟩
abbrev S128x256 : Shape := ⟨2, ![128, 256]⟩
abbrev S384x256 : Shape := ⟨2, ![384, 256]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S2000x384 : Shape := ⟨2, ![2000, 384]⟩
abbrev S2000 : Shape := ⟨1, ![2000]⟩
abbrev S2000x1 : Shape := ⟨2, ![2000, 1]⟩
abbrev S800000x256 : Shape := ⟨2, ![800000, 256]⟩
abbrev S1x256x128 : Shape := ⟨3, ![1, 256, 128]⟩
abbrev S256x128 : Shape := ⟨2, ![256, 128]⟩
abbrev S768x128 : Shape := ⟨2, ![768, 128]⟩
abbrev S1x128 : Shape := ⟨2, ![1, 128]⟩
abbrev S2000x768 : Shape := ⟨2, ![2000, 768]⟩

abbrev nBuf : Space → Nat
  | .hbm => 172
  | .vmem => 24
  | .smem => 0
  | _ => 0

abbrev hbmTy0_0 (i : Nat) : BufTy := match i % 128 with
  | 0 => ⟨S50000x128, .f32⟩
  | 1 => ⟨S2x800000, .i32⟩
  | 2 => ⟨S3x128x256, .f32⟩
  | 3 => ⟨S256, .f32⟩
  | 4 => ⟨S256, .f32⟩
  | 5 => ⟨S256, .f32⟩
  | 6 => ⟨S3x256x128, .f32⟩
  | 7 => ⟨S128, .f32⟩
  | 8 => ⟨S128, .f32⟩
  | 9 => ⟨S128, .f32⟩
  | 10 => ⟨S1x800000, .i32⟩
  | 11 => ⟨S800000, .i32⟩
  | 12 => ⟨S1x800000, .i32⟩
  | 13 => ⟨S800000, .i32⟩
  | 14 => ⟨S800000, .i1⟩
  | 15 => ⟨S800000, .f32⟩
  | 16 => ⟨S_, .f32⟩
  | 17 => ⟨S800000, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .f32⟩
  | 35 => ⟨S50000, .f32⟩
  | 36 => ⟨S800000x1, .i32⟩
  | 37 => ⟨S50000, .f32⟩
  | 38 => ⟨S50000x1, .f32⟩
  | 39 => ⟨S50000x128, .f32⟩
  | 40 => ⟨S50000x128, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x128, .f32⟩
  | 50 => ⟨S_, .f32⟩
  | 51 => ⟨S50000x128, .f32⟩
  | 52 => ⟨S800000x1, .i32⟩
  | 53 => ⟨S50000x128, .f32⟩
  | 54 => ⟨S50000x1, .f32⟩
  | 55 => ⟨S_, .f32⟩
  | 56 => ⟨S50000x1, .f32⟩
  | 57 => ⟨S50000x1, .f32⟩
  | 58 => ⟨S50000x1, .f32⟩
  | 59 => ⟨S50000x128, .f32⟩
  | 60 => ⟨S50000x128, .f32⟩
  | 61 => ⟨S50000x128, .f32⟩
  | 62 => ⟨S50000x128, .f32⟩
  | 63 => ⟨S50000x128, .f32⟩
  | 64 => ⟨S50000x1, .f32⟩
  | 65 => ⟨S50000x128, .f32⟩
  | 66 => ⟨S50000x128, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000x128, .f32⟩
  | 76 => ⟨S_, .f32⟩
  | 77 => ⟨S50000x128, .f32⟩
  | 78 => ⟨S800000x1, .i32⟩
  | 79 => ⟨S50000x128, .f32⟩
  | 80 => ⟨S50000x1, .f32⟩
  | 81 => ⟨S_, .f32⟩
  | 82 => ⟨S50000x1, .f32⟩
  | 83 => ⟨S50000x1, .f32⟩
  | 84 => ⟨S50000x1, .f32⟩
  | 85 => ⟨S50000x128, .f32⟩
  | 86 => ⟨S50000x128, .f32⟩
  | 87 => ⟨S50000x128, .f32⟩
  | 88 => ⟨S50000x128, .f32⟩
  | 89 => ⟨S50000x128, .f32⟩
  | 90 => ⟨S_, .f32⟩
  | 91 => ⟨S50000x128, .f32⟩
  | 92 => ⟨S50000x128, .f32⟩
  | 93 => ⟨S50000x128, .f32⟩
  | 94 => ⟨S1x128x256, .f32⟩
  | 95 => ⟨S128x256, .f32⟩
  | 96 => ⟨S1x128x256, .f32⟩
  | 97 => ⟨S128x256, .f32⟩
  | 98 => ⟨S1x128x256, .f32⟩
  | 99 => ⟨S128x256, .f32⟩
  | 100 => ⟨S384x256, .f32⟩
  | 101 => ⟨S1x256, .f32⟩
  | 102 => ⟨S1x256, .f32⟩
  | 103 => ⟨S1x256, .f32⟩
  | 104 => ⟨S50000x256, .f32⟩
  | 105 => ⟨S50000x1, .f32⟩
  | 106 => ⟨S50000x256, .f32⟩
  | 107 => ⟨S50000x256, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x256, .f32⟩
  | 117 => ⟨S_, .f32⟩
  | 118 => ⟨S50000x256, .f32⟩
  | 119 => ⟨S800000x1, .i32⟩
  | 120 => ⟨S50000x256, .f32⟩
  | 121 => ⟨S50000x1, .f32⟩
  | 122 => ⟨S_, .f32⟩
  | 123 => ⟨S50000x1, .f32⟩
  | 124 => ⟨S50000x1, .f32⟩
  | 125 => ⟨S50000x1, .f32⟩
  | 126 => ⟨S50000x256, .f32⟩
  | 127 => ⟨S50000x256, .f32⟩
  | _ => ⟨S50000x128, .f32⟩

abbrev hbmTy0_1 (i : Nat) : BufTy := match i % 128 with
  | 0 => ⟨S50000x256, .f32⟩
  | 1 => ⟨S50000x256, .f32⟩
  | 2 => ⟨S50000x256, .f32⟩
  | 3 => ⟨S50000x1, .f32⟩
  | 4 => ⟨S50000x256, .f32⟩
  | 5 => ⟨S50000x256, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x256, .f32⟩
  | 15 => ⟨S_, .f32⟩
  | 16 => ⟨S50000x256, .f32⟩
  | 17 => ⟨S800000x1, .i32⟩
  | 18 => ⟨S50000x256, .f32⟩
  | 19 => ⟨S50000x1, .f32⟩
  | 20 => ⟨S_, .f32⟩
  | 21 => ⟨S50000x1, .f32⟩
  | 22 => ⟨S50000x1, .f32⟩
  | 23 => ⟨S50000x1, .f32⟩
  | 24 => ⟨S50000x256, .f32⟩
  | 25 => ⟨S50000x256, .f32⟩
  | 26 => ⟨S50000x256, .f32⟩
  | 27 => ⟨S50000x256, .f32⟩
  | 28 => ⟨S50000x256, .f32⟩
  | 29 => ⟨S_, .f32⟩
  | 30 => ⟨S50000x256, .f32⟩
  | 31 => ⟨S50000x256, .f32⟩
  | 32 => ⟨S50000x256, .f32⟩
  | 33 => ⟨S1x256x128, .f32⟩
  | 34 => ⟨S256x128, .f32⟩
  | 35 => ⟨S1x256x128, .f32⟩
  | 36 => ⟨S256x128, .f32⟩
  | 37 => ⟨S1x256x128, .f32⟩
  | 38 => ⟨S256x128, .f32⟩
  | 39 => ⟨S768x128, .f32⟩
  | 40 => ⟨S1x128, .f32⟩
  | 41 => ⟨S1x128, .f32⟩
  | 42 => ⟨S1x128, .f32⟩
  | 43 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S384x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S768x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_cst_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_8 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_12 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_c_13 : Ref sig .tc := ⟨.hbm, 108, rfl⟩
abbrev main_v81 : Ref sig .tc := ⟨.hbm, 109, rfl⟩
abbrev main_v82 : Ref sig .tc := ⟨.hbm, 110, rfl⟩
abbrev main_c_14 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_15 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_16 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_c_17 : Ref sig .tc := ⟨.hbm, 134, rfl⟩
abbrev main_v103 : Ref sig .tc := ⟨.hbm, 135, rfl⟩
abbrev main_v104 : Ref sig .tc := ⟨.hbm, 136, rfl⟩
abbrev main_c_18 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_cst_19 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_cst_20 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_cst_21 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S768x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S_S50000x1 : S_.BroadcastsInDim S50000x1 (![] : Fin 0 → Fin S50000x1.rank)
  slices_S3x128x256_S1x128x256_0_0_0 : S3x128x256.Slices ![0, 0, 0] S1x128x256
  shapeCasts_S1x128x256_S128x256 : S1x128x256.ShapeCasts S128x256
  slices_S3x128x256_S1x128x256_1_0_0 : S3x128x256.Slices ![1, 0, 0] S1x128x256
  slices_S3x128x256_S1x128x256_2_0_0 : S3x128x256.Slices ![2, 0, 0] S1x128x256
  concatenates_S128x256_S128x256_S128x256_S384x256_d0 : Shape.Concatenates [S128x256, S128x256, S128x256] S384x256 0
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  concatenates_S2000x128_S2000x128_S2000x128_S2000x384_d1 : Shape.Concatenates [S2000x128, S2000x128, S2000x128] S2000x384 1
  inb_S384x256_S384x256_0_0 : ∀ a, (![0, 0] : Fin 2 → Nat) a + S384x256.size a ≤ S384x256.size a
  h_S384x256 : 0 < S384x256.numel
  shapeCasts_S384x256_S384x256 : S384x256.ShapeCasts S384x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  slices_S3x256x128_S1x256x128_0_0_0 : S3x256x128.Slices ![0, 0, 0] S1x256x128
  shapeCasts_S1x256x128_S256x128 : S1x256x128.ShapeCasts S256x128
  slices_S3x256x128_S1x256x128_1_0_0 : S3x256x128.Slices ![1, 0, 0] S1x256x128
  slices_S3x256x128_S1x256x128_2_0_0 : S3x256x128.Slices ![2, 0, 0] S1x256x128
  concatenates_S256x128_S256x128_S256x128_S768x128_d0 : Shape.Concatenates [S256x128, S256x128, S256x128] S768x128 0
  shapeCasts_S128_S1x128 : S128.ShapeCasts S1x128
  shapeCasts_S2000x256_S2000x256 : S2000x256.ShapeCasts S2000x256
  concatenates_S2000x256_S2000x256_S2000x256_S2000x768_d1 : Shape.Concatenates [S2000x256, S2000x256, S2000x256] S2000x768 1
  inb_S768x128_S768x128_0_0 : ∀ a, (![0, 0] : Fin 2 → Nat) a + S768x128.size a ≤ S768x128.size a
  h_S768x128 : 0 < S768x128.numel
  shapeCasts_S768x128_S768x128 : S768x128.ShapeCasts S768x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  broadcasts_S2000x1_S2000x128 : S2000x1.Broadcasts S2000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x384_S384x256_S2000x256_1_0_0_1_n_n_wf : DotDims.WF S2000x384 S384x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x768_S768x128_S2000x128_1_0_0_1_n_n_wf : DotDims.WF S2000x768 S768x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x256.size a ≤ S384x256.size a
  hwx0_3 : ∀ i : grid0.Coords, EltTy.bits .f32 = 32 ∨ (Rect.block (s := S384x256) S384x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S50000x256.size a
  hwx0_7 : ∀ i : grid0.Coords, EltTy.bits .f32 = 32 ∨ (Rect.block (s := S50000x256) S2000x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S768x128.size a ≤ S768x128.size a
  hwx1_3 : ∀ i : grid1.Coords, EltTy.bits .f32 = 32 ∨ (Rect.block (s := S768x128) S768x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x384_S384x256_S2000x256_1_0_0_1_n_n : DotDims S2000x384 S384x256 S2000x256 where
  lhsContracting := [1]
  rhsContracting := [0]
  lhsNonContracting := [0]
  rhsNonContracting := [1]
  lhsBatch := []
  rhsBatch := []
  wf := dot_S2000x384_S384x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x768_S768x128_S2000x128_1_0_0_1_n_n : DotDims S2000x768 S768x128 S2000x128 where
  lhsContracting := [1]
  rhsContracting := [0]
  lhsNonContracting := [0]
  rhsNonContracting := [1]
  lhsBatch := []
  rhsBatch := []
  wf := dot_S2000x768_S768x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v66) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v73) S384x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v74) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v75) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v76) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v77) S2000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v77) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v99) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v124) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v131) S768x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v132) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v133) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v134) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v135) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S3x128x256 : Shape := ⟨3, ![3, 128, 256]⟩
abbrev S256 : Shape := ⟨1, ![256]⟩
abbrev S3x256x128 : Shape := ⟨3, ![3, 256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x128x256 : Shape := ⟨3, ![1, 128, 256]⟩
abbrev S128x256 : Shape := ⟨2, ![128, 256]⟩
abbrev S50000x256 : Shape := ⟨2, ![50000, 256]⟩
abbrev S800000x128 : Shape := ⟨2, ![800000, 128]⟩
abbrev S1x256 : Shape := ⟨2, ![1, 256]⟩
abbrev S50000x1 : Shape := ⟨2, ![50000, 1]⟩
abbrev S1x256x128 : Shape := ⟨3, ![1, 256, 128]⟩
abbrev S256x128 : Shape := ⟨2, ![256, 128]⟩
abbrev S800000x256 : Shape := ⟨2, ![800000, 256]⟩
abbrev S1x128 : Shape := ⟨2, ![1, 128]⟩

abbrev nBuf : Space → Nat
  | .hbm => 240
  | .vmem => 0
  | .smem => 0
  | _ => 0

abbrev hbmTy0_0 (i : Nat) : BufTy := match i % 128 with
  | 0 => ⟨S50000x128, .f32⟩
  | 1 => ⟨S2x800000, .i32⟩
  | 2 => ⟨S3x128x256, .f32⟩
  | 3 => ⟨S256, .f32⟩
  | 4 => ⟨S256, .f32⟩
  | 5 => ⟨S256, .f32⟩
  | 6 => ⟨S3x256x128, .f32⟩
  | 7 => ⟨S128, .f32⟩
  | 8 => ⟨S128, .f32⟩
  | 9 => ⟨S128, .f32⟩
  | 10 => ⟨S1x800000, .i32⟩
  | 11 => ⟨S800000, .i32⟩
  | 12 => ⟨S1x800000, .i32⟩
  | 13 => ⟨S800000, .i32⟩
  | 14 => ⟨S800000, .i1⟩
  | 15 => ⟨S_, .f32⟩
  | 16 => ⟨S_, .f32⟩
  | 17 => ⟨S800000, .f32⟩
  | 18 => ⟨S800000, .f32⟩
  | 19 => ⟨S800000, .f32⟩
  | 20 => ⟨S_, .f32⟩
  | 21 => ⟨S50000, .f32⟩
  | 22 => ⟨S800000x1, .i32⟩
  | 23 => ⟨S800000, .f32⟩
  | 24 => ⟨S50000, .f32⟩
  | 25 => ⟨S_, .f32⟩
  | 26 => ⟨S50000, .f32⟩
  | 27 => ⟨S50000, .i1⟩
  | 28 => ⟨S_, .f32⟩
  | 29 => ⟨S50000, .f32⟩
  | 30 => ⟨S50000, .f32⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S_, .f32⟩
  | 46 => ⟨S800000, .f32⟩
  | 47 => ⟨S800000, .f32⟩
  | 48 => ⟨S800000, .f32⟩
  | 49 => ⟨S800000, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000, .f32⟩
  | 59 => ⟨S800000, .f32⟩
  | 60 => ⟨S1x128x256, .f32⟩
  | 61 => ⟨S128x256, .f32⟩
  | 62 => ⟨S50000x256, .f32⟩
  | 63 => ⟨S800000x1, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x128, .f32⟩
  | 73 => ⟨S800000x128, .f32⟩
  | 74 => ⟨S800000x128, .f32⟩
  | 75 => ⟨S_, .f32⟩
  | 76 => ⟨S50000x128, .f32⟩
  | 77 => ⟨S800000x1, .i32⟩
  | 78 => ⟨S50000x128, .f32⟩
  | 79 => ⟨S_, .f32⟩
  | 80 => ⟨S50000x128, .f32⟩
  | 81 => ⟨S50000x128, .f32⟩
  | 82 => ⟨S50000x128, .f32⟩
  | 83 => ⟨S1x128x256, .f32⟩
  | 84 => ⟨S128x256, .f32⟩
  | 85 => ⟨S50000x256, .f32⟩
  | 86 => ⟨S50000x256, .f32⟩
  | 87 => ⟨S800000x1, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x128, .f32⟩
  | 97 => ⟨S800000x128, .f32⟩
  | 98 => ⟨S800000x128, .f32⟩
  | 99 => ⟨S_, .f32⟩
  | 100 => ⟨S50000x128, .f32⟩
  | 101 => ⟨S800000x1, .i32⟩
  | 102 => ⟨S50000x128, .f32⟩
  | 103 => ⟨S_, .f32⟩
  | 104 => ⟨S50000x128, .f32⟩
  | 105 => ⟨S50000x128, .f32⟩
  | 106 => ⟨S50000x128, .f32⟩
  | 107 => ⟨S_, .f32⟩
  | 108 => ⟨S50000x128, .f32⟩
  | 109 => ⟨S50000x128, .f32⟩
  | 110 => ⟨S50000x128, .f32⟩
  | 111 => ⟨S1x128x256, .f32⟩
  | 112 => ⟨S128x256, .f32⟩
  | 113 => ⟨S50000x256, .f32⟩
  | 114 => ⟨S50000x256, .f32⟩
  | 115 => ⟨S1x256, .f32⟩
  | 116 => ⟨S50000x256, .f32⟩
  | 117 => ⟨S50000x256, .f32⟩
  | 118 => ⟨S_, .f32⟩
  | 119 => ⟨S50000, .f32⟩
  | 120 => ⟨S50000x1, .f32⟩
  | 121 => ⟨S_, .f32⟩
  | 122 => ⟨S50000x1, .f32⟩
  | 123 => ⟨S50000x1, .f32⟩
  | 124 => ⟨S50000x256, .f32⟩
  | 125 => ⟨S50000x256, .f32⟩
  | 126 => ⟨S50000x256, .f32⟩
  | 127 => ⟨S_, .f32⟩
  | _ => ⟨S50000x128, .f32⟩

abbrev hbmTy0_1 (i : Nat) : BufTy := match i % 128 with
  | 0 => ⟨S50000, .f32⟩
  | 1 => ⟨S50000x1, .f32⟩
  | 2 => ⟨S_, .f32⟩
  | 3 => ⟨S50000x1, .f32⟩
  | 4 => ⟨S50000x1, .f32⟩
  | 5 => ⟨S50000x256, .f32⟩
  | 6 => ⟨S50000x256, .f32⟩
  | 7 => ⟨S_, .f32⟩
  | 8 => ⟨S50000x1, .f32⟩
  | 9 => ⟨S50000x1, .f32⟩
  | 10 => ⟨S50000x1, .f32⟩
  | 11 => ⟨S50000x256, .f32⟩
  | 12 => ⟨S50000x256, .f32⟩
  | 13 => ⟨S1x256, .f32⟩
  | 14 => ⟨S50000x256, .f32⟩
  | 15 => ⟨S50000x256, .f32⟩
  | 16 => ⟨S1x256, .f32⟩
  | 17 => ⟨S50000x256, .f32⟩
  | 18 => ⟨S50000x256, .f32⟩
  | 19 => ⟨S_, .f32⟩
  | 20 => ⟨S50000x256, .f32⟩
  | 21 => ⟨S50000x256, .f32⟩
  | 22 => ⟨S1x256x128, .f32⟩
  | 23 => ⟨S256x128, .f32⟩
  | 24 => ⟨S50000x128, .f32⟩
  | 25 => ⟨S800000x1, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x256, .f32⟩
  | 35 => ⟨S800000x256, .f32⟩
  | 36 => ⟨S800000x256, .f32⟩
  | 37 => ⟨S_, .f32⟩
  | 38 => ⟨S50000x256, .f32⟩
  | 39 => ⟨S800000x1, .i32⟩
  | 40 => ⟨S50000x256, .f32⟩
  | 41 => ⟨S_, .f32⟩
  | 42 => ⟨S50000x256, .f32⟩
  | 43 => ⟨S50000x256, .f32⟩
  | 44 => ⟨S50000x256, .f32⟩
  | 45 => ⟨S1x256x128, .f32⟩
  | 46 => ⟨S256x128, .f32⟩
  | 47 => ⟨S50000x128, .f32⟩
  | 48 => ⟨S50000x128, .f32⟩
  | 49 => ⟨S800000x1, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x256, .f32⟩
  | 59 => ⟨S800000x256, .f32⟩
  | 60 => ⟨S800000x256, .f32⟩
  | 61 => ⟨S_, .f32⟩
  | 62 => ⟨S50000x256, .f32⟩
  | 63 => ⟨S800000x1, .i32⟩
  | 64 => ⟨S50000x256, .f32⟩
  | 65 => ⟨S_, .f32⟩
  | 66 => ⟨S50000x256, .f32⟩
  | 67 => ⟨S50000x256, .f32⟩
  | 68 => ⟨S50000x256, .f32⟩
  | 69 => ⟨S_, .f32⟩
  | 70 => ⟨S50000x256, .f32⟩
  | 71 => ⟨S50000x256, .f32⟩
  | 72 => ⟨S50000x256, .f32⟩
  | 73 => ⟨S1x256x128, .f32⟩
  | 74 => ⟨S256x128, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S_, .f32⟩
  | 81 => ⟨S50000, .f32⟩
  | 82 => ⟨S50000x1, .f32⟩
  | 83 => ⟨S_, .f32⟩
  | 84 => ⟨S50000x1, .f32⟩
  | 85 => ⟨S50000x1, .f32⟩
  | 86 => ⟨S50000x128, .f32⟩
  | 87 => ⟨S50000x128, .f32⟩
  | 88 => ⟨S50000x128, .f32⟩
  | 89 => ⟨S_, .f32⟩
  | 90 => ⟨S50000, .f32⟩
  | 91 => ⟨S50000x1, .f32⟩
  | 92 => ⟨S_, .f32⟩
  | 93 => ⟨S50000x1, .f32⟩
  | 94 => ⟨S50000x1, .f32⟩
  | 95 => ⟨S50000x128, .f32⟩
  | 96 => ⟨S50000x128, .f32⟩
  | 97 => ⟨S_, .f32⟩
  | 98 => ⟨S50000x1, .f32⟩
  | 99 => ⟨S50000x1, .f32⟩
  | 100 => ⟨S50000x1, .f32⟩
  | 101 => ⟨S50000x128, .f32⟩
  | 102 => ⟨S50000x128, .f32⟩
  | 103 => ⟨S1x128, .f32⟩
  | 104 => ⟨S50000x128, .f32⟩
  | 105 => ⟨S50000x128, .f32⟩
  | 106 => ⟨S1x128, .f32⟩
  | 107 => ⟨S50000x128, .f32⟩
  | 108 => ⟨S50000x128, .f32⟩
  | 109 => ⟨S_, .f32⟩
  | 110 => ⟨S50000x128, .f32⟩
  | 111 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_5 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_6 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_7 : Ref sig .tc := ⟨.hbm, 50, rfl⟩
abbrev main_v27 : Ref sig .tc := ⟨.hbm, 51, rfl⟩
abbrev main_v28 : Ref sig .tc := ⟨.hbm, 52, rfl⟩
abbrev main_c_8 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_9 : Ref sig .tc := ⟨.hbm, 64, rfl⟩
abbrev main_v39 : Ref sig .tc := ⟨.hbm, 65, rfl⟩
abbrev main_v40 : Ref sig .tc := ⟨.hbm, 66, rfl⟩
abbrev main_c_10 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_11 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_12 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_c_13 : Ref sig .tc := ⟨.hbm, 88, rfl⟩
abbrev main_v59 : Ref sig .tc := ⟨.hbm, 89, rfl⟩
abbrev main_v60 : Ref sig .tc := ⟨.hbm, 90, rfl⟩
abbrev main_c_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_15 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_16 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_17 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_18 : Ref sig .tc := ⟨.hbm, 118, rfl⟩
abbrev main_v84 : Ref sig .tc := ⟨.hbm, 119, rfl⟩
abbrev main_v85 : Ref sig .tc := ⟨.hbm, 120, rfl⟩
abbrev main_cst_19 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_20 : Ref sig .tc := ⟨.hbm, 127, rfl⟩
abbrev main_v91 : Ref sig .tc := ⟨.hbm, 128, rfl⟩
abbrev main_v92 : Ref sig .tc := ⟨.hbm, 129, rfl⟩
abbrev main_cst_21 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_22 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_call2_cst : Ref sig .tc := ⟨.hbm, 147, rfl⟩
abbrev main_call2_v0 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_c_23 : Ref sig .tc := ⟨.hbm, 154, rfl⟩
abbrev main_v113 : Ref sig .tc := ⟨.hbm, 155, rfl⟩
abbrev main_v114 : Ref sig .tc := ⟨.hbm, 156, rfl⟩
abbrev main_c_24 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_cst_25 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_cst_26 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_c_27 : Ref sig .tc := ⟨.hbm, 178, rfl⟩
abbrev main_v133 : Ref sig .tc := ⟨.hbm, 179, rfl⟩
abbrev main_v134 : Ref sig .tc := ⟨.hbm, 180, rfl⟩
abbrev main_c_28 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_cst_29 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_cst_30 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_cst_31 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_cst_32 : Ref sig .tc := ⟨.hbm, 208, rfl⟩
abbrev main_v158 : Ref sig .tc := ⟨.hbm, 209, rfl⟩
abbrev main_v159 : Ref sig .tc := ⟨.hbm, 210, rfl⟩
abbrev main_cst_33 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_cst_34 : Ref sig .tc := ⟨.hbm, 217, rfl⟩
abbrev main_v165 : Ref sig .tc := ⟨.hbm, 218, rfl⟩
abbrev main_v166 : Ref sig .tc := ⟨.hbm, 219, rfl⟩
abbrev main_cst_35 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_cst_36 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_call3_cst : Ref sig .tc := ⟨.hbm, 237, rfl⟩
abbrev main_call3_v0 : Ref sig .tc := ⟨.hbm, 238, rfl⟩
abbrev main_v182 : Ref sig .tc := ⟨.hbm, 239, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S3x128x256_S1x128x256_0_0_0 : S3x128x256.Slices ![0, 0, 0] S1x128x256
  shapeCasts_S1x128x256_S128x256 : S1x128x256.ShapeCasts S128x256
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S3x128x256_S1x128x256_1_0_0 : S3x128x256.Slices ![1, 0, 0] S1x128x256
  slices_S3x128x256_S1x128x256_2_0_0 : S3x128x256.Slices ![2, 0, 0] S1x128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  slices_S3x256x128_S1x256x128_0_0_0 : S3x256x128.Slices ![0, 0, 0] S1x256x128
  shapeCasts_S1x256x128_S256x128 : S1x256x128.ShapeCasts S256x128
  bcast_S800000x1_S800000x256_0_1 : S800000x1.BroadcastsInDim S800000x256 (![0, 1] : Fin 2 → Fin S800000x256.rank)
  slices_S3x256x128_S1x256x128_1_0_0 : S3x256x128.Slices ![1, 0, 0] S1x256x128
  slices_S3x256x128_S1x256x128_2_0_0 : S3x256x128.Slices ![2, 0, 0] S1x256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  bcast_S50000x1_S50000x128_0_1 : S50000x1.BroadcastsInDim S50000x128 (![0, 1] : Fin 2 → Fin S50000x128.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x256_S50000x256_1_0_0_1_n_n_wf : DotDims.WF S50000x128 S128x256 S50000x256 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

class Facts : Prop extends Facts₀ where

variable [Facts]
-- ==== Proof.KOut.lean ====
/-
  What one call of the combine kernel leaves in its output window's buffer, as a function of the seven input
  blocks it loads whole: the three node-feature blocks (T0, T1, T2), the stacked weights, the bias, the scale and the
  shift. The body's arithmetic is the skeleton's two payloads composed: the first computes the normalised, scaled
  rows from the stacked product plus bias; the second adds the shift and takes the maximum with zero. The one store
  covers the whole buffer, so the buffer afterwards is the canonical form of that single piece.
-/
import proofs.«108161_j89232240542461_2_alg».proof.Proof.Gen.KernelIdeal.Skeleton
import Idealize.ShloMosaic.Lib.Pipeline.FrameBody

noncomputable section

namespace Cert.KernelIdeal.Hand

open Idealize.ShloMosaic Idealize.ShloMosaic.TcCoe
open Cert.KernelIdeal Cert.KernelIdeal.Gen

variable {F : FTy → Type} [FloatOps F]

/-! ## The whole-buffer rectangles the bodies load and store through -/

abbrev rN128 : Rect S2000x128 := Rect.unit (s := S2000x128) ![0, 0] S2000x128.size inb_S2000x128_S2000x128_0_0
abbrev rN256 : Rect S2000x256 := Rect.unit (s := S2000x256) ![0, 0] S2000x256.size inb_S2000x256_S2000x256_0_0
abbrev rW384 : Rect S384x256 := Rect.unit (s := S384x256) ![0, 0] S384x256.size inb_S384x256_S384x256_0_0
abbrev rW768 : Rect S768x128 := Rect.unit (s := S768x128) ![0, 0] S768x128.size inb_S768x128_S768x128_0_0
abbrev rV256 : Rect S1x256 := Rect.unit (s := S1x256) ![0, 0] S1x256.size inb_S1x256_S1x256_0_0
abbrev rV128 : Rect S1x128 := Rect.unit (s := S1x128) ![0, 0] S1x128.size inb_S1x128_S1x128_0_0

/-! ## What each body leaves in its output buffer -/

/-- The first layer's body: 128-wide feature blocks, 384×256 stacked weights, 256-wide output rows. -/
def out0 (x0 x1 x2 : Vec F S2000x128 .f32) (x3 : Vec F S384x256 .f32) (x4 x5 x6 : Vec F S1x256 .f32) :
    Vec F S2000x256 .f32 :=
  View.canon [⟨rN256, k0_pay1 (k0_pay2 (View.ld x0 rN128) (View.ld x1 rN128) (View.ld x2 rN128) (View.ld x3 rW384)
    (View.ld x4 rV256) (View.ld x5 rV256)) (View.ld x6 rV256)⟩]

/-- The second layer's body: 256-wide feature blocks, 768×128 stacked weights, 128-wide output rows. -/
def out1 (x0 x1 x2 : Vec F S2000x256 .f32) (x3 : Vec F S768x128 .f32) (x4 x5 x6 : Vec F S1x128 .f32) :
    Vec F S2000x128 .f32 :=
  View.canon [⟨rN128, k1_pay1 (k1_pay2 (View.ld x0 rN256) (View.ld x1 rN256) (View.ld x2 rN256) (View.ld x3 rW768)
    (View.ld x4 rV128) (View.ld x5 rV128)) (View.ld x6 rV128)⟩]

/-- The single store tiles its buffer, so it covers it. -/
theorem cover0 (p : Vec F S2000x256 .f32) (y : S2000x256.Idx) :
    ∃ pc ∈ ([⟨rN256, p⟩] : List (View.Piece (Elt F) S2000x256 .f32)), y ∈ pc.1.set :=
  View.cover_of_tiled [⟨rN256, p⟩] S2000x256.size (by rfl) y

theorem cover1 (p : Vec F S2000x128 .f32) (y : S2000x128.Idx) :
    ∃ pc ∈ ([⟨rN128, p⟩] : List (View.Piece (Elt F) S2000x128 .f32)), y ∈ pc.1.set :=
  View.cover_of_tiled [⟨rN128, p⟩] S2000x128.size (by rfl) y

end Cert.KernelIdeal.Hand

end
-- ==== Proof.KBody.lean ====
/-
  The two combine-kernel bodies as separation-logic triples. Each body, run on whole buffers holding the seven input
  blocks, returns them unchanged and leaves in the output buffer the canonical form of its single whole-buffer store:
  the second payload (shift added, maximum with zero) of the first payload (stacked product, bias, row
  normalisation, scale) of the loaded inputs. The output buffer is also loaded before it is stored, but that value is
  never used, so the triple asks nothing of the output's prior contents.
-/
import proofs.«108161_j89232240542461_2_alg».proof.Proof.Gen.KernelIdeal.Launch
import proofs.«108161_j89232240542461_2_alg».proof.Proof.Gen.KernelIdeal.Skeleton
import proofs.«108161_j89232240542461_2_alg».proof.Proof.Gen.KernelIdeal.Points
import proofs.«108161_j89232240542461_2_alg».proof.Proof.KOut
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The first layer's body -/

set_option maxHeartbeats 1000000 in
/-- Layer 1's body on whole buffers: the seven inputs at the contents `x0 … x6`, the output at anything. It
    runs to the continuation with the inputs as they were and the output at `out0` of them: the six loads of the
    first part and the load of the shift read the inputs whole, the load of the output's prior contents is not
    used, and the one store overwrites the whole output, so what it held before does not matter. -/
theorem sound_kernel0 (c : Dev nD) (E : Set ℕ) (i : grid0.Coords)
    (arg1 : Memref sig .tc .vmem S2000x128 .f32) (harg1 : arg1.IsWhole) (arg2 : Memref sig .tc .vmem S2000x128 .f32) (harg2 : arg2.IsWhole)
    (arg3 : Memref sig .tc .vmem S2000x128 .f32) (harg3 : arg3.IsWhole) (arg4 : Memref sig .tc .vmem S384x256 .f32) (harg4 : arg4.IsWhole)
    (arg5 : Memref sig .tc .vmem S1x256 .f32) (harg5 : arg5.IsWhole) (arg6 : Memref sig .tc .vmem S1x256 .f32) (harg6 : arg6.IsWhole)
    (arg7 : Memref sig .tc .vmem S1x256 .f32) (harg7 : arg7.IsWhole) (arg8 : Memref sig .tc .vmem S2000x256 .f32) (harg8 : arg8.IsWhole)
    (x0 x1 x2 : Vec F S2000x128 .f32) (x3 : Vec F S384x256 .f32) (x4 x5 x6 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0 x0 x1 x2 x3 x4 x5 x6)) -∗ K ⟨⟩))
      ⊢ wp frame (wpE (defs₀ (F := F)) Variants.none c none) E
          (cc0__cheb_combine_kernel i arg1 harg1 arg2 harg2 arg3 harg3 arg4 harg4 arg5 harg5 arg6 harg6 arg7 harg7 arg8 harg8) K := by
  simp only [cc0__cheb_combine_kernel_eq_skeleton]; unfold cc0__cheb_combine_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0 _)

/-! ## The second layer's body -/

set_option maxHeartbeats 1000000 in
/-- Layer 2's body on whole buffers: the seven inputs at the contents `x0 … x6`, the output at anything. It
    runs to the continuation with the inputs as they were and the output at `out1` of them: the six loads of the
    first part and the load of the shift read the inputs whole, the load of the output's prior contents is not
    used, and the one store overwrites the whole output, so what it held before does not matter. -/
theorem sound_kernel1 (c : Dev nD) (E : Set ℕ) (i : grid1.Coords)
    (arg1 : Memref sig .tc .vmem S2000x256 .f32) (harg1 : arg1.IsWhole) (arg2 : Memref sig .tc .vmem S2000x256 .f32) (harg2 : arg2.IsWhole)
    (arg3 : Memref sig .tc .vmem S2000x256 .f32) (harg3 : arg3.IsWhole) (arg4 : Memref sig .tc .vmem S768x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S2000x128 .f32) (harg8 : arg8.IsWhole)
    (x0 x1 x2 : Vec F S2000x256 .f32) (x3 : Vec F S768x128 .f32) (x4 x5 x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out1 x0 x1 x2 x3 x4 x5 x6)) -∗ K ⟨⟩))
      ⊢ wp frame (wpE (defs₀ (F := F)) Variants.none c none) E
          (cc1__cheb_combine_kernel i arg1 harg1 arg2 harg2 arg3 harg3 arg4 harg4 arg5 harg5 arg6 harg6 arg7 harg7 arg8 harg8) K := by
  simp only [cc1__cheb_combine_kernel_eq_skeleton]; unfold cc1__cheb_combine_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1 _)

end Cert.KernelIdeal.Hand

end
-- ==== Proof.KRegions.lean ====
/-
  The two launches of the combine kernel, each at a parameter: the contents `V` of the core's buffers when the
  launch is entered. For each: what a window's block is at a grid point; that an input window's staging buffer holds
  its block whenever the body runs (the first three windows are fetched at every point, the weights, bias, scale and
  shift only at the first, their block index never moving); the proof data saying the body leaves the inputs in place
  and writes its function of the seven input blocks into the output buffer; and the body's obligation at a generic
  point, from the kernel's triple.
-/
import proofs.«108161_j89232240542461_2_alg».proof.Proof.Gen.KernelIdeal.Launch
import proofs.«108161_j89232240542461_2_alg».proof.Proof.Gen.KernelIdeal.Skeleton
import proofs.«108161_j89232240542461_2_alg».proof.Proof.Gen.KernelIdeal.Points
import proofs.«108161_j89232240542461_2_alg».proof.Proof.KBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 0: the first layer's combine kernel, at the contents `V` the region is entered with -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: the body leaves it in
    place and an unfetched window's block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not: the body leaves it in
    place and an unfetched window's block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not: the body leaves it in
    place and an unfetched window's block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, fetched there or not: the body leaves it in
    place and an unfetched window's block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, fetched there or not: the body leaves it in
    place and an unfetched window's block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, fetched there or not: the body leaves it in
    place and an unfetched window's block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's staging buffer holds its block at every point, fetched there or not: the body leaves it in
    place and an unfetched window's block index has not moved. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The proof data of pipeline 0 on core `c`: the arrays as the region finds them; after the body at point `t` each
    input's buffer still at its block and the output's at the body's function of the seven input blocks; the invariant
    is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`: the invariant, the core's dues, and each window's current staging buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so the kernel's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the second layer's combine kernel, at the contents `V` the region is entered with -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: the body leaves it in
    place and an unfetched window's block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not: the body leaves it in
    place and an unfetched window's block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not: the body leaves it in
    place and an unfetched window's block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, fetched there or not: the body leaves it in
    place and an unfetched window's block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, fetched there or not: the body leaves it in
    place and an unfetched window's block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds its block at every point, fetched there or not: the body leaves it in
    place and an unfetched window's block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's staging buffer holds its block at every point, fetched there or not: the body leaves it in
    place and an unfetched window's block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The proof data of pipeline 1 on core `c`: the arrays as the region finds them; after the body at point `t` each
    input's buffer still at its block and the output's at the body's function of the seven input blocks; the invariant
    is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point `t`: the invariant, the core's dues, and each window's current staging buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the kernel's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KRun.lean ====
/-
  The whole program's run. The core's buffer contents are followed from the launch memory through @main: six
  stretches of host operations (each the fold of its operations' results) and the two launches of the combine kernel
  (each leaving its arrays at what its pipeline's write-backs fold to and every other buffer as entered). Each stretch
  is a segment over the thread state "every unscoped buffer at the boundary's contents, the generator register at
  some state, nothing owed", each launch a segment that splits its arrays out of that state and puts them back. The
  run's last state is read back: the result buffer holds the last fold at its reference, and each argument array is
  walked back through the folds to the launch memory, since no host operation and no write-back touches an argument.
-/
import proofs.«108161_j89232240542461_2_alg».proof.Proof.KRegions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
abbrev W1 : Dev nD → Valuation τ sig (Elt F) := fun c => StableHlo.after main_part0_ops0 (W0 m ρ c)
abbrev W2 : Dev nD → Valuation τ sig (Elt F) := fun c => StableHlo.after main_part0_ops1 (W1 m ρ c)
abbrev W3 : Dev nD → Valuation τ sig (Elt F) := fun c => StableHlo.after main_part0_ops2 (W2 m ρ c)
/-- The first launch's entry. -/
abbrev W4 : Dev nD → Valuation τ sig (Elt F) := fun c => StableHlo.after main_part1_ops0 (W3 m ρ c)
abbrev V4 : (c : Dev nD) → (b : Ref sig .tc) → Buf (Elt F) ((c : Thread nD τ).loc b) := fun c b => W4 m ρ c b
/-- The first launch's exit: its arrays at what the pipeline leaves, every other buffer as entered. -/
def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
abbrev V5 : (c : Dev nD) → (b : Ref sig .tc) → Buf (Elt F) ((c : Thread nD τ).loc b) := fun c b => W5 m ρ c b
theorem hF0 (c : Dev nD) (w : Fin cfg0.W) : (dat0 (V4 m ρ) c).arrAt w cfg0.N = V5 m ρ c (Pipeline.arrRef spec0 w) :=
  (W5_arr m ρ c w).symm
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)

abbrev W6 : Dev nD → Valuation τ sig (Elt F) := fun c => StableHlo.after main_part1_ops1 (W5 m ρ c)
/-- The second launch's entry. -/
abbrev W7 : Dev nD → Valuation τ sig (Elt F) := fun c => StableHlo.after main_part2_ops0 (W6 m ρ c)
abbrev V7 : (c : Dev nD) → (b : Ref sig .tc) → Buf (Elt F) ((c : Thread nD τ).loc b) := fun c b => W7 m ρ c b
/-- The second launch's exit. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-! ## No stretch writes an argument array -/

/-- No operation of this stretch writes an argument array, so the fold leaves each argument as it was. -/
theorem main_part0_ops0_keeps (W : Valuation τ sig (Elt F)) (b : Ref sig .tc)
    (hb : b ∈ [main_arg0, main_arg1, main_arg2, main_arg3, main_arg4, main_arg5, main_arg6, main_arg7, main_arg8, main_arg9]) :
    StableHlo.after (main_part0_ops0 (F := F)) W (Proc.devRef .tc b) = W (Proc.devRef .tc b) := by
  refine StableHlo.after_of_forall_not_mem (b := Proc.devRef .tc b) _ _ (List.forall_iff_forall_mem.mp ?_)
  simp only [List.mem_cons, List.mem_nil_iff, or_false] at hb
  rcases hb with rfl | rfl | rfl | rfl | rfl | rfl | rfl | rfl | rfl | rfl <;>
  · simp only [main_part0_ops0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)
/-- No operation of this stretch writes an argument array, so the fold leaves each argument as it was. -/
theorem main_part0_ops1_keeps (W : Valuation τ sig (Elt F)) (b : Ref sig .tc)
    (hb : b ∈ [main_arg0, main_arg1, main_arg2, main_arg3, main_arg4, main_arg5, main_arg6, main_arg7, main_arg8, main_arg9]) :
    StableHlo.after (main_part0_ops1 (F := F)) W (Proc.devRef .tc b) = W (Proc.devRef .tc b) := by
  refine StableHlo.after_of_forall_not_mem (b := Proc.devRef .tc b) _ _ (List.forall_iff_forall_mem.mp ?_)
  simp only [List.mem_cons, List.mem_nil_iff, or_false] at hb
  rcases hb with rfl | rfl | rfl | rfl | rfl | rfl | rfl | rfl | rfl | rfl <;>
  · simp only [main_part0_ops1, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)
/-- No operation of this stretch writes an argument array, so the fold leaves each argument as it was. -/
theorem main_part0_ops2_keeps (W : Valuation τ sig (Elt F)) (b : Ref sig .tc)
    (hb : b ∈ [main_arg0, main_arg1, main_arg2, main_arg3, main_arg4, main_arg5, main_arg6, main_arg7, main_arg8, main_arg9]) :
    StableHlo.after (main_part0_ops2 (F := F)) W (Proc.devRef .tc b) = W (Proc.devRef .tc b) := by
  refine StableHlo.after_of_forall_not_mem (b := Proc.devRef .tc b) _ _ (List.forall_iff_forall_mem.mp ?_)
  simp only [List.mem_cons, List.mem_nil_iff, or_false] at hb
  rcases hb with rfl | rfl | rfl | rfl | rfl | rfl | rfl | rfl | rfl | rfl <;>
  · simp only [main_part0_ops2, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)
/-- No operation of this stretch writes an argument array, so the fold leaves each argument as it was. -/
theorem main_part1_ops0_keeps (W : Valuation τ sig (Elt F)) (b : Ref sig .tc)
    (hb : b ∈ [main_arg0, main_arg1, main_arg2, main_arg3, main_arg4, main_arg5, main_arg6, main_arg7, main_arg8, main_arg9]) :
    StableHlo.after (main_part1_ops0 (F := F)) W (Proc.devRef .tc b) = W (Proc.devRef .tc b) := by
  refine StableHlo.after_of_forall_not_mem (b := Proc.devRef .tc b) _ _ (List.forall_iff_forall_mem.mp ?_)
  simp only [List.mem_cons, List.mem_nil_iff, or_false] at hb
  rcases hb with rfl | rfl | rfl | rfl | rfl | rfl | rfl | rfl | rfl | rfl <;>
  · simp only [main_part1_ops0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)
/-- No operation of this stretch writes an argument array, so the fold leaves each argument as it was. -/
theorem main_part1_ops1_keeps (W : Valuation τ sig (Elt F)) (b : Ref sig .tc)
    (hb : b ∈ [main_arg0, main_arg1, main_arg2, main_arg3, main_arg4, main_arg5, main_arg6, main_arg7, main_arg8, main_arg9]) :
    StableHlo.after (main_part1_ops1 (F := F)) W (Proc.devRef .tc b) = W (Proc.devRef .tc b) := by
  refine StableHlo.after_of_forall_not_mem (b := Proc.devRef .tc b) _ _ (List.forall_iff_forall_mem.mp ?_)
  simp only [List.mem_cons, List.mem_nil_iff, or_false] at hb
  rcases hb with rfl | rfl | rfl | rfl | rfl | rfl | rfl | rfl | rfl | rfl <;>
  · simp only [main_part1_ops1, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)
/-- No operation of this stretch writes an argument array, so the fold leaves each argument as it was. -/
theorem main_part2_ops0_keeps (W : Valuation τ sig (Elt F)) (b : Ref sig .tc)
    (hb : b ∈ [main_arg0, main_arg1, main_arg2, main_arg3, main_arg4, main_arg5, main_arg6, main_arg7, main_arg8, main_arg9]) :
    StableHlo.after (main_part2_ops0 (F := F)) W (Proc.devRef .tc b) = W (Proc.devRef .tc b) := by
  refine StableHlo.after_of_forall_not_mem (b := Proc.devRef .tc b) _ _ (List.forall_iff_forall_mem.mp ?_)
  simp only [List.mem_cons, List.mem_nil_iff, or_false] at hb
  rcases hb with rfl | rfl | rfl | rfl | rfl | rfl | rfl | rfl | rfl | rfl <;>
  · simp only [main_part2_ops0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)

/-- The first launch leaves an argument array as entered: the node features are its first input window's array (an
    input window's array is never written back), the other arguments are no window's array. -/
theorem W5_keeps (c : Dev nD) (b : Ref sig .tc)
    (hb : b ∈ [main_arg0, main_arg1, main_arg2, main_arg3, main_arg4, main_arg5, main_arg6, main_arg7, main_arg8, main_arg9]) :
    W5 m ρ c (Proc.devRef .tc b) = W4 m ρ c (Proc.devRef .tc b) := by
  simp only [List.mem_cons, List.mem_nil_iff, or_false] at hb
  rcases hb with rfl | rfl | rfl | rfl | rfl | rfl | rfl | rfl | rfl | rfl
  · exact (W5_arr m ρ c 0).trans (((dat0 (V4 m ρ) c).arrAt_in 0 rfl _).trans (A_eq0 (V4 m ρ) c 0))
  all_goals exact W5_of_ne m ρ c _ (by decide)

/-- The second launch reads no argument array through a window. -/
theorem W8_keeps (c : Dev nD) (b : Ref sig .tc)
    (hb : b ∈ [main_arg0, main_arg1, main_arg2, main_arg3, main_arg4, main_arg5, main_arg6, main_arg7, main_arg8, main_arg9]) :
    W8 m ρ c (Proc.devRef .tc b) = W7 m ρ c (Proc.devRef .tc b) := by
  simp only [List.mem_cons, List.mem_nil_iff, or_false] at hb
  rcases hb with rfl | rfl | rfl | rfl | rfl | rfl | rfl | rfl | rfl | rfl
  all_goals exact W8_of_ne m ρ c _ (by decide)

/-- Every argument array ends as launched. -/
theorem W8_arg (c : Dev nD) (b : Ref sig .tc)
    (hb : b ∈ [main_arg0, main_arg1, main_arg2, main_arg3, main_arg4, main_arg5, main_arg6, main_arg7, main_arg8, main_arg9]) :
    W8 m ρ c (Proc.devRef .tc b) = m ((c : Thread nD τ).loc b) :=
  calc W8 m ρ c (Proc.devRef .tc b)
    _ = W7 m ρ c (Proc.devRef .tc b) := W8_keeps m ρ c b hb
    _ = W6 m ρ c (Proc.devRef .tc b) := main_part2_ops0_keeps _ b hb
    _ = W5 m ρ c (Proc.devRef .tc b) := main_part1_ops1_keeps _ b hb
    _ = W4 m ρ c (Proc.devRef .tc b) := W5_keeps m ρ c b hb
    _ = W3 m ρ c (Proc.devRef .tc b) := main_part1_ops0_keeps _ b hb
    _ = W2 m ρ c (Proc.devRef .tc b) := main_part0_ops2_keeps _ b hb
    _ = W1 m ρ c (Proc.devRef .tc b) := main_part0_ops1_keeps _ b hb
    _ = W0 m ρ c (Proc.devRef .tc b) := main_part0_ops0_keeps _ b hb
    _ = m ((c : Thread nD τ).loc b) := rfl

/-! ## The proof data family and the thread state -/

/-- No pipeline reads a prefetched table. -/
abbrev adm : (p : Fin 2) → (pcfgs (F := F) p).Adm := fun p => (cfgs p).toPCfg_adm
/-- Each pipeline's proof data at its launch's entry contents: a literal match on the pipeline. -/
def pdats : (p : Fin 2) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V7 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of this stretch allocates a buffer. -/
theorem main_part0_ops0_fresh : (main_part0_ops0 : List (HloOp τ sig (Elt F))).Forall fun op => op.fresh = ∅ := by
  simp only [List.Forall]; repeat' constructor
/-- No operation of this stretch allocates a buffer. -/
theorem main_part0_ops1_fresh : (main_part0_ops1 : List (HloOp τ sig (Elt F))).Forall fun op => op.fresh = ∅ := by
  simp only [List.Forall]; repeat' constructor
/-- No operation of this stretch allocates a buffer. -/
theorem main_part0_ops2_fresh : (main_part0_ops2 : List (HloOp τ sig (Elt F))).Forall fun op => op.fresh = ∅ := by
  simp only [List.Forall]; repeat' constructor
/-- No operation of this stretch allocates a buffer. -/
theorem main_part1_ops0_fresh : (main_part1_ops0 : List (HloOp τ sig (Elt F))).Forall fun op => op.fresh = ∅ := by
  simp only [List.Forall]; repeat' constructor
/-- No operation of this stretch allocates a buffer. -/
theorem main_part1_ops1_fresh : (main_part1_ops1 : List (HloOp τ sig (Elt F))).Forall fun op => op.fresh = ∅ := by
  simp only [List.Forall]; repeat' constructor
/-- No operation of this stretch allocates a buffer. -/
theorem main_part2_ops0_fresh : (main_part2_ops0 : List (HloOp τ sig (Elt F))).Forall fun op => op.fresh = ∅ := by
  simp only [List.Forall]; repeat' constructor
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W8 m ρ c) ∗ ∃ r, prngReg c r)

/-! ## The launches as segments -/

-- unifying a library lemma stated over the pinned configuration with the printed one unfolds plain definitions in a
-- metavariable's type
set_option backward.isDefEq.respectTransparency.types false in
/-- Launch 0 over the thread state: entered with every unscoped buffer at `W4`, left with them at `W5`. Its arrays
    are split out of the unscoped buffers and put back at what the pipeline leaves; the generator register goes into
    the class invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (V5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions in a
-- metavariable's type
set_option backward.isDefEq.respectTransparency.types false in
/-- Launch 1 over the thread state: entered with every unscoped buffer at `W7`, left with them at `W8`. Its arrays
    are split out of the unscoped buffers and put back at what the pipeline leaves; the generator register goes into
    the class invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg main_part0_ops0 main_part0_ops0_sub main_part0_ops0_fresh (W0 m ρ)),
    .host (hseg main_part0_ops1 main_part0_ops1_sub main_part0_ops1_fresh (W1 m ρ)),
    .host (hseg main_part0_ops2 main_part0_ops2_sub main_part0_ops2_fresh (W2 m ρ)),
    .host (hseg main_part1_ops0 main_part1_ops0_sub main_part1_ops0_fresh (W3 m ρ)),
    .region (reg0 m ρ),
    .host (hseg main_part1_ops1 main_part1_ops1_sub main_part1_ops1_fresh (W5 m ρ)),
    .host (hseg main_part2_ops0 main_part2_ops0_sub main_part2_ops0_fresh (W6 m ρ)),
    .region (reg1 m ρ) ]
/-- @main is the run of the segments. -/
theorem main_run (c : Dev nD) : main (F := F) c = Pipeline.Seg.run (segs m ρ) := (main_chain_windows c).trans (by chain_rfl)

set_option backward.isDefEq.respectTransparency.types false in
/-- THE RUN: from any memory with zero counters every weakly fair execution of @main terminates, nothing faulting;
    in every final state the result buffer holds the last fold at its reference, and the ten argument arrays are as
    launched. -/
theorem run_main : θ_run defs (onTc (τ := τ) (main (F := F))) ⟨m, fun _ => 0, ρ⟩ (fun r => ∀ c : Dev nD,
      r.2.mem ((c.tc : Thread nD τ).loc main_v135) = W8 m ρ c (Proc.devRef .tc main_v135)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W8 m ρ c) ∗ R c)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v135 (by decide)),
       (h c _ (mem_uc main_arg0 (by decide))).trans (W8_arg m ρ c main_arg0 (by simp)),
       (h c _ (mem_uc main_arg1 (by decide))).trans (W8_arg m ρ c main_arg1 (by simp)),
       (h c _ (mem_uc main_arg2 (by decide))).trans (W8_arg m ρ c main_arg2 (by simp)),
       (h c _ (mem_uc main_arg3 (by decide))).trans (W8_arg m ρ c main_arg3 (by simp)),
       (h c _ (mem_uc main_arg4 (by decide))).trans (W8_arg m ρ c main_arg4 (by simp)),
       (h c _ (mem_uc main_arg5 (by decide))).trans (W8_arg m ρ c main_arg5 (by simp)),
       (h c _ (mem_uc main_arg6 (by decide))).trans (W8_arg m ρ c main_arg6 (by simp)),
       (h c _ (mem_uc main_arg7 (by decide))).trans (W8_arg m ρ c main_arg7 (by simp)),
       (h c _ (mem_uc main_arg8 (by decide))).trans (W8_arg m ρ c main_arg8 (by simp)),
       (h c _ (mem_uc main_arg9 (by decide))).trans (W8_arg m ρ c main_arg9 (by simp))⟩)

/-- THE FRAME: the run with the result's contents forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_main m ρ)

end Cert.KernelIdeal.Hand

end
-- ==== Proof.BOut.lean ====
/-
  What one call of the combine kernel leaves in its output window's buffer, as a function of the seven input
  blocks it loads whole: the three node-feature blocks (T0, T1, T2), the stacked weights, the bias, the scale and the
  shift. The body's arithmetic is the skeleton's two payloads composed: the first computes the normalised, scaled
  rows from the stacked product plus bias; the second adds the shift and takes the maximum with zero. The one store
  covers the whole buffer, so the buffer afterwards is the canonical form of that single piece.
-/
import proofs.«108161_j89232240542461_2_alg».proof.Proof.Gen.Kernel.Skeleton
import Idealize.ShloMosaic.Lib.Pipeline.FrameBody

noncomputable section

namespace Cert.Kernel.Hand

open Idealize.ShloMosaic Idealize.ShloMosaic.TcCoe
open Cert.Kernel Cert.Kernel.Gen

variable {F : FTy → Type} [FloatOps F]

/-! ## The whole-buffer rectangles the bodies load and store through -/

abbrev rN128 : Rect S2000x128 := Rect.unit (s := S2000x128) ![0, 0] S2000x128.size inb_S2000x128_S2000x128_0_0
abbrev rN256 : Rect S2000x256 := Rect.unit (s := S2000x256) ![0, 0] S2000x256.size inb_S2000x256_S2000x256_0_0
abbrev rW384 : Rect S384x256 := Rect.unit (s := S384x256) ![0, 0] S384x256.size inb_S384x256_S384x256_0_0
abbrev rW768 : Rect S768x128 := Rect.unit (s := S768x128) ![0, 0] S768x128.size inb_S768x128_S768x128_0_0
abbrev rV256 : Rect S1x256 := Rect.unit (s := S1x256) ![0, 0] S1x256.size inb_S1x256_S1x256_0_0
abbrev rV128 : Rect S1x128 := Rect.unit (s := S1x128) ![0, 0] S1x128.size inb_S1x128_S1x128_0_0

/-! ## What each body leaves in its output buffer -/

/-- The first layer's body: 128-wide feature blocks, 384×256 stacked weights, 256-wide output rows. -/
def out0 (x0 x1 x2 : Vec F S2000x128 .f32) (x3 : Vec F S384x256 .f32) (x4 x5 x6 : Vec F S1x256 .f32) :
    Vec F S2000x256 .f32 :=
  View.canon [⟨rN256, k0_pay1 (k0_pay2 (View.ld x0 rN128) (View.ld x1 rN128) (View.ld x2 rN128) (View.ld x3 rW384)
    (View.ld x4 rV256) (View.ld x5 rV256)) (View.ld x6 rV256)⟩]

/-- The second layer's body: 256-wide feature blocks, 768×128 stacked weights, 128-wide output rows. -/
def out1 (x0 x1 x2 : Vec F S2000x256 .f32) (x3 : Vec F S768x128 .f32) (x4 x5 x6 : Vec F S1x128 .f32) :
    Vec F S2000x128 .f32 :=
  View.canon [⟨rN128, k1_pay1 (k1_pay2 (View.ld x0 rN256) (View.ld x1 rN256) (View.ld x2 rN256) (View.ld x3 rW768)
    (View.ld x4 rV128) (View.ld x5 rV128)) (View.ld x6 rV128)⟩]

/-- The single store tiles its buffer, so it covers it. -/
theorem cover0 (p : Vec F S2000x256 .f32) (y : S2000x256.Idx) :
    ∃ pc ∈ ([⟨rN256, p⟩] : List (View.Piece (Elt F) S2000x256 .f32)), y ∈ pc.1.set :=
  View.cover_of_tiled [⟨rN256, p⟩] S2000x256.size (by rfl) y

theorem cover1 (p : Vec F S2000x128 .f32) (y : S2000x128.Idx) :
    ∃ pc ∈ ([⟨rN128, p⟩] : List (View.Piece (Elt F) S2000x128 .f32)), y ∈ pc.1.set :=
  View.cover_of_tiled [⟨rN128, p⟩] S2000x128.size (by rfl) y

end Cert.Kernel.Hand

end
-- ==== Proof.BBody.lean ====
/-
  The two combine-kernel bodies as separation-logic triples. Each body, run on whole buffers holding the seven input
  blocks, returns them unchanged and leaves in the output buffer the canonical form of its single whole-buffer store:
  the second payload (shift added, maximum with zero) of the first payload (stacked product, bias, row
  normalisation, scale) of the loaded inputs. The output buffer is also loaded before it is stored, but that value is
  never used, so the triple asks nothing of the output's prior contents.
-/
import proofs.«108161_j89232240542461_2_alg».proof.Proof.Gen.Kernel.Launch
import proofs.«108161_j89232240542461_2_alg».proof.Proof.Gen.Kernel.Skeleton
import proofs.«108161_j89232240542461_2_alg».proof.Proof.Gen.Kernel.Points
import proofs.«108161_j89232240542461_2_alg».proof.Proof.BOut
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The first layer's body -/

set_option maxHeartbeats 1000000 in
/-- Layer 1's body on whole buffers: the seven inputs at the contents `x0 … x6`, the output at anything. It
    runs to the continuation with the inputs as they were and the output at `out0` of them: the six loads of the
    first part and the load of the shift read the inputs whole, the load of the output's prior contents is not
    used, and the one store overwrites the whole output, so what it held before does not matter. -/
theorem sound_kernel0 (c : Dev nD) (E : Set ℕ) (i : grid0.Coords)
    (arg1 : Memref sig .tc .vmem S2000x128 .f32) (harg1 : arg1.IsWhole) (arg2 : Memref sig .tc .vmem S2000x128 .f32) (harg2 : arg2.IsWhole)
    (arg3 : Memref sig .tc .vmem S2000x128 .f32) (harg3 : arg3.IsWhole) (arg4 : Memref sig .tc .vmem S384x256 .f32) (harg4 : arg4.IsWhole)
    (arg5 : Memref sig .tc .vmem S1x256 .f32) (harg5 : arg5.IsWhole) (arg6 : Memref sig .tc .vmem S1x256 .f32) (harg6 : arg6.IsWhole)
    (arg7 : Memref sig .tc .vmem S1x256 .f32) (harg7 : arg7.IsWhole) (arg8 : Memref sig .tc .vmem S2000x256 .f32) (harg8 : arg8.IsWhole)
    (x0 x1 x2 : Vec F S2000x128 .f32) (x3 : Vec F S384x256 .f32) (x4 x5 x6 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0 x0 x1 x2 x3 x4 x5 x6)) -∗ K ⟨⟩))
      ⊢ wp frame (wpE (defs₀ (F := F)) Variants.none c none) E
          (cc0__cheb_combine_kernel i arg1 harg1 arg2 harg2 arg3 harg3 arg4 harg4 arg5 harg5 arg6 harg6 arg7 harg7 arg8 harg8) K := by
  simp only [cc0__cheb_combine_kernel_eq_skeleton]; unfold cc0__cheb_combine_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0 _)

/-! ## The second layer's body -/

set_option maxHeartbeats 1000000 in
/-- Layer 2's body on whole buffers: the seven inputs at the contents `x0 … x6`, the output at anything. It
    runs to the continuation with the inputs as they were and the output at `out1` of them: the six loads of the
    first part and the load of the shift read the inputs whole, the load of the output's prior contents is not
    used, and the one store overwrites the whole output, so what it held before does not matter. -/
theorem sound_kernel1 (c : Dev nD) (E : Set ℕ) (i : grid1.Coords)
    (arg1 : Memref sig .tc .vmem S2000x256 .f32) (harg1 : arg1.IsWhole) (arg2 : Memref sig .tc .vmem S2000x256 .f32) (harg2 : arg2.IsWhole)
    (arg3 : Memref sig .tc .vmem S2000x256 .f32) (harg3 : arg3.IsWhole) (arg4 : Memref sig .tc .vmem S768x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S2000x128 .f32) (harg8 : arg8.IsWhole)
    (x0 x1 x2 : Vec F S2000x256 .f32) (x3 : Vec F S768x128 .f32) (x4 x5 x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out1 x0 x1 x2 x3 x4 x5 x6)) -∗ K ⟨⟩))
      ⊢ wp frame (wpE (defs₀ (F := F)) Variants.none c none) E
          (cc1__cheb_combine_kernel i arg1 harg1 arg2 harg2 arg3 harg3 arg4 harg4 arg5 harg5 arg6 harg6 arg7 harg7 arg8 harg8) K := by
  simp only [cc1__cheb_combine_kernel_eq_skeleton]; unfold cc1__cheb_combine_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1 _)

end Cert.Kernel.Hand

end
-- ==== Proof.BRegions.lean ====
/-
  The two launches of the combine kernel, each at a parameter: the contents `V` of the core's buffers when the
  launch is entered. For each: what a window's block is at a grid point; that an input window's staging buffer holds
  its block whenever the body runs (the first three windows are fetched at every point, the weights, bias, scale and
  shift only at the first, their block index never moving); the proof data saying the body leaves the inputs in place
  and writes its function of the seven input blocks into the output buffer; and the body's obligation at a generic
  point, from the kernel's triple.
-/
import proofs.«108161_j89232240542461_2_alg».proof.Proof.Gen.Kernel.Launch
import proofs.«108161_j89232240542461_2_alg».proof.Proof.Gen.Kernel.Skeleton
import proofs.«108161_j89232240542461_2_alg».proof.Proof.Gen.Kernel.Points
import proofs.«108161_j89232240542461_2_alg».proof.Proof.BBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 0: the first layer's combine kernel, at the contents `V` the region is entered with -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: the body leaves it in
    place and an unfetched window's block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not: the body leaves it in
    place and an unfetched window's block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not: the body leaves it in
    place and an unfetched window's block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, fetched there or not: the body leaves it in
    place and an unfetched window's block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, fetched there or not: the body leaves it in
    place and an unfetched window's block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, fetched there or not: the body leaves it in
    place and an unfetched window's block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's staging buffer holds its block at every point, fetched there or not: the body leaves it in
    place and an unfetched window's block index has not moved. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The proof data of pipeline 0 on core `c`: the arrays as the region finds them; after the body at point `t` each
    input's buffer still at its block and the output's at the body's function of the seven input blocks; the invariant
    is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`: the invariant, the core's dues, and each window's current staging buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so the kernel's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the second layer's combine kernel, at the contents `V` the region is entered with -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: the body leaves it in
    place and an unfetched window's block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not: the body leaves it in
    place and an unfetched window's block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not: the body leaves it in
    place and an unfetched window's block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, fetched there or not: the body leaves it in
    place and an unfetched window's block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, fetched there or not: the body leaves it in
    place and an unfetched window's block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds its block at every point, fetched there or not: the body leaves it in
    place and an unfetched window's block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's staging buffer holds its block at every point, fetched there or not: the body leaves it in
    place and an unfetched window's block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The proof data of pipeline 1 on core `c`: the arrays as the region finds them; after the body at point `t` each
    input's buffer still at its block and the output's at the body's function of the seven input blocks; the invariant
    is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point `t`: the invariant, the core's dues, and each window's current staging buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the kernel's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.BRun.lean ====
/-
  The whole program's run. The core's buffer contents are followed from the launch memory through @main: six
  stretches of host operations (each the fold of its operations' results) and the two launches of the combine kernel
  (each leaving its arrays at what its pipeline's write-backs fold to and every other buffer as entered). Each stretch
  is a segment over the thread state "every unscoped buffer at the boundary's contents, the generator register at
  some state, nothing owed", each launch a segment that splits its arrays out of that state and puts them back. The
  run's last state is read back: the result buffer holds the last fold at its reference, and each argument array is
  walked back through the folds to the launch memory, since no host operation and no write-back touches an argument.
-/
import proofs.«108161_j89232240542461_2_alg».proof.Proof.BRegions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
abbrev W1 : Dev nD → Valuation τ sig (Elt F) := fun c => StableHlo.after main_part0_ops0 (W0 m ρ c)
abbrev W2 : Dev nD → Valuation τ sig (Elt F) := fun c => StableHlo.after main_part0_ops1 (W1 m ρ c)
abbrev W3 : Dev nD → Valuation τ sig (Elt F) := fun c => StableHlo.after main_part0_ops2 (W2 m ρ c)
/-- The first launch's entry. -/
abbrev W4 : Dev nD → Valuation τ sig (Elt F) := fun c => StableHlo.after main_part1_ops0 (W3 m ρ c)
abbrev V4 : (c : Dev nD) → (b : Ref sig .tc) → Buf (Elt F) ((c : Thread nD τ).loc b) := fun c b => W4 m ρ c b
/-- The first launch's exit: its arrays at what the pipeline leaves, every other buffer as entered. -/
def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
abbrev V5 : (c : Dev nD) → (b : Ref sig .tc) → Buf (Elt F) ((c : Thread nD τ).loc b) := fun c b => W5 m ρ c b
theorem hF0 (c : Dev nD) (w : Fin cfg0.W) : (dat0 (V4 m ρ) c).arrAt w cfg0.N = V5 m ρ c (Pipeline.arrRef spec0 w) :=
  (W5_arr m ρ c w).symm
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)

abbrev W6 : Dev nD → Valuation τ sig (Elt F) := fun c => StableHlo.after main_part1_ops1 (W5 m ρ c)
/-- The second launch's entry. -/
abbrev W7 : Dev nD → Valuation τ sig (Elt F) := fun c => StableHlo.after main_part2_ops0 (W6 m ρ c)
abbrev V7 : (c : Dev nD) → (b : Ref sig .tc) → Buf (Elt F) ((c : Thread nD τ).loc b) := fun c b => W7 m ρ c b
/-- The second launch's exit. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-! ## No stretch writes an argument array -/

/-- No operation of this stretch writes an argument array, so the fold leaves each argument as it was. -/
theorem main_part0_ops0_keeps (W : Valuation τ sig (Elt F)) (b : Ref sig .tc)
    (hb : b ∈ [main_arg0, main_arg1, main_arg2, main_arg3, main_arg4, main_arg5, main_arg6, main_arg7, main_arg8, main_arg9]) :
    StableHlo.after (main_part0_ops0 (F := F)) W (Proc.devRef .tc b) = W (Proc.devRef .tc b) := by
  refine StableHlo.after_of_forall_not_mem (b := Proc.devRef .tc b) _ _ (List.forall_iff_forall_mem.mp ?_)
  simp only [List.mem_cons, List.mem_nil_iff, or_false] at hb
  rcases hb with rfl | rfl | rfl | rfl | rfl | rfl | rfl | rfl | rfl | rfl <;>
  · simp only [main_part0_ops0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)
/-- No operation of this stretch writes an argument array, so the fold leaves each argument as it was. -/
theorem main_part0_ops1_keeps (W : Valuation τ sig (Elt F)) (b : Ref sig .tc)
    (hb : b ∈ [main_arg0, main_arg1, main_arg2, main_arg3, main_arg4, main_arg5, main_arg6, main_arg7, main_arg8, main_arg9]) :
    StableHlo.after (main_part0_ops1 (F := F)) W (Proc.devRef .tc b) = W (Proc.devRef .tc b) := by
  refine StableHlo.after_of_forall_not_mem (b := Proc.devRef .tc b) _ _ (List.forall_iff_forall_mem.mp ?_)
  simp only [List.mem_cons, List.mem_nil_iff, or_false] at hb
  rcases hb with rfl | rfl | rfl | rfl | rfl | rfl | rfl | rfl | rfl | rfl <;>
  · simp only [main_part0_ops1, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)
/-- No operation of this stretch writes an argument array, so the fold leaves each argument as it was. -/
theorem main_part0_ops2_keeps (W : Valuation τ sig (Elt F)) (b : Ref sig .tc)
    (hb : b ∈ [main_arg0, main_arg1, main_arg2, main_arg3, main_arg4, main_arg5, main_arg6, main_arg7, main_arg8, main_arg9]) :
    StableHlo.after (main_part0_ops2 (F := F)) W (Proc.devRef .tc b) = W (Proc.devRef .tc b) := by
  refine StableHlo.after_of_forall_not_mem (b := Proc.devRef .tc b) _ _ (List.forall_iff_forall_mem.mp ?_)
  simp only [List.mem_cons, List.mem_nil_iff, or_false] at hb
  rcases hb with rfl | rfl | rfl | rfl | rfl | rfl | rfl | rfl | rfl | rfl <;>
  · simp only [main_part0_ops2, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)
/-- No operation of this stretch writes an argument array, so the fold leaves each argument as it was. -/
theorem main_part1_ops0_keeps (W : Valuation τ sig (Elt F)) (b : Ref sig .tc)
    (hb : b ∈ [main_arg0, main_arg1, main_arg2, main_arg3, main_arg4, main_arg5, main_arg6, main_arg7, main_arg8, main_arg9]) :
    StableHlo.after (main_part1_ops0 (F := F)) W (Proc.devRef .tc b) = W (Proc.devRef .tc b) := by
  refine StableHlo.after_of_forall_not_mem (b := Proc.devRef .tc b) _ _ (List.forall_iff_forall_mem.mp ?_)
  simp only [List.mem_cons, List.mem_nil_iff, or_false] at hb
  rcases hb with rfl | rfl | rfl | rfl | rfl | rfl | rfl | rfl | rfl | rfl <;>
  · simp only [main_part1_ops0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)
/-- No operation of this stretch writes an argument array, so the fold leaves each argument as it was. -/
theorem main_part1_ops1_keeps (W : Valuation τ sig (Elt F)) (b : Ref sig .tc)
    (hb : b ∈ [main_arg0, main_arg1, main_arg2, main_arg3, main_arg4, main_arg5, main_arg6, main_arg7, main_arg8, main_arg9]) :
    StableHlo.after (main_part1_ops1 (F := F)) W (Proc.devRef .tc b) = W (Proc.devRef .tc b) := by
  refine StableHlo.after_of_forall_not_mem (b := Proc.devRef .tc b) _ _ (List.forall_iff_forall_mem.mp ?_)
  simp only [List.mem_cons, List.mem_nil_iff, or_false] at hb
  rcases hb with rfl | rfl | rfl | rfl | rfl | rfl | rfl | rfl | rfl | rfl <;>
  · simp only [main_part1_ops1, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)
/-- No operation of this stretch writes an argument array, so the fold leaves each argument as it was. -/
theorem main_part2_ops0_keeps (W : Valuation τ sig (Elt F)) (b : Ref sig .tc)
    (hb : b ∈ [main_arg0, main_arg1, main_arg2, main_arg3, main_arg4, main_arg5, main_arg6, main_arg7, main_arg8, main_arg9]) :
    StableHlo.after (main_part2_ops0 (F := F)) W (Proc.devRef .tc b) = W (Proc.devRef .tc b) := by
  refine StableHlo.after_of_forall_not_mem (b := Proc.devRef .tc b) _ _ (List.forall_iff_forall_mem.mp ?_)
  simp only [List.mem_cons, List.mem_nil_iff, or_false] at hb
  rcases hb with rfl | rfl | rfl | rfl | rfl | rfl | rfl | rfl | rfl | rfl <;>
  · simp only [main_part2_ops0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)

/-- The first launch leaves an argument array as entered: the node features are its first input window's array (an
    input window's array is never written back), the other arguments are no window's array. -/
theorem W5_keeps (c : Dev nD) (b : Ref sig .tc)
    (hb : b ∈ [main_arg0, main_arg1, main_arg2, main_arg3, main_arg4, main_arg5, main_arg6, main_arg7, main_arg8, main_arg9]) :
    W5 m ρ c (Proc.devRef .tc b) = W4 m ρ c (Proc.devRef .tc b) := by
  simp only [List.mem_cons, List.mem_nil_iff, or_false] at hb
  rcases hb with rfl | rfl | rfl | rfl | rfl | rfl | rfl | rfl | rfl | rfl
  · exact (W5_arr m ρ c 0).trans (((dat0 (V4 m ρ) c).arrAt_in 0 rfl _).trans (A_eq0 (V4 m ρ) c 0))
  all_goals exact W5_of_ne m ρ c _ (by decide)

/-- The second launch reads no argument array through a window. -/
theorem W8_keeps (c : Dev nD) (b : Ref sig .tc)
    (hb : b ∈ [main_arg0, main_arg1, main_arg2, main_arg3, main_arg4, main_arg5, main_arg6, main_arg7, main_arg8, main_arg9]) :
    W8 m ρ c (Proc.devRef .tc b) = W7 m ρ c (Proc.devRef .tc b) := by
  simp only [List.mem_cons, List.mem_nil_iff, or_false] at hb
  rcases hb with rfl | rfl | rfl | rfl | rfl | rfl | rfl | rfl | rfl | rfl
  all_goals exact W8_of_ne m ρ c _ (by decide)

/-- Every argument array ends as launched. -/
theorem W8_arg (c : Dev nD) (b : Ref sig .tc)
    (hb : b ∈ [main_arg0, main_arg1, main_arg2, main_arg3, main_arg4, main_arg5, main_arg6, main_arg7, main_arg8, main_arg9]) :
    W8 m ρ c (Proc.devRef .tc b) = m ((c : Thread nD τ).loc b) :=
  calc W8 m ρ c (Proc.devRef .tc b)
    _ = W7 m ρ c (Proc.devRef .tc b) := W8_keeps m ρ c b hb
    _ = W6 m ρ c (Proc.devRef .tc b) := main_part2_ops0_keeps _ b hb
    _ = W5 m ρ c (Proc.devRef .tc b) := main_part1_ops1_keeps _ b hb
    _ = W4 m ρ c (Proc.devRef .tc b) := W5_keeps m ρ c b hb
    _ = W3 m ρ c (Proc.devRef .tc b) := main_part1_ops0_keeps _ b hb
    _ = W2 m ρ c (Proc.devRef .tc b) := main_part0_ops2_keeps _ b hb
    _ = W1 m ρ c (Proc.devRef .tc b) := main_part0_ops1_keeps _ b hb
    _ = W0 m ρ c (Proc.devRef .tc b) := main_part0_ops0_keeps _ b hb
    _ = m ((c : Thread nD τ).loc b) := rfl

/-! ## The proof data family and the thread state -/

/-- No pipeline reads a prefetched table. -/
abbrev adm : (p : Fin 2) → (pcfgs (F := F) p).Adm := fun p => (cfgs p).toPCfg_adm
/-- Each pipeline's proof data at its launch's entry contents: a literal match on the pipeline. -/
def pdats : (p : Fin 2) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V7 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of this stretch allocates a buffer. -/
theorem main_part0_ops0_fresh : (main_part0_ops0 : List (HloOp τ sig (Elt F))).Forall fun op => op.fresh = ∅ := by
  simp only [List.Forall]; repeat' constructor
/-- No operation of this stretch allocates a buffer. -/
theorem main_part0_ops1_fresh : (main_part0_ops1 : List (HloOp τ sig (Elt F))).Forall fun op => op.fresh = ∅ := by
  simp only [List.Forall]; repeat' constructor
/-- No operation of this stretch allocates a buffer. -/
theorem main_part0_ops2_fresh : (main_part0_ops2 : List (HloOp τ sig (Elt F))).Forall fun op => op.fresh = ∅ := by
  simp only [List.Forall]; repeat' constructor
/-- No operation of this stretch allocates a buffer. -/
theorem main_part1_ops0_fresh : (main_part1_ops0 : List (HloOp τ sig (Elt F))).Forall fun op => op.fresh = ∅ := by
  simp only [List.Forall]; repeat' constructor
/-- No operation of this stretch allocates a buffer. -/
theorem main_part1_ops1_fresh : (main_part1_ops1 : List (HloOp τ sig (Elt F))).Forall fun op => op.fresh = ∅ := by
  simp only [List.Forall]; repeat' constructor
/-- No operation of this stretch allocates a buffer. -/
theorem main_part2_ops0_fresh : (main_part2_ops0 : List (HloOp τ sig (Elt F))).Forall fun op => op.fresh = ∅ := by
  simp only [List.Forall]; repeat' constructor
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W8 m ρ c) ∗ ∃ r, prngReg c r)

/-! ## The launches as segments -/

-- unifying a library lemma stated over the pinned configuration with the printed one unfolds plain definitions in a
-- metavariable's type
set_option backward.isDefEq.respectTransparency.types false in
/-- Launch 0 over the thread state: entered with every unscoped buffer at `W4`, left with them at `W5`. Its arrays
    are split out of the unscoped buffers and put back at what the pipeline leaves; the generator register goes into
    the class invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (V5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions in a
-- metavariable's type
set_option backward.isDefEq.respectTransparency.types false in
/-- Launch 1 over the thread state: entered with every unscoped buffer at `W7`, left with them at `W8`. Its arrays
    are split out of the unscoped buffers and put back at what the pipeline leaves; the generator register goes into
    the class invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg main_part0_ops0 main_part0_ops0_sub main_part0_ops0_fresh (W0 m ρ)),
    .host (hseg main_part0_ops1 main_part0_ops1_sub main_part0_ops1_fresh (W1 m ρ)),
    .host (hseg main_part0_ops2 main_part0_ops2_sub main_part0_ops2_fresh (W2 m ρ)),
    .host (hseg main_part1_ops0 main_part1_ops0_sub main_part1_ops0_fresh (W3 m ρ)),
    .region (reg0 m ρ),
    .host (hseg main_part1_ops1 main_part1_ops1_sub main_part1_ops1_fresh (W5 m ρ)),
    .host (hseg main_part2_ops0 main_part2_ops0_sub main_part2_ops0_fresh (W6 m ρ)),
    .region (reg1 m ρ) ]
/-- @main is the run of the segments. -/
theorem main_run (c : Dev nD) : main (F := F) c = Pipeline.Seg.run (segs m ρ) := (main_chain_windows c).trans (by chain_rfl)

set_option backward.isDefEq.respectTransparency.types false in
/-- THE RUN: from any memory with zero counters every weakly fair execution of @main terminates, nothing faulting;
    in every final state the result buffer holds the last fold at its reference, and the ten argument arrays are as
    launched. -/
theorem run_main : θ_run defs (onTc (τ := τ) (main (F := F))) ⟨m, fun _ => 0, ρ⟩ (fun r => ∀ c : Dev nD,
      r.2.mem ((c.tc : Thread nD τ).loc main_v135) = W8 m ρ c (Proc.devRef .tc main_v135)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W8 m ρ c) ∗ R c)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v135 (by decide)),
       (h c _ (mem_uc main_arg0 (by decide))).trans (W8_arg m ρ c main_arg0 (by simp)),
       (h c _ (mem_uc main_arg1 (by decide))).trans (W8_arg m ρ c main_arg1 (by simp)),
       (h c _ (mem_uc main_arg2 (by decide))).trans (W8_arg m ρ c main_arg2 (by simp)),
       (h c _ (mem_uc main_arg3 (by decide))).trans (W8_arg m ρ c main_arg3 (by simp)),
       (h c _ (mem_uc main_arg4 (by decide))).trans (W8_arg m ρ c main_arg4 (by simp)),
       (h c _ (mem_uc main_arg5 (by decide))).trans (W8_arg m ρ c main_arg5 (by simp)),
       (h c _ (mem_uc main_arg6 (by decide))).trans (W8_arg m ρ c main_arg6 (by simp)),
       (h c _ (mem_uc main_arg7 (by decide))).trans (W8_arg m ρ c main_arg7 (by simp)),
       (h c _ (mem_uc main_arg8 (by decide))).trans (W8_arg m ρ c main_arg8 (by simp)),
       (h c _ (mem_uc main_arg9 (by decide))).trans (W8_arg m ρ c main_arg9 (by simp))⟩)

/-- THE FRAME: the run with the result's contents forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_main m ρ)

end Cert.Kernel.Hand

end
-- ==== Proof.KHostDefs.lean ====
/-
  The host side of the kernel's program as whole-array terms, spelt exactly as the printed operations compose: the
  source and destination words of the edges; the self-loop indicator and its complement; the degree (the complement
  summed into the source nodes), its inverse square root where positive, the self-loop count; the wrapped source words and
  the destination words as index columns; one propagation step and the second Chebyshev term at the two feature widths;
  the stacked weights and the row forms of bias, scale and shift.
-/
import proofs.«108161_j89232240542461_2_alg».proof.Proof.Gen.KernelIdeal

noncomputable section

namespace Cert.KernelIdeal.Hand

open Idealize.ShloMosaic Idealize.ShloMosaic.TcCoe
open Cert.KernelIdeal Cert.KernelIdeal.Gen

variable {F : FTy → Type} [FloatOps F]

/-- The edges' source words. -/
def kSrc (ei : IVec S2x800000 32) : IVec S800000 32 :=
  shapeCast _ (extractStridedSlice S1x800000 ![0, 0] ei slices_S2x800000_S1x800000_0_0) shapeCasts_S1x800000_S800000
/-- The edges' destination words. -/
def kDst (ei : IVec S2x800000 32) : IVec S800000 32 :=
  shapeCast _ (extractStridedSlice S1x800000 ![1, 0] ei slices_S2x800000_S1x800000_1_0) shapeCasts_S1x800000_S800000
/-- One where the two words of an edge are equal, zero elsewhere. -/
def kSelf (ei : IVec S2x800000 32) : FVec F S800000 .f32 := uitofp .f32 (cmpi .eq (kSrc ei) (kDst ei))
/-- Its complement. -/
def kNonself (ei : IVec S2x800000 32) : FVec F S800000 .f32 :=
  subf (broadcastInDim S800000 ![] bcast_S_S800000 (constant S_ .f32 0x3F800000#32)) (kSelf (F := F) ei)
/-- A word list as an index column. -/
def kCol (v : IVec S800000 32) : IVec S800000x1 32 := broadcastInDim S800000x1 ![0] bcast_S800000_S800000x1_0 v
/-- The degree: the non-self indicator summed into the source nodes. -/
def kDeg (ei : IVec S2x800000 32) : FVec F S50000 .f32 :=
  Host.scatterAdd scatter_S50000_S800000x1_S800000_n_0_0_1 (broadcastInDim S50000 ![] bcast_S_S50000 (constant S_ .f32 0x00000000#32))
    (kCol (kSrc ei)) (kNonself (F := F) ei)
/-- The inverse square root of the degree where it is positive, zero elsewhere. -/
def kDinv (ei : IVec S2x800000 32) : FVec F S50000 .f32 :=
  select (cmpf .ogt (kDeg (F := F) ei) (broadcastInDim S50000 ![] bcast_S_S50000 (constant S_ .f32 0x00000000#32)))
    (Host.rsqrt (maximumf (kDeg (F := F) ei) (broadcastInDim S50000 ![] bcast_S_S50000 (constant S_ .f32 0x2B8CBCCC#32))))
    (broadcastInDim S50000 ![] bcast_S_S50000 (id (constant S_ .f32 0x00000000#32)))
/-- The self-loop count of each node. -/
def kCnt (ei : IVec S2x800000 32) : FVec F S50000 .f32 :=
  Host.scatterAdd scatter_S50000_S800000x1_S800000_n_0_0_1 (broadcastInDim S50000 ![] bcast_S_S50000 (constant S_ .f32 0x00000000#32))
    (kCol (kSrc ei)) (kSelf (F := F) ei)
/-- A word list with each negative word moved up by the node count. -/
def kWrapW (s : IVec S800000 32) : IVec S800000 32 :=
  select (cmpi .slt s (broadcastInDim S800000 ![] bcast_S_S800000 (constantI S_ 32 0#32)))
    (addi s (broadcastInDim S800000 ![] bcast_S_S800000 (constantI S_ 32 50000#32))) s
/-- The source words so wrapped. -/
def kWrap (ei : IVec S2x800000 32) : IVec S800000 32 := kWrapW (kSrc ei)

/-- One propagation step on 128-wide node features, as the host operations spell it: the features scaled row by row by the
    inverse square-root degrees, gathered along the (wrapped) source column, summed into the destination rows, less the
    self-loop count times the scaled row, the difference scaled row by row by minus the inverse square-root degree. -/
def kProp128 (dinv cnt : FVec F S50000 .f32) (idxcol dstcol : IVec S800000x1 32) (h : FVec F S50000x128 .f32) : FVec F S50000x128 .f32 :=
  mulf (broadcastInDim S50000x128 ![0, 1] bcast_S50000x1_S50000x128_0_1
      (mulf (broadcastInDim S50000x1 ![] bcast_S_S50000x1 (constant S_ .f32 0xBF800000#32)) (broadcastInDim S50000x1 ![0] bcast_S50000_S50000x1_0 dinv)))
    (subf (Host.scatterAdd scatter_S50000x128_S800000x1_S800000x128_1_0_0_1 (broadcastInDim S50000x128 ![] bcast_S_S50000x128 (constant S_ .f32 0x00000000#32)) dstcol
        (Host.gather gather_S50000x128_S800000x1_S800000x128_1_0_n_n_0_1_1128
          (mulf (broadcastInDim S50000x128 ![0, 1] bcast_S50000x1_S50000x128_0_1 (broadcastInDim S50000x1 ![0] bcast_S50000_S50000x1_0 dinv)) h) idxcol))
      (mulf (broadcastInDim S50000x128 ![0, 1] bcast_S50000x1_S50000x128_0_1 (broadcastInDim S50000x1 ![0] bcast_S50000_S50000x1_0 cnt))
        (mulf (broadcastInDim S50000x128 ![0, 1] bcast_S50000x1_S50000x128_0_1 (broadcastInDim S50000x1 ![0] bcast_S50000_S50000x1_0 dinv)) h)))

/-- The second Chebyshev term: twice the propagated first term less the features. -/
def kTx2_128 (dinv cnt : FVec F S50000 .f32) (idxcol dstcol : IVec S800000x1 32) (h : FVec F S50000x128 .f32) : FVec F S50000x128 .f32 :=
  subf (mulf (broadcastInDim S50000x128 ![] bcast_S_S50000x128 (constant S_ .f32 0x40000000#32))
    (kProp128 dinv cnt idxcol dstcol (kProp128 dinv cnt idxcol dstcol h))) h

/-- The three 128×256 weight matrices stacked along the contraction axis. -/
def kStack128 (W : FVec F S3x128x256 .f32) : FVec F S384x256 .f32 :=
  concatenate S384x256 0
    [⟨S128x256, shapeCast _ (extractStridedSlice S1x128x256 ![0, 0, 0] W slices_S3x128x256_S1x128x256_0_0_0) shapeCasts_S1x128x256_S128x256⟩,
     ⟨S128x256, shapeCast _ (extractStridedSlice S1x128x256 ![1, 0, 0] W slices_S3x128x256_S1x128x256_1_0_0) shapeCasts_S1x128x256_S128x256⟩,
     ⟨S128x256, shapeCast _ (extractStridedSlice S1x128x256 ![2, 0, 0] W slices_S3x128x256_S1x128x256_2_0_0) shapeCasts_S1x128x256_S128x256⟩]
    concatenates_S128x256_S128x256_S128x256_S384x256_d0

/-- A 256-vector laid out as one row. -/
def kRow256 (v : FVec F S256 .f32) : FVec F S1x256 .f32 := shapeCast _ v shapeCasts_S256_S1x256

/-- One propagation step on 256-wide node features, as the host operations spell it: the features scaled row by row by the
    inverse square-root degrees, gathered along the (wrapped) source column, summed into the destination rows, less the
    self-loop count times the scaled row, the difference scaled row by row by minus the inverse square-root degree. -/
def kProp256 (dinv cnt : FVec F S50000 .f32) (idxcol dstcol : IVec S800000x1 32) (h : FVec F S50000x256 .f32) : FVec F S50000x256 .f32 :=
  mulf (broadcastInDim S50000x256 ![0, 1] bcast_S50000x1_S50000x256_0_1
      (mulf (broadcastInDim S50000x1 ![] bcast_S_S50000x1 (constant S_ .f32 0xBF800000#32)) (broadcastInDim S50000x1 ![0] bcast_S50000_S50000x1_0 dinv)))
    (subf (Host.scatterAdd scatter_S50000x256_S800000x1_S800000x256_1_0_0_1 (broadcastInDim S50000x256 ![] bcast_S_S50000x256 (constant S_ .f32 0x00000000#32)) dstcol
        (Host.gather gather_S50000x256_S800000x1_S800000x256_1_0_n_n_0_1_1256
          (mulf (broadcastInDim S50000x256 ![0, 1] bcast_S50000x1_S50000x256_0_1 (broadcastInDim S50000x1 ![0] bcast_S50000_S50000x1_0 dinv)) h) idxcol))
      (mulf (broadcastInDim S50000x256 ![0, 1] bcast_S50000x1_S50000x256_0_1 (broadcastInDim S50000x1 ![0] bcast_S50000_S50000x1_0 cnt))
        (mulf (broadcastInDim S50000x256 ![0, 1] bcast_S50000x1_S50000x256_0_1 (broadcastInDim S50000x1 ![0] bcast_S50000_S50000x1_0 dinv)) h)))

/-- The second Chebyshev term: twice the propagated first term less the features. -/
def kTx2_256 (dinv cnt : FVec F S50000 .f32) (idxcol dstcol : IVec S800000x1 32) (h : FVec F S50000x256 .f32) : FVec F S50000x256 .f32 :=
  subf (mulf (broadcastInDim S50000x256 ![] bcast_S_S50000x256 (constant S_ .f32 0x40000000#32))
    (kProp256 dinv cnt idxcol dstcol (kProp256 dinv cnt idxcol dstcol h))) h

/-- The three 256×128 weight matrices stacked along the contraction axis. -/
def kStack256 (W : FVec F S3x256x128 .f32) : FVec F S768x128 .f32 :=
  concatenate S768x128 0
    [⟨S256x128, shapeCast _ (extractStridedSlice S1x256x128 ![0, 0, 0] W slices_S3x256x128_S1x256x128_0_0_0) shapeCasts_S1x256x128_S256x128⟩,
     ⟨S256x128, shapeCast _ (extractStridedSlice S1x256x128 ![1, 0, 0] W slices_S3x256x128_S1x256x128_1_0_0) shapeCasts_S1x256x128_S256x128⟩,
     ⟨S256x128, shapeCast _ (extractStridedSlice S1x256x128 ![2, 0, 0] W slices_S3x256x128_S1x256x128_2_0_0) shapeCasts_S1x256x128_S256x128⟩]
    concatenates_S256x128_S256x128_S256x128_S768x128_d0

/-- A 128-vector laid out as one row. -/
def kRow128 (v : FVec F S128 .f32) : FVec F S1x128 .f32 := shapeCast _ v shapeCasts_S128_S1x128

end Cert.KernelIdeal.Hand

end
-- ==== Proof.KFold.lean ====
/-
  The buffers the two launches are entered with, as whole-array terms of the argument arrays. The host operations
  before the first launch (four stretches) and between the two launches (two stretches) are folds of single-assignment
  operations, so the contents of a buffer after a fold is its operation's function of its operands' contents: the
  inverse square-root degrees, the self-loop counts and the edge words are carried to both launches; the first launch
  reads the node features, their first propagation, the second Chebyshev term, the stacked weights and the bias, scale
  and shift rows; the second launch reads the same of the first launch's result.
-/
import proofs.«108161_j89232240542461_2_alg».proof.Proof.Gen.KernelIdeal.Launch
import proofs.«108161_j89232240542461_2_alg».proof.Proof.KHostDefs
import Idealize.ShloMosaic.Lib.StableHlo.Run

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]

section
variable {nD : Nat} {τ : Topo} {sig : RefSig} {Val : EltTy → Type}
/-- A three-operand operation's result with each operand's contents at its own reference. -/
theorem nary3_result {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl
end

/-- The fold of the four stretches before the first launch. -/
abbrev foldA (W : Valuation τ sig (Elt F)) : Valuation τ sig (Elt F) :=
  StableHlo.after main_part1_ops0 (StableHlo.after main_part0_ops2 (StableHlo.after main_part0_ops1 (StableHlo.after main_part0_ops0 W)))
/-- The fold of the two stretches between the launches. -/
abbrev foldB (W : Valuation τ sig (Elt F)) : Valuation τ sig (Elt F) :=
  StableHlo.after main_part2_ops0 (StableHlo.after main_part1_ops1 W)

local macro "fold_results" : tactic =>
  `(tactic| (simp (disch := decide) only [foldA, foldB, main_part0_ops0, main_part0_ops1, main_part0_ops2, main_part1_ops0, main_part1_ops1, main_part2_ops0,
      after_cons, after_nil,
      nullary_result', unary_result', binary_result', ternary_result', quaternary_result', reshape_result', nary3_result,
      nullary_result_ne', unary_result_ne', binary_result_ne', ternary_result_ne', quaternary_result_ne', reshape_result_ne',
      nary_result_ne']))

variable (W : Valuation τ sig (Elt F))

/-! ## Before the first launch -/

theorem foldA_v1 : foldA W (Proc.devRef .tc main_v1) = kSrc (W (Proc.devRef .tc main_arg1)) := by
  fold_results; rfl
theorem foldA_v3 : foldA W (Proc.devRef .tc main_v3) = kDst (W (Proc.devRef .tc main_arg1)) := by
  fold_results; rfl
theorem foldA_v16 : foldA W (Proc.devRef .tc main_v16) = kDinv (F := F) (W (Proc.devRef .tc main_arg1)) := by
  fold_results; rfl
theorem foldA_v19 : foldA W (Proc.devRef .tc main_v19) = kCnt (F := F) (W (Proc.devRef .tc main_arg1)) := by
  fold_results; rfl
theorem foldA_v41 : foldA W (Proc.devRef .tc main_v41)
    = kProp128 (kDinv (F := F) (W (Proc.devRef .tc main_arg1))) (kCnt (F := F) (W (Proc.devRef .tc main_arg1)))
        (kCol (kWrap (W (Proc.devRef .tc main_arg1)))) (kCol (kDst (W (Proc.devRef .tc main_arg1)))) (W (Proc.devRef .tc main_arg0)) := by
  fold_results; rfl
theorem foldA_v66 : foldA W (Proc.devRef .tc main_v66)
    = kTx2_128 (kDinv (F := F) (W (Proc.devRef .tc main_arg1))) (kCnt (F := F) (W (Proc.devRef .tc main_arg1)))
        (kCol (kWrap (W (Proc.devRef .tc main_arg1)))) (kCol (kDst (W (Proc.devRef .tc main_arg1)))) (W (Proc.devRef .tc main_arg0)) := by
  fold_results; rfl
theorem foldA_v73 : foldA W (Proc.devRef .tc main_v73) = kStack128 (F := F) (W (Proc.devRef .tc main_arg2)) := by
  fold_results; rfl
theorem foldA_v74 : foldA W (Proc.devRef .tc main_v74) = kRow256 (F := F) (W (Proc.devRef .tc main_arg3)) := by
  fold_results; rfl
theorem foldA_v75 : foldA W (Proc.devRef .tc main_v75) = kRow256 (F := F) (W (Proc.devRef .tc main_arg4)) := by
  fold_results; rfl
theorem foldA_v76 : foldA W (Proc.devRef .tc main_v76) = kRow256 (F := F) (W (Proc.devRef .tc main_arg5)) := by
  fold_results; rfl

theorem foldA_arg0 : foldA W (Proc.devRef .tc main_arg0) = W (Proc.devRef .tc main_arg0) := by
  fold_results
theorem foldA_arg1 : foldA W (Proc.devRef .tc main_arg1) = W (Proc.devRef .tc main_arg1) := by
  fold_results
theorem foldA_arg6 : foldA W (Proc.devRef .tc main_arg6) = W (Proc.devRef .tc main_arg6) := by
  fold_results
theorem foldA_arg7 : foldA W (Proc.devRef .tc main_arg7) = W (Proc.devRef .tc main_arg7) := by
  fold_results
theorem foldA_arg8 : foldA W (Proc.devRef .tc main_arg8) = W (Proc.devRef .tc main_arg8) := by
  fold_results
theorem foldA_arg9 : foldA W (Proc.devRef .tc main_arg9) = W (Proc.devRef .tc main_arg9) := by
  fold_results

/-! ## Between the launches -/

theorem foldB_v77 : foldB W (Proc.devRef .tc main_v77) = W (Proc.devRef .tc main_v77) := by
  fold_results
theorem foldB_v99 : foldB W (Proc.devRef .tc main_v99)
    = kProp256 (W (Proc.devRef .tc main_v16)) (W (Proc.devRef .tc main_v19))
        (kCol (kWrapW (W (Proc.devRef .tc main_v1)))) (kCol (W (Proc.devRef .tc main_v3))) (W (Proc.devRef .tc main_v77)) := by
  fold_results; rfl
theorem foldB_v124 : foldB W (Proc.devRef .tc main_v124)
    = kTx2_256 (W (Proc.devRef .tc main_v16)) (W (Proc.devRef .tc main_v19))
        (kCol (kWrapW (W (Proc.devRef .tc main_v1)))) (kCol (W (Proc.devRef .tc main_v3))) (W (Proc.devRef .tc main_v77)) := by
  fold_results; rfl
theorem foldB_v131 : foldB W (Proc.devRef .tc main_v131) = kStack256 (F := F) (W (Proc.devRef .tc main_arg6)) := by
  fold_results; rfl
theorem foldB_v132 : foldB W (Proc.devRef .tc main_v132) = kRow128 (F := F) (W (Proc.devRef .tc main_arg7)) := by
  fold_results; rfl
theorem foldB_v133 : foldB W (Proc.devRef .tc main_v133) = kRow128 (F := F) (W (Proc.devRef .tc main_arg8)) := by
  fold_results; rfl
theorem foldB_v134 : foldB W (Proc.devRef .tc main_v134) = kRow128 (F := F) (W (Proc.devRef .tc main_arg9)) := by
  fold_results; rfl

end Cert.KernelIdeal.Hand

end
-- ==== Proof.SpecRow.lean ====
/-
  Layer normalisation of one row followed by the maximum with zero, on the extended reals.

  For a row `a` of width `D`, a divisor `dn` (the width as a float), a stabiliser `eps`, a scale row `g` and a shift
  row `bt`: the mean is the row's sum divided by `dn`; the variance is the sum of the squared deviations from the
  mean divided by `dn`; entry `j` of the result is the deviation at `j` times the reciprocal square root of the
  variance plus `eps`, times `g j`, plus `bt j`, and then the maximum of that with zero. Every operation is the
  extended reals' own (`Ideal.div`, `Ideal.rsqrt` for the quotient and the reciprocal root), in exactly this order,
  and each sum is written from a zero initial value.
-/
import Idealize.ShloMosaic.PureOps.Ideal
import Idealize.ShloMosaic.PureOps.Ideal.Laws

noncomputable section

namespace Cert.Spec

open Idealize.ShloMosaic

/-- The mean of a row: its sum, from zero, divided by `dn`. -/
def rowMean {D : ℕ} (dn : EReal) (a : Fin D → EReal) : EReal :=
  Ideal.div (0 + ∑ k, a k) dn

/-- The variance of a row: the sum, from zero, of the squared deviations from the mean, divided by `dn`. -/
def rowVar {D : ℕ} (dn : EReal) (a : Fin D → EReal) : EReal :=
  Ideal.div (0 + ∑ k, (a k - rowMean dn a) * (a k - rowMean dn a)) dn

/-- Entry `j` of the normalised, scaled and shifted row, then the maximum with zero. -/
def lnRow {D : ℕ} (dn eps : EReal) (a g bt : Fin D → EReal) (j : Fin D) : EReal :=
  max ((a j - rowMean dn a) * Ideal.rsqrt (rowVar dn a + eps) * g j + bt j) 0

/-- The same with the mean and the variance written out. -/
theorem lnRow_eq {D : ℕ} (dn eps : EReal) (a g bt : Fin D → EReal) (j : Fin D) :
    lnRow dn eps a g bt j
      = max ((a j - Ideal.div (0 + ∑ k, a k) dn)
          * Ideal.rsqrt (Ideal.div (0 + ∑ k, (a k - Ideal.div (0 + ∑ k', a k') dn) * (a k - Ideal.div (0 + ∑ k', a k') dn)) dn + eps)
          * g j + bt j) 0 := rfl

end Cert.Spec

end
-- ==== Proof.LibRowOps.lean ====
/-
  Vector operations on matrices read at an index given by its two coordinates.

  A column vector of row statistics passes through three layout steps on its way back to the matrix it was computed
  from: a vector of length `a` is recast as an `a × 1` column, the column is broadcast along the rows of an
  `a × b` matrix, and before that the statistic itself is a sum along each row. Read at the coordinates `(r, c)`
  these are: the vector's entry `r`; the column's entry `(r, 0)`; and the sum over `k` of the entries `(r, k)`.
  A matrix that is three blocks of equal width laid side by side reads, in each third of its columns, the
  corresponding block; and a sum over the three thirds of an index range splits into three sums over one third.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout
import Mathlib.Algebra.BigOperators.Fin

noncomputable section

namespace Cert.Lib.RowOps

open Idealize.ShloMosaic Idealize.ShloMosaic.ValueIdx

variable {α : Type}

/-! ## The column forms -/

/-- A vector of length `a` recast as an `a × 1` column reads, at `(r, u)`, the vector's entry `r`. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `a × 1` column broadcast along the rows of an `a × b` matrix reads, at `(r, c)`, the column's entry `(r, 0)`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ =>
    show 0 = if (1 : ℕ) = 1 then 0 else c.val
    rw [if_pos rfl]

/-- The sum along each row of an `a × b` matrix of extended reals, from the neutral accumulator (which the sum drops),
    reads at `r` the sum over `k` of the entries `(r, k)`. -/
theorem rowSum_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.add.neutral .f32 hφ) (r : Fin a) :
    multiReduction (F := Ideal) .add [1] ⟨1, ![a]⟩ src acc h hφ hacc (ix1 r) = ∑ k : Fin b, src (ix2 r k) := by
  refine (Ideal.multiReduction_add_single src acc h hφ hacc (ix1 r)).trans ?_
  show ∑ k : Fin b, src (h.lift (ix1 r) k) = ∑ k : Fin b, src (ix2 r k)
  refine Finset.sum_congr rfl fun k _ => congrArg src ?_
  funext d
  match d with
  | ⟨0, _⟩ => exact Fin.ext rfl
  | ⟨1, _⟩ => exact Fin.ext rfl

/-- The reciprocal square root of a matrix of extended reals, entry by entry. -/
theorem rsqrt_apply {s : Shape} {φ : FTy} (a : FVec Ideal s φ) (i : s.Idx) : rsqrt a i = Ideal.rsqrt (a i) := rfl

/-! ## Three blocks side by side -/

section Concat

variable {n w W : ℕ} (x₀ x₁ x₂ : (⟨2, ![n, w]⟩ : Shape).Idx → α)
  (h : Shape.Concatenates [(⟨2, ![n, w]⟩ : Shape), ⟨2, ![n, w]⟩, ⟨2, ![n, w]⟩] ⟨2, ![n, W]⟩ 1)

/-- In the first third of the columns the side-by-side matrix is the first block. -/
theorem concat3_apply_0 (r : Fin n) (k : Fin w) (hk : k.val < W) :
    concatenate ⟨2, ![n, W]⟩ 1 [⟨⟨2, ![n, w]⟩, x₀⟩, ⟨⟨2, ![n, w]⟩, x₁⟩, ⟨⟨2, ![n, w]⟩, x₂⟩] h (ix2 r ⟨k.val, hk⟩)
      = x₀ (ix2 r k) :=
  concatenate_apply_piece (a := 1)
    (xs := [⟨⟨2, ![n, w]⟩, x₀⟩, ⟨⟨2, ![n, w]⟩, x₁⟩, ⟨⟨2, ![n, w]⟩, x₂⟩]) (h := h) (j := ix2 r ⟨k.val, hk⟩)
    (k := 0) (hk := by simp) (s₁ := ⟨2, ![n, w]⟩) (x₁ := x₀) (hxk := rfl) (hr := rfl) (pre := 0) (hpre := rfl)
    (i := ix2 r k)
    (hi := fun b hb => by
      match b with
      | ⟨0, _⟩ => rfl
      | ⟨1, _⟩ => exact absurd rfl hb)
    (ha := Nat.zero_add _)

/-- In the second third it is the second block. -/
theorem concat3_apply_1 (r : Fin n) (k : Fin w) (hk : w + k.val < W) :
    concatenate ⟨2, ![n, W]⟩ 1 [⟨⟨2, ![n, w]⟩, x₀⟩, ⟨⟨2, ![n, w]⟩, x₁⟩, ⟨⟨2, ![n, w]⟩, x₂⟩] h (ix2 r ⟨w + k.val, hk⟩)
      = x₁ (ix2 r k) :=
  concatenate_apply_piece (a := 1)
    (xs := [⟨⟨2, ![n, w]⟩, x₀⟩, ⟨⟨2, ![n, w]⟩, x₁⟩, ⟨⟨2, ![n, w]⟩, x₂⟩]) (h := h) (j := ix2 r ⟨w + k.val, hk⟩)
    (k := 1) (hk := by simp) (s₁ := ⟨2, ![n, w]⟩) (x₁ := x₁) (hxk := rfl) (hr := rfl) (pre := w) (hpre := by simp)
    (i := ix2 r k)
    (hi := fun b hb => by
      match b with
      | ⟨0, _⟩ => rfl
      | ⟨1, _⟩ => exact absurd rfl hb)
    (ha := rfl)

/-- In the last third it is the third block. -/
theorem concat3_apply_2 (r : Fin n) (k : Fin w) (hk : w + w + k.val < W) :
    concatenate ⟨2, ![n, W]⟩ 1 [⟨⟨2, ![n, w]⟩, x₀⟩, ⟨⟨2, ![n, w]⟩, x₁⟩, ⟨⟨2, ![n, w]⟩, x₂⟩] h (ix2 r ⟨w + w + k.val, hk⟩)
      = x₂ (ix2 r k) :=
  concatenate_apply_piece (a := 1)
    (xs := [⟨⟨2, ![n, w]⟩, x₀⟩, ⟨⟨2, ![n, w]⟩, x₁⟩, ⟨⟨2, ![n, w]⟩, x₂⟩]) (h := h) (j := ix2 r ⟨w + w + k.val, hk⟩)
    (k := 2) (hk := by simp) (s₁ := ⟨2, ![n, w]⟩) (x₁ := x₂) (hxk := rfl) (hr := rfl) (pre := (w + w)) (hpre := by simp)
    (i := ix2 r k)
    (hi := fun b hb => by
      match b with
      | ⟨0, _⟩ => rfl
      | ⟨1, _⟩ => exact absurd rfl hb)
    (ha := rfl)

end Concat

/-! ## A sum over three thirds -/

/-- A sum over `w + w + w` indices is the sum of the sums over each third. -/
theorem sum_thirds {M : Type*} [AddCommMonoid M] (w W : ℕ) (hW : W = w + w + w) (f : Fin W → M) :
    ∑ k : Fin W, f k
      = (∑ k : Fin w, f ⟨k.val, by omega⟩ + ∑ k : Fin w, f ⟨w + k.val, by omega⟩) + ∑ k : Fin w, f ⟨w + w + k.val, by omega⟩ := by
  subst hW
  rw [Fin.sum_univ_add, Fin.sum_univ_add]
  rfl

/-- A row of three side-by-side blocks against a column of a matrix with three times as many rows: the sum over all
    the columns splits into the three blocks' sums against the matching third of the rows. -/
theorem sum_concat3_mul {n w W d : ℕ} (hW : W = w + w + w) (x₀ x₁ x₂ : (⟨2, ![n, w]⟩ : Shape).Idx → EReal)
    (h : Shape.Concatenates [(⟨2, ![n, w]⟩ : Shape), ⟨2, ![n, w]⟩, ⟨2, ![n, w]⟩] ⟨2, ![n, W]⟩ 1)
    (y : (⟨2, ![W, d]⟩ : Shape).Idx → EReal) (r : Fin n) (j : Fin d) :
    ∑ k : Fin W, concatenate ⟨2, ![n, W]⟩ 1 [⟨⟨2, ![n, w]⟩, x₀⟩, ⟨⟨2, ![n, w]⟩, x₁⟩, ⟨⟨2, ![n, w]⟩, x₂⟩] h (ix2 r k) * y (ix2 k j)
      = (∑ k : Fin w, x₀ (ix2 r k) * y (ix2 ⟨k.val, by omega⟩ j) + ∑ k : Fin w, x₁ (ix2 r k) * y (ix2 ⟨w + k.val, by omega⟩ j))
          + ∑ k : Fin w, x₂ (ix2 r k) * y (ix2 ⟨w + w + k.val, by omega⟩ j) := by
  rw [sum_thirds w W hW]
  refine congrArg₂ (· + ·) (congrArg₂ (· + ·) ?_ ?_) ?_
  · exact Finset.sum_congr rfl fun k _ => congrArg (· * _) (concat3_apply_0 x₀ x₁ x₂ h r k (by omega))
  · exact Finset.sum_congr rfl fun k _ => congrArg (· * _) (concat3_apply_1 x₀ x₁ x₂ h r k (by omega))
  · exact Finset.sum_congr rfl fun k _ => congrArg (· * _) (concat3_apply_2 x₀ x₁ x₂ h r k (by omega))

end Cert.Lib.RowOps

end
-- ==== Proof.LibRowNorm.lean ====
/-
  Layer normalisation of the rows of a matrix, as the vector operations compute it, read at one entry.

  The operations: sum each row; recast the sums as a column and divide by the width to get the column of means;
  broadcast that column along the rows and subtract; square, sum each row again, recast and divide to get the column
  of variances; add the stabiliser, take the reciprocal square root, broadcast along the rows and multiply the
  deviations by it; multiply by the scale row broadcast down the columns. At entry `(r, j)` the result depends only
  on row `r` of the matrix: it is the deviation of the row's entry `j` from the row's mean, times the reciprocal
  root of the row's variance plus the stabiliser, times the scale's entry `j`.
-/
import proofs.«108161_j89232240542461_2_alg».proof.Proof.SpecRow
import proofs.«108161_j89232240542461_2_alg».proof.Proof.LibRowOps

noncomputable section

namespace Cert.Lib.RowOps

open Idealize.ShloMosaic Idealize.ShloMosaic.ValueIdx Cert.Spec

/-- The normalised and scaled matrix at `(r, j)`, from row `r` of the matrix and entry `j` of the scale. -/
theorem layerNorm_apply {n d : ℕ} (P : FVec Ideal ⟨2, ![n, d]⟩ .f32) (g : FVec Ideal ⟨2, ![1, d]⟩ .f32)
    (dn eps : Ideal .f32) (acc : BitVec (FTy.bits .f32))
    (hred : (⟨2, ![n, d]⟩ : Shape).Reduces [1] ⟨1, ![n]⟩) (hφ : FKind.Formats .f32) (hacc : acc = FKind.add.neutral .f32 hφ)
    (hcol : (⟨1, ![n]⟩ : Shape).ShapeCasts ⟨2, ![n, 1]⟩) (hbc : (⟨2, ![n, 1]⟩ : Shape).Broadcasts ⟨2, ![n, d]⟩)
    (hbg : (⟨2, ![1, d]⟩ : Shape).Broadcasts ⟨2, ![n, d]⟩) (r : Fin n) (j : Fin d) :
    mulf
      (mulf (subf P (broadcastTo ⟨2, ![n, d]⟩ (divf (shapeCast ⟨2, ![n, 1]⟩ (multiReduction .add [1] ⟨1, ![n]⟩ P acc hred hφ hacc) hcol) (broadcast ⟨2, ![n, 1]⟩ dn)) hbc))
        (broadcastTo ⟨2, ![n, d]⟩ (rsqrt (addf (divf (shapeCast ⟨2, ![n, 1]⟩ (multiReduction .add [1] ⟨1, ![n]⟩ (mulf (subf P (broadcastTo ⟨2, ![n, d]⟩ (divf (shapeCast ⟨2, ![n, 1]⟩ (multiReduction .add [1] ⟨1, ![n]⟩ P acc hred hφ hacc) hcol) (broadcast ⟨2, ![n, 1]⟩ dn)) hbc)) (subf P (broadcastTo ⟨2, ![n, d]⟩ (divf (shapeCast ⟨2, ![n, 1]⟩ (multiReduction .add [1] ⟨1, ![n]⟩ P acc hred hφ hacc) hcol) (broadcast ⟨2, ![n, 1]⟩ dn)) hbc))) acc hred hφ hacc) hcol) (broadcast ⟨2, ![n, 1]⟩ dn)) (broadcast ⟨2, ![n, 1]⟩ eps))) hbc))
      (broadcastTo ⟨2, ![n, d]⟩ g hbg) (ix2 r j)
      = (P (ix2 r j) - rowMean dn (fun k => P (ix2 r k))) * Ideal.rsqrt (rowVar dn (fun k => P (ix2 r k)) + eps)
          * g (ix2 (0 : Fin 1) j) := by
  simp only [mulf_apply, subf_apply, addf_apply, divf_apply, rsqrt_apply, broadcast_apply, broadcastTo_a1_ab_apply,
    broadcastTo_1b_ab_apply, shapeCast_a_a1_apply]
  rw [rowSum_apply, rowSum_apply]
  simp only [mulf_apply, subf_apply, divf_apply, broadcast_apply, broadcastTo_a1_ab_apply, shapeCast_a_a1_apply]
  rw [rowSum_apply]
  unfold rowVar rowMean
  simp only [zero_add]

end Cert.Lib.RowOps

end
-- ==== Proof.KPay0.lean ====
/-
  The first layer's body, read at one entry of its output block.

  At the extended reals every rounding step is the identity, so entry `(r, j)` of what the body leaves is the
  layer normalisation of row `r` of the pre-normalisation block, at column `j`, followed by the maximum with zero.
  Row `r` of the pre-normalisation block is, column by column, the product of the three feature blocks laid side
  by side with the stacked weights — three sums over the 128 columns of each block, against the matching third of
  the weights' rows — plus the bias.
-/
import proofs.«108161_j89232240542461_2_alg».proof.Proof.KOut
import proofs.«108161_j89232240542461_2_alg».proof.Proof.LibRowNorm
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.TcCoe Idealize.ShloMosaic.ValueIdx
open Cert.KernelIdeal Cert.KernelIdeal.Gen
open Cert.Lib.RowOps Cert.Spec

/-! ## The matrix product at an entry -/

theorem lhs0_0 (i : S2000x256.Idx) (q : dot_S2000x384_S384x256_S2000x256_1_0_0_1_n_n.contr.Idx) :
    (dot_S2000x384_S384x256_S2000x256_1_0_0_1_n_n.lhsIdx i q 0).val = (i 0).val := by
  unfold DotDims.lhsIdx
  rw [dif_neg (show ¬(0 : Fin S2000x384.rank) ∈ dot_S2000x384_S384x256_S2000x256_1_0_0_1_n_n.lhsBatch by decide), dif_pos (show (0 : Fin S2000x384.rank) ∈ dot_S2000x384_S384x256_S2000x256_1_0_0_1_n_n.lhsNonContracting by decide)]
  rfl
theorem lhs0_1 (i : S2000x256.Idx) (q : dot_S2000x384_S384x256_S2000x256_1_0_0_1_n_n.contr.Idx) :
    (dot_S2000x384_S384x256_S2000x256_1_0_0_1_n_n.lhsIdx i q 1).val = (q ⟨0, by decide⟩).val :=
  dot_S2000x384_S384x256_S2000x256_1_0_0_1_n_n.lhsIdx_val_of_single rfl i q
theorem rhs0_0 (i : S2000x256.Idx) (q : dot_S2000x384_S384x256_S2000x256_1_0_0_1_n_n.contr.Idx) :
    (dot_S2000x384_S384x256_S2000x256_1_0_0_1_n_n.rhsIdx i q 0).val = (q ⟨0, by decide⟩).val :=
  dot_S2000x384_S384x256_S2000x256_1_0_0_1_n_n.rhsIdx_val_of_single rfl i q
theorem rhs0_1 (i : S2000x256.Idx) (q : dot_S2000x384_S384x256_S2000x256_1_0_0_1_n_n.contr.Idx) :
    (dot_S2000x384_S384x256_S2000x256_1_0_0_1_n_n.rhsIdx i q 1).val = (i 1).val := by
  unfold DotDims.rhsIdx
  rw [dif_neg (show ¬(1 : Fin S384x256.rank) ∈ dot_S2000x384_S384x256_S2000x256_1_0_0_1_n_n.rhsBatch by decide), dif_pos (show (1 : Fin S384x256.rank) ∈ dot_S2000x384_S384x256_S2000x256_1_0_0_1_n_n.rhsNonContracting by decide)]
  rfl

/-- The product into the zero accumulator, at `(r, j)`: the sum over the contraction index of the left factor's
    row `r` against the right factor's column `j`. -/
theorem matmul0_apply (lhs : FVec Ideal S2000x384 .bf16) (rhs : FVec Ideal S384x256 .bf16) (r : Fin 2000) (j : Fin 256) :
    matmul dot_S2000x384_S384x256_S2000x256_1_0_0_1_n_n none lhs rhs (constant S2000x256 .f32 0x00000000#32) (ix2 r j)
      = ∑ k : Fin 384, lhs (ix2 r k) * rhs (ix2 k j) := by
  simp only [matmul]
  rw [Ideal.matmul_constant_zero_apply, ← Equiv.sum_comp (ValueIdx.contrEquiv1 dot_S2000x384_S384x256_S2000x256_1_0_0_1_n_n 384 rfl rfl).symm]
  refine Finset.sum_congr rfl fun k _ => ?_
  have hk := ValueIdx.contrEquiv1_symm_val dot_S2000x384_S384x256_S2000x256_1_0_0_1_n_n 384 rfl rfl k
  have el : dot_S2000x384_S384x256_S2000x256_1_0_0_1_n_n.lhsIdx (ix2 r j) ((ValueIdx.contrEquiv1 dot_S2000x384_S384x256_S2000x256_1_0_0_1_n_n 384 rfl rfl).symm k) = ix2 r k := funext fun a => Fin.ext (by
    match a with
    | ⟨0, _⟩ => exact lhs0_0 _ _
    | ⟨1, _⟩ => exact (lhs0_1 _ _).trans hk)
  have er : dot_S2000x384_S384x256_S2000x256_1_0_0_1_n_n.rhsIdx (ix2 r j) ((ValueIdx.contrEquiv1 dot_S2000x384_S384x256_S2000x256_1_0_0_1_n_n 384 rfl rfl).symm k) = ix2 k j := funext fun a => Fin.ext (by
    match a with
    | ⟨0, _⟩ => exact (rhs0_0 _ _).trans hk
    | ⟨1, _⟩ => exact rhs0_1 _ _)
  rw [el, er]

/-! ## The payloads at an entry -/

theorem hz0 : (![0, 0] : Fin 2 → Nat) = fun _ => 0 := funext fun a => by fin_cases a <;> rfl

/-- Row `r` of the pre-normalisation block: the three blocks' products with their thirds of the weights, plus the bias. -/
def pre0 (x0 x1 x2 : Vec Ideal S2000x128 .f32) (x3 : Vec Ideal S384x256 .f32) (x4 : Vec Ideal S1x256 .f32) (r : Fin 2000) :
    Fin 256 → EReal := fun j' =>
  ((∑ k : Fin 128, x0 (ix2 r k) * x3 (ix2 ⟨k.val, by omega⟩ j') + ∑ k : Fin 128, x1 (ix2 r k) * x3 (ix2 ⟨128 + k.val, by omega⟩ j'))
    + ∑ k : Fin 128, x2 (ix2 r k) * x3 (ix2 ⟨256 + k.val, by omega⟩ j')) + x4 (ix2 (0 : Fin 1) j')

/-- The second payload adds the shift and takes the maximum with zero. -/
theorem pay1_apply0 (v : FVec Ideal S2000x256 .f32) (x6 : Vec Ideal S1x256 .f32) (r : Fin 2000) (j : Fin 256) :
    k0_pay1 (F := Ideal) v x6 (ix2 r j) = max (v (ix2 r j) + x6 (ix2 (0 : Fin 1) j)) 0 := by
  unfold k0_pay1
  rw [maximumf_apply, addf_apply, broadcast_apply, shapeCast_self, broadcastTo_1b_ab_apply]
  exact congrArg (max _) Ideal.ofBits_zero_f32

set_option maxHeartbeats 1000000 in
/-- The first payload at `(r, j)`: the normalised row `r` of the pre-normalisation block at `j`, times the scale. -/
theorem pay2_apply0 (x0 x1 x2 : Vec Ideal S2000x128 .f32) (x3 : Vec Ideal S384x256 .f32) (x4 x5 : Vec Ideal S1x256 .f32)
    (r : Fin 2000) (j : Fin 256) :
    k0_pay2 (F := Ideal) x0 x1 x2 x3 x4 x5 (ix2 r j)
      = (pre0 x0 x1 x2 x3 x4 r j - rowMean (Ideal.ofBits .f32 0x43800000#32) (pre0 x0 x1 x2 x3 x4 r))
          * Ideal.rsqrt (rowVar (Ideal.ofBits .f32 0x43800000#32) (pre0 x0 x1 x2 x3 x4 r) + Ideal.ofBits .f32 0x3727C5AC#32)
          * x5 (ix2 (0 : Fin 1) j) := by
  unfold k0_pay2
  refine (layerNorm_apply _ _ _ _ _ _ _ _ _ _ _ r j).trans ?_
  simp only [addf_apply, matmul0_apply, truncf_apply, shapeCast_self, broadcastTo_1b_ab_apply,
    sum_concat3_mul (w := 128) (W := 384) rfl]
  rfl

/-! ## The output block at an entry -/

/-- Entry `(r, j)` of what the body leaves: the layer normalisation of row `r` of the pre-normalisation block, with
    the scale and the shift rows, at `j`, then the maximum with zero. -/
theorem out0_apply (x0 x1 x2 : Vec Ideal S2000x128 .f32) (x3 : Vec Ideal S384x256 .f32) (x4 x5 x6 : Vec Ideal S1x256 .f32)
    (r : Fin 2000) (j : Fin 256) :
    out0 (F := Ideal) x0 x1 x2 x3 x4 x5 x6 (ix2 r j)
      = lnRow (Ideal.ofBits .f32 0x43800000#32) (Ideal.ofBits .f32 0x3727C5AC#32)
          (fun j' : Fin 256 =>
            ((∑ k : Fin 128, x0 (ix2 r k) * x3 (ix2 ⟨k.val, by omega⟩ j') + ∑ k : Fin 128, x1 (ix2 r k) * x3 (ix2 ⟨128 + k.val, by omega⟩ j'))
              + ∑ k : Fin 128, x2 (ix2 r k) * x3 (ix2 ⟨256 + k.val, by omega⟩ j')) + x4 (ix2 (0 : Fin 1) j'))
          (fun j' => x5 (ix2 (0 : Fin 1) j')) (fun j' => x6 (ix2 (0 : Fin 1) j')) j := by
  unfold out0
  rw [View.canon_unit_zero (S := S2000x256) hz0]
  simp only [View.ld_unit_zero (S := S2000x128) hz0, View.ld_unit_zero (S := S384x256) hz0, View.ld_unit_zero (S := S1x256) hz0]
  rw [pay1_apply0, pay2_apply0]
  rfl

end Cert.KernelIdeal.Hand

end
-- ==== Proof.KFinal0.lean ====
/-
  From blocks to the array, for the first layer's launch of the combine kernel, on the extended reals.

  The launch runs the body at 25 grid points. At point t the three feature windows hold rows 2000·t … 2000·t + 1999
  of their arrays, the weights, the bias, the scale and the shift are whole arrays, and the body's output block is
  written back to rows 2000·t … 2000·t + 1999 of the output array. The body's entry (r, j) is a function of row r of
  its feature blocks and of the whole weights, bias, scale and shift; a block's entry is the array's entry at the
  block index times the block's size plus the coordinate inside the block; so what point t writes back is block t
  of ONE function of the seven whole arrays. The 25 blocks of 2000 rows tile the 50000 rows — row n lies in the
  block of point n / 2000 — so after the launch the output array is that function everywhere.
-/
import proofs.«108161_j89232240542461_2_alg».proof.Proof.KRegions
import proofs.«108161_j89232240542461_2_alg».proof.Proof.KPay0
import proofs.«108161_j89232240542461_2_alg».proof.Proof.SpecRow
import Idealize.ShloMosaic.Lib.Pipeline.Value
import Idealize.ShloMosaic.Lib.ValueIdx
import Idealize.ShloMosaic.Lib.Tactic

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b))

/-- The first layer's combine as ONE function of the seven whole arrays: row n of the result is the
    layer-normalised, scaled, shifted and rectified row whose entry j' is the contraction of row n of the three
    feature arrays against the three 128-row blocks of the stacked weights, plus the bias. -/
def G0 (a0 a1 a2 : S50000x128.Idx → EReal) (w : S384x256.Idx → EReal) (b g s : S1x256.Idx → EReal) :
    S50000x256.Idx → EReal :=
  fun i => Cert.Spec.lnRow (Ideal.ofBits .f32 0x43800000#32) (Ideal.ofBits .f32 0x3727C5AC#32)
    (fun j' : Fin 256 => ((∑ k : Fin 128, a0 (ix2 (i 0) k) * w (ix2 ⟨k.val, by omega⟩ j')
        + ∑ k : Fin 128, a1 (ix2 (i 0) k) * w (ix2 ⟨128 + k.val, by omega⟩ j'))
        + ∑ k : Fin 128, a2 (ix2 (i 0) k) * w (ix2 ⟨256 + k.val, by omega⟩ j')) + b (ix2 (0 : Fin 1) j'))
    (fun j' => g (ix2 (0 : Fin 1) j')) (fun j' => s (ix2 (0 : Fin 1) j')) (i 1)

/-! ## The printed index maps, decided over the grid's 25 points -/

/-- Window 0 is at block (t, 0) at point t. -/
theorem idx0_0 : ∀ t : Fin cfg0.N, win0_0.index t (0 : Fin 2) = t.val ∧ win0_0.index t (1 : Fin 2) = 0 :=
  (by decide +kernel : ∀ t : Fin grid0.N, _)
/-- Window 1 is at block (t, 0) at point t. -/
theorem idx0_1 : ∀ t : Fin cfg0.N, win0_1.index t (0 : Fin 2) = t.val ∧ win0_1.index t (1 : Fin 2) = 0 :=
  (by decide +kernel : ∀ t : Fin grid0.N, _)
/-- Window 2 is at block (t, 0) at point t. -/
theorem idx0_2 : ∀ t : Fin cfg0.N, win0_2.index t (0 : Fin 2) = t.val ∧ win0_2.index t (1 : Fin 2) = 0 :=
  (by decide +kernel : ∀ t : Fin grid0.N, _)
/-- Window 7 is at block (t, 0) at point t. -/
theorem idx0_7 : ∀ t : Fin cfg0.N, win0_7.index t (0 : Fin 2) = t.val ∧ win0_7.index t (1 : Fin 2) = 0 :=
  (by decide +kernel : ∀ t : Fin grid0.N, _)
/-- Window 3 stays at block (0, 0). -/
theorem idx0_3 : ∀ t : Fin cfg0.N, win0_3.index t (0 : Fin 2) = 0 ∧ win0_3.index t (1 : Fin 2) = 0 :=
  (by decide +kernel : ∀ t : Fin grid0.N, _)
/-- Window 4 stays at block (0, 0). -/
theorem idx0_4 : ∀ t : Fin cfg0.N, win0_4.index t (0 : Fin 2) = 0 ∧ win0_4.index t (1 : Fin 2) = 0 :=
  (by decide +kernel : ∀ t : Fin grid0.N, _)
/-- Window 5 stays at block (0, 0). -/
theorem idx0_5 : ∀ t : Fin cfg0.N, win0_5.index t (0 : Fin 2) = 0 ∧ win0_5.index t (1 : Fin 2) = 0 :=
  (by decide +kernel : ∀ t : Fin grid0.N, _)
/-- Window 6 stays at block (0, 0). -/
theorem idx0_6 : ∀ t : Fin cfg0.N, win0_6.index t (0 : Fin 2) = 0 ∧ win0_6.index t (1 : Fin 2) = 0 :=
  (by decide +kernel : ∀ t : Fin grid0.N, _)

/-! ## Each input block, read where its rectangle says: a block's coordinate in the array is the block index
times the block's size plus the coordinate inside the block -/

/-- Feature window 0 at point t is rows 2000·t … 2000·t + 1999 of its array. -/
theorem blk0_0_apply (c : Dev nD) (t : Fin cfg0.N) (x : S2000x128.Idx) (i : S50000x128.Idx)
    (h0 : (i 0).val = t.val * 2000 + (x 0).val) (h1 : (i 1).val = (x 1).val) :
    (iblk0 V c 0 t : Vec Ideal S2000x128 .f32) x = (V c main_arg0 : S50000x128.Idx → Elt Ideal .f32) i := by
  obtain ⟨e0, e1⟩ := idx0_0 t
  unfold iblk0
  rw [View.read_apply]
  show V c main_arg0 _ = V c main_arg0 _
  congr 1
  funext a
  apply Fin.ext
  match a with
  | ⟨0, _⟩ => show win0_0.index t (0 : Fin 2) * 2000 + 1 * (x 0).val = (i 0).val; rw [e0, h0]; omega
  | ⟨1, _⟩ => show win0_0.index t (1 : Fin 2) * 128 + 1 * (x 1).val = (i 1).val; rw [e1, h1]; omega

/-- Feature window 1 at point t is rows 2000·t … 2000·t + 1999 of its array. -/
theorem blk0_1_apply (c : Dev nD) (t : Fin cfg0.N) (x : S2000x128.Idx) (i : S50000x128.Idx)
    (h0 : (i 0).val = t.val * 2000 + (x 0).val) (h1 : (i 1).val = (x 1).val) :
    (iblk0 V c 1 t : Vec Ideal S2000x128 .f32) x = (V c main_v41 : S50000x128.Idx → Elt Ideal .f32) i := by
  obtain ⟨e0, e1⟩ := idx0_1 t
  unfold iblk0
  rw [View.read_apply]
  show V c main_v41 _ = V c main_v41 _
  congr 1
  funext a
  apply Fin.ext
  match a with
  | ⟨0, _⟩ => show win0_1.index t (0 : Fin 2) * 2000 + 1 * (x 0).val = (i 0).val; rw [e0, h0]; omega
  | ⟨1, _⟩ => show win0_1.index t (1 : Fin 2) * 128 + 1 * (x 1).val = (i 1).val; rw [e1, h1]; omega

/-- Feature window 2 at point t is rows 2000·t … 2000·t + 1999 of its array. -/
theorem blk0_2_apply (c : Dev nD) (t : Fin cfg0.N) (x : S2000x128.Idx) (i : S50000x128.Idx)
    (h0 : (i 0).val = t.val * 2000 + (x 0).val) (h1 : (i 1).val = (x 1).val) :
    (iblk0 V c 2 t : Vec Ideal S2000x128 .f32) x = (V c main_v66 : S50000x128.Idx → Elt Ideal .f32) i := by
  obtain ⟨e0, e1⟩ := idx0_2 t
  unfold iblk0
  rw [View.read_apply]
  show V c main_v66 _ = V c main_v66 _
  congr 1
  funext a
  apply Fin.ext
  match a with
  | ⟨0, _⟩ => show win0_2.index t (0 : Fin 2) * 2000 + 1 * (x 0).val = (i 0).val; rw [e0, h0]; omega
  | ⟨1, _⟩ => show win0_2.index t (1 : Fin 2) * 128 + 1 * (x 1).val = (i 1).val; rw [e1, h1]; omega

/-- The weights' window is the whole array at every point. -/
theorem blk0_3_apply (c : Dev nD) (t : Fin cfg0.N) (x : S384x256.Idx) :
    (iblk0 V c 3 t : Vec Ideal S384x256 .f32) x = (V c main_v73 : S384x256.Idx → Elt Ideal .f32) x := by
  obtain ⟨e0, e1⟩ := idx0_3 t
  unfold iblk0
  rw [View.read_apply]
  show V c main_v73 _ = V c main_v73 _
  congr 1
  funext a
  apply Fin.ext
  match a with
  | ⟨0, _⟩ => show win0_3.index t (0 : Fin 2) * 384 + 1 * (x 0).val = (x 0).val; rw [e0]; omega
  | ⟨1, _⟩ => show win0_3.index t (1 : Fin 2) * 256 + 1 * (x 1).val = (x 1).val; rw [e1]; omega

/-- The bias's window is the whole one-row array at every point. -/
theorem blk0_4_apply (c : Dev nD) (t : Fin cfg0.N) (x : S1x256.Idx) :
    (iblk0 V c 4 t : Vec Ideal S1x256 .f32) x = (V c main_v74 : S1x256.Idx → Elt Ideal .f32) x := by
  obtain ⟨e0, e1⟩ := idx0_4 t
  unfold iblk0
  rw [View.read_apply]
  show V c main_v74 _ = V c main_v74 _
  congr 1
  funext a
  apply Fin.ext
  match a with
  | ⟨0, _⟩ => show win0_4.index t (0 : Fin 2) * 1 + 1 * (x 0).val = (x 0).val; rw [e0]; omega
  | ⟨1, _⟩ => show win0_4.index t (1 : Fin 2) * 256 + 1 * (x 1).val = (x 1).val; rw [e1]; omega

/-- The scale's window is the whole one-row array at every point. -/
theorem blk0_5_apply (c : Dev nD) (t : Fin cfg0.N) (x : S1x256.Idx) :
    (iblk0 V c 5 t : Vec Ideal S1x256 .f32) x = (V c main_v75 : S1x256.Idx → Elt Ideal .f32) x := by
  obtain ⟨e0, e1⟩ := idx0_5 t
  unfold iblk0
  rw [View.read_apply]
  show V c main_v75 _ = V c main_v75 _
  congr 1
  funext a
  apply Fin.ext
  match a with
  | ⟨0, _⟩ => show win0_5.index t (0 : Fin 2) * 1 + 1 * (x 0).val = (x 0).val; rw [e0]; omega
  | ⟨1, _⟩ => show win0_5.index t (1 : Fin 2) * 256 + 1 * (x 1).val = (x 1).val; rw [e1]; omega

/-- The shift's window is the whole one-row array at every point. -/
theorem blk0_6_apply (c : Dev nD) (t : Fin cfg0.N) (x : S1x256.Idx) :
    (iblk0 V c 6 t : Vec Ideal S1x256 .f32) x = (V c main_v76 : S1x256.Idx → Elt Ideal .f32) x := by
  obtain ⟨e0, e1⟩ := idx0_6 t
  unfold iblk0
  rw [View.read_apply]
  show V c main_v76 _ = V c main_v76 _
  congr 1
  funext a
  apply Fin.ext
  match a with
  | ⟨0, _⟩ => show win0_6.index t (0 : Fin 2) * 1 + 1 * (x 0).val = (x 0).val; rw [e0]; omega
  | ⟨1, _⟩ => show win0_6.index t (1 : Fin 2) * 256 + 1 * (x 1).val = (x 1).val; rw [e1]; omega

/-! ## What point t writes back -/

/-- Entry y of the body's output block at point t is entry i of the whole-array function, i being y moved down
    by 2000·t rows: the body's entry is the normalised row of the three contractions of ITS blocks, and each block
    entry is the array entry the block's rectangle puts it at. -/
theorem flushed0_at (c : Dev nD) (t : Fin cfg0.N) (y : S2000x256.Idx) (i : S50000x256.Idx)
    (h0 : (i 0).val = t.val * 2000 + (y 0).val) (h1 : (i 1).val = (y 1).val) :
    out0 (F := Ideal) (iblk0 V c 0 t) (iblk0 V c 1 t) (iblk0 V c 2 t) (iblk0 V c 3 t) (iblk0 V c 4 t) (iblk0 V c 5 t) (iblk0 V c 6 t) y
      = G0 (V c main_arg0) (V c main_v41) (V c main_v66) (V c main_v73) (V c main_v74) (V c main_v75) (V c main_v76) i := by
  obtain ⟨r, j, rfl⟩ : ∃ r j, y = ix2 r j := ⟨y 0, y 1, eq_ix2 y⟩
  refine (out0_apply _ _ _ _ _ _ _ r j).trans ?_
  have hj : i 1 = j := Fin.ext h1
  have e0 : ∀ k : Fin 128, (iblk0 V c 0 t : Vec Ideal S2000x128 .f32) (ix2 r k)
      = (V c main_arg0 : S50000x128.Idx → Elt Ideal .f32) (ix2 (i 0) k) :=
    fun k => blk0_0_apply V c t (ix2 r k) (ix2 (i 0) k) h0 rfl
  have e1 : ∀ k : Fin 128, (iblk0 V c 1 t : Vec Ideal S2000x128 .f32) (ix2 r k)
      = (V c main_v41 : S50000x128.Idx → Elt Ideal .f32) (ix2 (i 0) k) :=
    fun k => blk0_1_apply V c t (ix2 r k) (ix2 (i 0) k) h0 rfl
  have e2 : ∀ k : Fin 128, (iblk0 V c 2 t : Vec Ideal S2000x128 .f32) (ix2 r k)
      = (V c main_v66 : S50000x128.Idx → Elt Ideal .f32) (ix2 (i 0) k) :=
    fun k => blk0_2_apply V c t (ix2 r k) (ix2 (i 0) k) h0 rfl
  have e3 : ∀ (q : Fin 384) (j' : Fin 256), (iblk0 V c 3 t : Vec Ideal S384x256 .f32) (ix2 q j')
      = (V c main_v73 : S384x256.Idx → Elt Ideal .f32) (ix2 q j') :=
    fun q j' => blk0_3_apply V c t (ix2 q j')
  have e4 : ∀ j' : Fin 256, (iblk0 V c 4 t : Vec Ideal S1x256 .f32) (ix2 (0 : Fin 1) j')
      = (V c main_v74 : S1x256.Idx → Elt Ideal .f32) (ix2 (0 : Fin 1) j') :=
    fun j' => blk0_4_apply V c t (ix2 (0 : Fin 1) j')
  have e5 : ∀ j' : Fin 256, (iblk0 V c 5 t : Vec Ideal S1x256 .f32) (ix2 (0 : Fin 1) j')
      = (V c main_v75 : S1x256.Idx → Elt Ideal .f32) (ix2 (0 : Fin 1) j') :=
    fun j' => blk0_5_apply V c t (ix2 (0 : Fin 1) j')
  have e6 : ∀ j' : Fin 256, (iblk0 V c 6 t : Vec Ideal S1x256 .f32) (ix2 (0 : Fin 1) j')
      = (V c main_v76 : S1x256.Idx → Elt Ideal .f32) (ix2 (0 : Fin 1) j') :=
    fun j' => blk0_6_apply V c t (ix2 (0 : Fin 1) j')
  unfold G0
  rw [hj]
  simp only [e0, e1, e2, e3, e4, e5, e6]

/-- WHAT POINT t WRITES BACK is block t of the whole-array function of the seven arrays as the launch finds them. -/
theorem flushed0_eq (c : Dev nD) (t : Fin cfg0.N) :
    (dat0 (F := Ideal) V c).flushed 7 t
      = ((cfg0.win 7).blk t).view.read (Elt Ideal) (G0 (V c main_arg0) (V c main_v41) (V c main_v66) (V c main_v73) (V c main_v74) (V c main_v75) (V c main_v76)) := by
  show (cfg0.win 7).cut (grid0.coords t) ((dat0 (F := Ideal) V c).after 7 t) = _
  rw [after0_7]
  obtain ⟨e0, e1⟩ := idx0_7 t
  funext y
  refine flushed0_at V c t y (((cfg0.win 7).blk t).view.emb y) ?_ ?_
  · show win0_7.index t (0 : Fin 2) * 2000 + 1 * (y 0).val = t.val * 2000 + (y 0).val
    rw [e0]; omega
  · show win0_7.index t (1 : Fin 2) * 256 + 1 * (y 1).val = (y 1).val
    rw [e1]; omega

/-! ## The output's blocks cover its array -/

/-- An index of the output array is in point t's block iff each coordinate is in the block's range on its axis. -/
theorem mem_blk0 (t : Fin cfg0.N) (i : S50000x256.Idx) :
    i ∈ ((cfg0.win 7).blk t).view.set ↔ ∀ a : Fin 2, win0_7.index t a * S2000x256.size a ≤ (i a).val
      ∧ (i a).val < win0_7.index t a * S2000x256.size a + S2000x256.size a := by
  show i ∈ ((View.whole main_v77).slice (win0_7.rect t)).set ↔ _
  rw [View.set_slice_whole, Rect.mem_set_unit]
  exact Iff.rfl

/-- Row n of the output array is written back by point n / 2000: the 25 blocks of 2000 rows tile the 50000 rows. -/
theorem rows_cover0 (i : S50000x256.Idx) :
    ∃ t : Fin cfg0.N, (cfg0.win 7).flush t = true ∧ i ∈ ((cfg0.win 7).blk t).view.set := by
  have hi0 : (i 0).val < 50000 := (i 0).isLt
  have hi1 : (i 1).val < 256 := (i 1).isLt
  have hN : cfg0.N = 25 := N_0
  have ht : (i 0).val / 2000 < cfg0.N := by rw [hN]; omega
  refine ⟨⟨(i 0).val / 2000, ht⟩, flush0_7 _, ?_⟩
  rw [mem_blk0]
  obtain ⟨e0, e1⟩ := idx0_7 ⟨(i 0).val / 2000, ht⟩
  intro a
  match a with
  | ⟨0, _⟩ =>
    show win0_7.index ⟨(i 0).val / 2000, ht⟩ (0 : Fin 2) * 2000 ≤ (i 0).val
      ∧ (i 0).val < win0_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_7.index ⟨(i 0).val / 2000, ht⟩ (1 : Fin 2) * 256 ≤ (i 1).val
      ∧ (i 1).val < win0_7.index ⟨(i 0).val / 2000, ht⟩ (1 : Fin 2) * 256 + 256
    rw [e1]; omega

/-! ## The array after the launch -/

/-- THE OUTPUT ARRAY after the launch's 25 points is the whole-array function of the seven input arrays. -/
theorem final0_arr (c : Dev nD) :
    (dat0 (F := Ideal) V c).arrAt 7 cfg0.N = G0 (V c main_arg0) (V c main_v41) (V c main_v66) (V c main_v73) (V c main_v74) (V c main_v75) (V c main_v76) :=
  (dat0 (F := Ideal) V c).arrAt_eq_of_cover 7 (G0 (V c main_arg0) (V c main_v41) (V c main_v66) (V c main_v73) (V c main_v74) (V c main_v75) (V c main_v76))
    (fun t _ => flushed0_eq V c t) rows_cover0

/-- Entry (n, j) of the whole-array function, written out: the layer-normalised row of the three contractions of
    row n of the feature arrays against the stacked weights, plus the bias, scaled, shifted and rectified, at column j. -/
theorem G0_apply (a0 a1 a2 : S50000x128.Idx → EReal) (w : S384x256.Idx → EReal) (b g s : S1x256.Idx → EReal)
    (n : Fin 50000) (j : Fin 256) :
    G0 a0 a1 a2 w b g s (ix2 n j)
      = Cert.Spec.lnRow (Ideal.ofBits .f32 0x43800000#32) (Ideal.ofBits .f32 0x3727C5AC#32)
          (fun j' : Fin 256 => ((∑ k : Fin 128, a0 (ix2 n k) * w (ix2 ⟨k.val, by omega⟩ j')
              + ∑ k : Fin 128, a1 (ix2 n k) * w (ix2 ⟨128 + k.val, by omega⟩ j'))
              + ∑ k : Fin 128, a2 (ix2 n k) * w (ix2 ⟨256 + k.val, by omega⟩ j')) + b (ix2 (0 : Fin 1) j'))
          (fun j' => g (ix2 (0 : Fin 1) j')) (fun j' => s (ix2 (0 : Fin 1) j')) j := rfl

/-- Entry (n, j) of the output array after the launch is entry (n, j) of the whole-array function of the seven
    input arrays as the launch finds them. -/
theorem final0 (c : Dev nD) (n : Fin 50000) (j : Fin 256) :
    (dat0 (F := Ideal) V c).arrAt 7 cfg0.N (ValueIdx.ix2 n j)
      = G0 (V c main_arg0) (V c main_v41) (V c main_v66) (V c main_v73) (V c main_v74) (V c main_v75) (V c main_v76) (ix2 n j) := by
  rw [final0_arr V c]

end Cert.KernelIdeal.Hand

end
-- ==== Proof.KPay1.lean ====
/-
  The second layer's body, read at one entry of its output block.

  At the extended reals every rounding step is the identity, so entry `(r, j)` of what the body leaves is the
  layer normalisation of row `r` of the pre-normalisation block, at column `j`, followed by the maximum with zero.
  Row `r` of the pre-normalisation block is, column by column, the product of the three feature blocks laid side
  by side with the stacked weights — three sums over the 256 columns of each block, against the matching third of
  the weights' rows — plus the bias.
-/
import proofs.«108161_j89232240542461_2_alg».proof.Proof.KOut
import proofs.«108161_j89232240542461_2_alg».proof.Proof.LibRowNorm
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.TcCoe Idealize.ShloMosaic.ValueIdx
open Cert.KernelIdeal Cert.KernelIdeal.Gen
open Cert.Lib.RowOps Cert.Spec

/-! ## The matrix product at an entry -/

theorem lhs1_0 (i : S2000x128.Idx) (q : dot_S2000x768_S768x128_S2000x128_1_0_0_1_n_n.contr.Idx) :
    (dot_S2000x768_S768x128_S2000x128_1_0_0_1_n_n.lhsIdx i q 0).val = (i 0).val := by
  unfold DotDims.lhsIdx
  rw [dif_neg (show ¬(0 : Fin S2000x768.rank) ∈ dot_S2000x768_S768x128_S2000x128_1_0_0_1_n_n.lhsBatch by decide), dif_pos (show (0 : Fin S2000x768.rank) ∈ dot_S2000x768_S768x128_S2000x128_1_0_0_1_n_n.lhsNonContracting by decide)]
  rfl
theorem lhs1_1 (i : S2000x128.Idx) (q : dot_S2000x768_S768x128_S2000x128_1_0_0_1_n_n.contr.Idx) :
    (dot_S2000x768_S768x128_S2000x128_1_0_0_1_n_n.lhsIdx i q 1).val = (q ⟨0, by decide⟩).val :=
  dot_S2000x768_S768x128_S2000x128_1_0_0_1_n_n.lhsIdx_val_of_single rfl i q
theorem rhs1_0 (i : S2000x128.Idx) (q : dot_S2000x768_S768x128_S2000x128_1_0_0_1_n_n.contr.Idx) :
    (dot_S2000x768_S768x128_S2000x128_1_0_0_1_n_n.rhsIdx i q 0).val = (q ⟨0, by decide⟩).val :=
  dot_S2000x768_S768x128_S2000x128_1_0_0_1_n_n.rhsIdx_val_of_single rfl i q
theorem rhs1_1 (i : S2000x128.Idx) (q : dot_S2000x768_S768x128_S2000x128_1_0_0_1_n_n.contr.Idx) :
    (dot_S2000x768_S768x128_S2000x128_1_0_0_1_n_n.rhsIdx i q 1).val = (i 1).val := by
  unfold DotDims.rhsIdx
  rw [dif_neg (show ¬(1 : Fin S768x128.rank) ∈ dot_S2000x768_S768x128_S2000x128_1_0_0_1_n_n.rhsBatch by decide), dif_pos (show (1 : Fin S768x128.rank) ∈ dot_S2000x768_S768x128_S2000x128_1_0_0_1_n_n.rhsNonContracting by decide)]
  rfl

/-- The product into the zero accumulator, at `(r, j)`: the sum over the contraction index of the left factor's
    row `r` against the right factor's column `j`. -/
theorem matmul1_apply (lhs : FVec Ideal S2000x768 .bf16) (rhs : FVec Ideal S768x128 .bf16) (r : Fin 2000) (j : Fin 128) :
    matmul dot_S2000x768_S768x128_S2000x128_1_0_0_1_n_n none lhs rhs (constant S2000x128 .f32 0x00000000#32) (ix2 r j)
      = ∑ k : Fin 768, lhs (ix2 r k) * rhs (ix2 k j) := by
  simp only [matmul]
  rw [Ideal.matmul_constant_zero_apply, ← Equiv.sum_comp (ValueIdx.contrEquiv1 dot_S2000x768_S768x128_S2000x128_1_0_0_1_n_n 768 rfl rfl).symm]
  refine Finset.sum_congr rfl fun k _ => ?_
  have hk := ValueIdx.contrEquiv1_symm_val dot_S2000x768_S768x128_S2000x128_1_0_0_1_n_n 768 rfl rfl k
  have el : dot_S2000x768_S768x128_S2000x128_1_0_0_1_n_n.lhsIdx (ix2 r j) ((ValueIdx.contrEquiv1 dot_S2000x768_S768x128_S2000x128_1_0_0_1_n_n 768 rfl rfl).symm k) = ix2 r k := funext fun a => Fin.ext (by
    match a with
    | ⟨0, _⟩ => exact lhs1_0 _ _
    | ⟨1, _⟩ => exact (lhs1_1 _ _).trans hk)
  have er : dot_S2000x768_S768x128_S2000x128_1_0_0_1_n_n.rhsIdx (ix2 r j) ((ValueIdx.contrEquiv1 dot_S2000x768_S768x128_S2000x128_1_0_0_1_n_n 768 rfl rfl).symm k) = ix2 k j := funext fun a => Fin.ext (by
    match a with
    | ⟨0, _⟩ => exact (rhs1_0 _ _).trans hk
    | ⟨1, _⟩ => exact rhs1_1 _ _)
  rw [el, er]

/-! ## The payloads at an entry -/

theorem hz1 : (![0, 0] : Fin 2 → Nat) = fun _ => 0 := funext fun a => by fin_cases a <;> rfl

/-- Row `r` of the pre-normalisation block: the three blocks' products with their thirds of the weights, plus the bias. -/
def pre1 (x0 x1 x2 : Vec Ideal S2000x256 .f32) (x3 : Vec Ideal S768x128 .f32) (x4 : Vec Ideal S1x128 .f32) (r : Fin 2000) :
    Fin 128 → EReal := fun j' =>
  ((∑ k : Fin 256, x0 (ix2 r k) * x3 (ix2 ⟨k.val, by omega⟩ j') + ∑ k : Fin 256, x1 (ix2 r k) * x3 (ix2 ⟨256 + k.val, by omega⟩ j'))
    + ∑ k : Fin 256, x2 (ix2 r k) * x3 (ix2 ⟨512 + k.val, by omega⟩ j')) + x4 (ix2 (0 : Fin 1) j')

/-- The second payload adds the shift and takes the maximum with zero. -/
theorem pay1_apply1 (v : FVec Ideal S2000x128 .f32) (x6 : Vec Ideal S1x128 .f32) (r : Fin 2000) (j : Fin 128) :
    k1_pay1 (F := Ideal) v x6 (ix2 r j) = max (v (ix2 r j) + x6 (ix2 (0 : Fin 1) j)) 0 := by
  unfold k1_pay1
  rw [maximumf_apply, addf_apply, broadcast_apply, shapeCast_self, broadcastTo_1b_ab_apply]
  exact congrArg (max _) Ideal.ofBits_zero_f32

set_option maxHeartbeats 1000000 in
/-- The first payload at `(r, j)`: the normalised row `r` of the pre-normalisation block at `j`, times the scale. -/
theorem pay2_apply1 (x0 x1 x2 : Vec Ideal S2000x256 .f32) (x3 : Vec Ideal S768x128 .f32) (x4 x5 : Vec Ideal S1x128 .f32)
    (r : Fin 2000) (j : Fin 128) :
    k1_pay2 (F := Ideal) x0 x1 x2 x3 x4 x5 (ix2 r j)
      = (pre1 x0 x1 x2 x3 x4 r j - rowMean (Ideal.ofBits .f32 0x43000000#32) (pre1 x0 x1 x2 x3 x4 r))
          * Ideal.rsqrt (rowVar (Ideal.ofBits .f32 0x43000000#32) (pre1 x0 x1 x2 x3 x4 r) + Ideal.ofBits .f32 0x3727C5AC#32)
          * x5 (ix2 (0 : Fin 1) j) := by
  unfold k1_pay2
  refine (layerNorm_apply _ _ _ _ _ _ _ _ _ _ _ r j).trans ?_
  simp only [addf_apply, matmul1_apply, truncf_apply, shapeCast_self, broadcastTo_1b_ab_apply,
    sum_concat3_mul (w := 256) (W := 768) rfl]
  rfl

/-! ## The output block at an entry -/

/-- Entry `(r, j)` of what the body leaves: the layer normalisation of row `r` of the pre-normalisation block, with
    the scale and the shift rows, at `j`, then the maximum with zero. -/
theorem out1_apply (x0 x1 x2 : Vec Ideal S2000x256 .f32) (x3 : Vec Ideal S768x128 .f32) (x4 x5 x6 : Vec Ideal S1x128 .f32)
    (r : Fin 2000) (j : Fin 128) :
    out1 (F := Ideal) x0 x1 x2 x3 x4 x5 x6 (ix2 r j)
      = lnRow (Ideal.ofBits .f32 0x43000000#32) (Ideal.ofBits .f32 0x3727C5AC#32)
          (fun j' : Fin 128 =>
            ((∑ k : Fin 256, x0 (ix2 r k) * x3 (ix2 ⟨k.val, by omega⟩ j') + ∑ k : Fin 256, x1 (ix2 r k) * x3 (ix2 ⟨256 + k.val, by omega⟩ j'))
              + ∑ k : Fin 256, x2 (ix2 r k) * x3 (ix2 ⟨512 + k.val, by omega⟩ j')) + x4 (ix2 (0 : Fin 1) j'))
          (fun j' => x5 (ix2 (0 : Fin 1) j')) (fun j' => x6 (ix2 (0 : Fin 1) j')) j := by
  unfold out1
  rw [View.canon_unit_zero (S := S2000x128) hz1]
  simp only [View.ld_unit_zero (S := S2000x256) hz1, View.ld_unit_zero (S := S768x128) hz1, View.ld_unit_zero (S := S1x128) hz1]
  rw [pay1_apply1, pay2_apply1]
  rfl

end Cert.KernelIdeal.Hand

end
-- ==== Proof.KFinal1.lean ====
/-
  From blocks to the array, for the second layer's launch of the combine kernel, on the extended reals.

  The launch runs the body at 25 grid points. At point t the three feature windows hold rows 2000·t … 2000·t + 1999
  of their arrays, the weights, the bias, the scale and the shift are whole arrays, and the body's output block is
  written back to rows 2000·t … 2000·t + 1999 of the output array. The body's entry (r, j) is a function of row r of
  its feature blocks and of the whole weights, bias, scale and shift; a block's entry is the array's entry at the
  block index times the block's size plus the coordinate inside the block; so what point t writes back is block t
  of ONE function of the seven whole arrays. The 25 blocks of 2000 rows tile the 50000 rows — row n lies in the
  block of point n / 2000 — so after the launch the output array is that function everywhere.
-/
import proofs.«108161_j89232240542461_2_alg».proof.Proof.KRegions
import proofs.«108161_j89232240542461_2_alg».proof.Proof.KPay1
import proofs.«108161_j89232240542461_2_alg».proof.Proof.SpecRow
import Idealize.ShloMosaic.Lib.Pipeline.Value
import Idealize.ShloMosaic.Lib.ValueIdx
import Idealize.ShloMosaic.Lib.Tactic

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b))

/-- The second layer's combine as ONE function of the seven whole arrays: row n of the result is the
    layer-normalised, scaled, shifted and rectified row whose entry j' is the contraction of row n of the three
    feature arrays against the three 256-row blocks of the stacked weights, plus the bias. -/
def G1 (a0 a1 a2 : S50000x256.Idx → EReal) (w : S768x128.Idx → EReal) (b g s : S1x128.Idx → EReal) :
    S50000x128.Idx → EReal :=
  fun i => Cert.Spec.lnRow (Ideal.ofBits .f32 0x43000000#32) (Ideal.ofBits .f32 0x3727C5AC#32)
    (fun j' : Fin 128 => ((∑ k : Fin 256, a0 (ix2 (i 0) k) * w (ix2 ⟨k.val, by omega⟩ j')
        + ∑ k : Fin 256, a1 (ix2 (i 0) k) * w (ix2 ⟨256 + k.val, by omega⟩ j'))
        + ∑ k : Fin 256, a2 (ix2 (i 0) k) * w (ix2 ⟨512 + k.val, by omega⟩ j')) + b (ix2 (0 : Fin 1) j'))
    (fun j' => g (ix2 (0 : Fin 1) j')) (fun j' => s (ix2 (0 : Fin 1) j')) (i 1)

/-! ## The printed index maps, decided over the grid's 25 points -/

/-- Window 0 is at block (t, 0) at point t. -/
theorem idx1_0 : ∀ t : Fin cfg1.N, win1_0.index t (0 : Fin 2) = t.val ∧ win1_0.index t (1 : Fin 2) = 0 :=
  (by decide +kernel : ∀ t : Fin grid1.N, _)
/-- Window 1 is at block (t, 0) at point t. -/
theorem idx1_1 : ∀ t : Fin cfg1.N, win1_1.index t (0 : Fin 2) = t.val ∧ win1_1.index t (1 : Fin 2) = 0 :=
  (by decide +kernel : ∀ t : Fin grid1.N, _)
/-- Window 2 is at block (t, 0) at point t. -/
theorem idx1_2 : ∀ t : Fin cfg1.N, win1_2.index t (0 : Fin 2) = t.val ∧ win1_2.index t (1 : Fin 2) = 0 :=
  (by decide +kernel : ∀ t : Fin grid1.N, _)
/-- Window 7 is at block (t, 0) at point t. -/
theorem idx1_7 : ∀ t : Fin cfg1.N, win1_7.index t (0 : Fin 2) = t.val ∧ win1_7.index t (1 : Fin 2) = 0 :=
  (by decide +kernel : ∀ t : Fin grid1.N, _)
/-- Window 3 stays at block (0, 0). -/
theorem idx1_3 : ∀ t : Fin cfg1.N, win1_3.index t (0 : Fin 2) = 0 ∧ win1_3.index t (1 : Fin 2) = 0 :=
  (by decide +kernel : ∀ t : Fin grid1.N, _)
/-- Window 4 stays at block (0, 0). -/
theorem idx1_4 : ∀ t : Fin cfg1.N, win1_4.index t (0 : Fin 2) = 0 ∧ win1_4.index t (1 : Fin 2) = 0 :=
  (by decide +kernel : ∀ t : Fin grid1.N, _)
/-- Window 5 stays at block (0, 0). -/
theorem idx1_5 : ∀ t : Fin cfg1.N, win1_5.index t (0 : Fin 2) = 0 ∧ win1_5.index t (1 : Fin 2) = 0 :=
  (by decide +kernel : ∀ t : Fin grid1.N, _)
/-- Window 6 stays at block (0, 0). -/
theorem idx1_6 : ∀ t : Fin cfg1.N, win1_6.index t (0 : Fin 2) = 0 ∧ win1_6.index t (1 : Fin 2) = 0 :=
  (by decide +kernel : ∀ t : Fin grid1.N, _)

/-! ## Each input block, read where its rectangle says: a block's coordinate in the array is the block index
times the block's size plus the coordinate inside the block -/

/-- Feature window 0 at point t is rows 2000·t … 2000·t + 1999 of its array. -/
theorem blk1_0_apply (c : Dev nD) (t : Fin cfg1.N) (x : S2000x256.Idx) (i : S50000x256.Idx)
    (h0 : (i 0).val = t.val * 2000 + (x 0).val) (h1 : (i 1).val = (x 1).val) :
    (iblk1 V c 0 t : Vec Ideal S2000x256 .f32) x = (V c main_v77 : S50000x256.Idx → Elt Ideal .f32) i := by
  obtain ⟨e0, e1⟩ := idx1_0 t
  unfold iblk1
  rw [View.read_apply]
  show V c main_v77 _ = V c main_v77 _
  congr 1
  funext a
  apply Fin.ext
  match a with
  | ⟨0, _⟩ => show win1_0.index t (0 : Fin 2) * 2000 + 1 * (x 0).val = (i 0).val; rw [e0, h0]; omega
  | ⟨1, _⟩ => show win1_0.index t (1 : Fin 2) * 256 + 1 * (x 1).val = (i 1).val; rw [e1, h1]; omega

/-- Feature window 1 at point t is rows 2000·t … 2000·t + 1999 of its array. -/
theorem blk1_1_apply (c : Dev nD) (t : Fin cfg1.N) (x : S2000x256.Idx) (i : S50000x256.Idx)
    (h0 : (i 0).val = t.val * 2000 + (x 0).val) (h1 : (i 1).val = (x 1).val) :
    (iblk1 V c 1 t : Vec Ideal S2000x256 .f32) x = (V c main_v99 : S50000x256.Idx → Elt Ideal .f32) i := by
  obtain ⟨e0, e1⟩ := idx1_1 t
  unfold iblk1
  rw [View.read_apply]
  show V c main_v99 _ = V c main_v99 _
  congr 1
  funext a
  apply Fin.ext
  match a with
  | ⟨0, _⟩ => show win1_1.index t (0 : Fin 2) * 2000 + 1 * (x 0).val = (i 0).val; rw [e0, h0]; omega
  | ⟨1, _⟩ => show win1_1.index t (1 : Fin 2) * 256 + 1 * (x 1).val = (i 1).val; rw [e1, h1]; omega

/-- Feature window 2 at point t is rows 2000·t … 2000·t + 1999 of its array. -/
theorem blk1_2_apply (c : Dev nD) (t : Fin cfg1.N) (x : S2000x256.Idx) (i : S50000x256.Idx)
    (h0 : (i 0).val = t.val * 2000 + (x 0).val) (h1 : (i 1).val = (x 1).val) :
    (iblk1 V c 2 t : Vec Ideal S2000x256 .f32) x = (V c main_v124 : S50000x256.Idx → Elt Ideal .f32) i := by
  obtain ⟨e0, e1⟩ := idx1_2 t
  unfold iblk1
  rw [View.read_apply]
  show V c main_v124 _ = V c main_v124 _
  congr 1
  funext a
  apply Fin.ext
  match a with
  | ⟨0, _⟩ => show win1_2.index t (0 : Fin 2) * 2000 + 1 * (x 0).val = (i 0).val; rw [e0, h0]; omega
  | ⟨1, _⟩ => show win1_2.index t (1 : Fin 2) * 256 + 1 * (x 1).val = (i 1).val; rw [e1, h1]; omega

/-- The weights' window is the whole array at every point. -/
theorem blk1_3_apply (c : Dev nD) (t : Fin cfg1.N) (x : S768x128.Idx) :
    (iblk1 V c 3 t : Vec Ideal S768x128 .f32) x = (V c main_v131 : S768x128.Idx → Elt Ideal .f32) x := by
  obtain ⟨e0, e1⟩ := idx1_3 t
  unfold iblk1
  rw [View.read_apply]
  show V c main_v131 _ = V c main_v131 _
  congr 1
  funext a
  apply Fin.ext
  match a with
  | ⟨0, _⟩ => show win1_3.index t (0 : Fin 2) * 768 + 1 * (x 0).val = (x 0).val; rw [e0]; omega
  | ⟨1, _⟩ => show win1_3.index t (1 : Fin 2) * 128 + 1 * (x 1).val = (x 1).val; rw [e1]; omega

/-- The bias's window is the whole one-row array at every point. -/
theorem blk1_4_apply (c : Dev nD) (t : Fin cfg1.N) (x : S1x128.Idx) :
    (iblk1 V c 4 t : Vec Ideal S1x128 .f32) x = (V c main_v132 : S1x128.Idx → Elt Ideal .f32) x := by
  obtain ⟨e0, e1⟩ := idx1_4 t
  unfold iblk1
  rw [View.read_apply]
  show V c main_v132 _ = V c main_v132 _
  congr 1
  funext a
  apply Fin.ext
  match a with
  | ⟨0, _⟩ => show win1_4.index t (0 : Fin 2) * 1 + 1 * (x 0).val = (x 0).val; rw [e0]; omega
  | ⟨1, _⟩ => show win1_4.index t (1 : Fin 2) * 128 + 1 * (x 1).val = (x 1).val; rw [e1]; omega

/-- The scale's window is the whole one-row array at every point. -/
theorem blk1_5_apply (c : Dev nD) (t : Fin cfg1.N) (x : S1x128.Idx) :
    (iblk1 V c 5 t : Vec Ideal S1x128 .f32) x = (V c main_v133 : S1x128.Idx → Elt Ideal .f32) x := by
  obtain ⟨e0, e1⟩ := idx1_5 t
  unfold iblk1
  rw [View.read_apply]
  show V c main_v133 _ = V c main_v133 _
  congr 1
  funext a
  apply Fin.ext
  match a with
  | ⟨0, _⟩ => show win1_5.index t (0 : Fin 2) * 1 + 1 * (x 0).val = (x 0).val; rw [e0]; omega
  | ⟨1, _⟩ => show win1_5.index t (1 : Fin 2) * 128 + 1 * (x 1).val = (x 1).val; rw [e1]; omega

/-- The shift's window is the whole one-row array at every point. -/
theorem blk1_6_apply (c : Dev nD) (t : Fin cfg1.N) (x : S1x128.Idx) :
    (iblk1 V c 6 t : Vec Ideal S1x128 .f32) x = (V c main_v134 : S1x128.Idx → Elt Ideal .f32) x := by
  obtain ⟨e0, e1⟩ := idx1_6 t
  unfold iblk1
  rw [View.read_apply]
  show V c main_v134 _ = V c main_v134 _
  congr 1
  funext a
  apply Fin.ext
  match a with
  | ⟨0, _⟩ => show win1_6.index t (0 : Fin 2) * 1 + 1 * (x 0).val = (x 0).val; rw [e0]; omega
  | ⟨1, _⟩ => show win1_6.index t (1 : Fin 2) * 128 + 1 * (x 1).val = (x 1).val; rw [e1]; omega

/-! ## What point t writes back -/

/-- Entry y of the body's output block at point t is entry i of the whole-array function, i being y moved down
    by 2000·t rows: the body's entry is the normalised row of the three contractions of ITS blocks, and each block
    entry is the array entry the block's rectangle puts it at. -/
theorem flushed1_at (c : Dev nD) (t : Fin cfg1.N) (y : S2000x128.Idx) (i : S50000x128.Idx)
    (h0 : (i 0).val = t.val * 2000 + (y 0).val) (h1 : (i 1).val = (y 1).val) :
    out1 (F := Ideal) (iblk1 V c 0 t) (iblk1 V c 1 t) (iblk1 V c 2 t) (iblk1 V c 3 t) (iblk1 V c 4 t) (iblk1 V c 5 t) (iblk1 V c 6 t) y
      = G1 (V c main_v77) (V c main_v99) (V c main_v124) (V c main_v131) (V c main_v132) (V c main_v133) (V c main_v134) i := by
  obtain ⟨r, j, rfl⟩ : ∃ r j, y = ix2 r j := ⟨y 0, y 1, eq_ix2 y⟩
  refine (out1_apply _ _ _ _ _ _ _ r j).trans ?_
  have hj : i 1 = j := Fin.ext h1
  have e0 : ∀ k : Fin 256, (iblk1 V c 0 t : Vec Ideal S2000x256 .f32) (ix2 r k)
      = (V c main_v77 : S50000x256.Idx → Elt Ideal .f32) (ix2 (i 0) k) :=
    fun k => blk1_0_apply V c t (ix2 r k) (ix2 (i 0) k) h0 rfl
  have e1 : ∀ k : Fin 256, (iblk1 V c 1 t : Vec Ideal S2000x256 .f32) (ix2 r k)
      = (V c main_v99 : S50000x256.Idx → Elt Ideal .f32) (ix2 (i 0) k) :=
    fun k => blk1_1_apply V c t (ix2 r k) (ix2 (i 0) k) h0 rfl
  have e2 : ∀ k : Fin 256, (iblk1 V c 2 t : Vec Ideal S2000x256 .f32) (ix2 r k)
      = (V c main_v124 : S50000x256.Idx → Elt Ideal .f32) (ix2 (i 0) k) :=
    fun k => blk1_2_apply V c t (ix2 r k) (ix2 (i 0) k) h0 rfl
  have e3 : ∀ (q : Fin 768) (j' : Fin 128), (iblk1 V c 3 t : Vec Ideal S768x128 .f32) (ix2 q j')
      = (V c main_v131 : S768x128.Idx → Elt Ideal .f32) (ix2 q j') :=
    fun q j' => blk1_3_apply V c t (ix2 q j')
  have e4 : ∀ j' : Fin 128, (iblk1 V c 4 t : Vec Ideal S1x128 .f32) (ix2 (0 : Fin 1) j')
      = (V c main_v132 : S1x128.Idx → Elt Ideal .f32) (ix2 (0 : Fin 1) j') :=
    fun j' => blk1_4_apply V c t (ix2 (0 : Fin 1) j')
  have e5 : ∀ j' : Fin 128, (iblk1 V c 5 t : Vec Ideal S1x128 .f32) (ix2 (0 : Fin 1) j')
      = (V c main_v133 : S1x128.Idx → Elt Ideal .f32) (ix2 (0 : Fin 1) j') :=
    fun j' => blk1_5_apply V c t (ix2 (0 : Fin 1) j')
  have e6 : ∀ j' : Fin 128, (iblk1 V c 6 t : Vec Ideal S1x128 .f32) (ix2 (0 : Fin 1) j')
      = (V c main_v134 : S1x128.Idx → Elt Ideal .f32) (ix2 (0 : Fin 1) j') :=
    fun j' => blk1_6_apply V c t (ix2 (0 : Fin 1) j')
  unfold G1
  rw [hj]
  simp only [e0, e1, e2, e3, e4, e5, e6]

/-- WHAT POINT t WRITES BACK is block t of the whole-array function of the seven arrays as the launch finds them. -/
theorem flushed1_eq (c : Dev nD) (t : Fin cfg1.N) :
    (dat1 (F := Ideal) V c).flushed 7 t
      = ((cfg1.win 7).blk t).view.read (Elt Ideal) (G1 (V c main_v77) (V c main_v99) (V c main_v124) (V c main_v131) (V c main_v132) (V c main_v133) (V c main_v134)) := by
  show (cfg1.win 7).cut (grid1.coords t) ((dat1 (F := Ideal) V c).after 7 t) = _
  rw [after1_7]
  obtain ⟨e0, e1⟩ := idx1_7 t
  funext y
  refine flushed1_at V c t y (((cfg1.win 7).blk t).view.emb y) ?_ ?_
  · show win1_7.index t (0 : Fin 2) * 2000 + 1 * (y 0).val = t.val * 2000 + (y 0).val
    rw [e0]; omega
  · show win1_7.index t (1 : Fin 2) * 128 + 1 * (y 1).val = (y 1).val
    rw [e1]; omega

/-! ## The output's blocks cover its array -/

/-- An index of the output array is in point t's block iff each coordinate is in the block's range on its axis. -/
theorem mem_blk1 (t : Fin cfg1.N) (i : S50000x128.Idx) :
    i ∈ ((cfg1.win 7).blk t).view.set ↔ ∀ a : Fin 2, win1_7.index t a * S2000x128.size a ≤ (i a).val
      ∧ (i a).val < win1_7.index t a * S2000x128.size a + S2000x128.size a := by
  show i ∈ ((View.whole main_v135).slice (win1_7.rect t)).set ↔ _
  rw [View.set_slice_whole, Rect.mem_set_unit]
  exact Iff.rfl

/-- Row n of the output array is written back by point n / 2000: the 25 blocks of 2000 rows tile the 50000 rows. -/
theorem rows_cover1 (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 25 := N_1
  have ht : (i 0).val / 2000 < cfg1.N := by rw [hN]; omega
  refine ⟨⟨(i 0).val / 2000, ht⟩, flush1_7 _, ?_⟩
  rw [mem_blk1]
  obtain ⟨e0, e1⟩ := idx1_7 ⟨(i 0).val / 2000, ht⟩
  intro a
  match a with
  | ⟨0, _⟩ =>
    show win1_7.index ⟨(i 0).val / 2000, ht⟩ (0 : Fin 2) * 2000 ≤ (i 0).val
      ∧ (i 0).val < win1_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_7.index ⟨(i 0).val / 2000, ht⟩ (1 : Fin 2) * 128 ≤ (i 1).val
      ∧ (i 1).val < win1_7.index ⟨(i 0).val / 2000, ht⟩ (1 : Fin 2) * 128 + 128
    rw [e1]; omega

/-! ## The array after the launch -/

/-- THE OUTPUT ARRAY after the launch's 25 points is the whole-array function of the seven input arrays. -/
theorem final1_arr (c : Dev nD) :
    (dat1 (F := Ideal) V c).arrAt 7 cfg1.N = G1 (V c main_v77) (V c main_v99) (V c main_v124) (V c main_v131) (V c main_v132) (V c main_v133) (V c main_v134) :=
  (dat1 (F := Ideal) V c).arrAt_eq_of_cover 7 (G1 (V c main_v77) (V c main_v99) (V c main_v124) (V c main_v131) (V c main_v132) (V c main_v133) (V c main_v134))
    (fun t _ => flushed1_eq V c t) rows_cover1

/-- Entry (n, j) of the whole-array function, written out: the layer-normalised row of the three contractions of
    row n of the feature arrays against the stacked weights, plus the bias, scaled, shifted and rectified, at column j. -/
theorem G1_apply (a0 a1 a2 : S50000x256.Idx → EReal) (w : S768x128.Idx → EReal) (b g s : S1x128.Idx → EReal)
    (n : Fin 50000) (j : Fin 128) :
    G1 a0 a1 a2 w b g s (ix2 n j)
      = Cert.Spec.lnRow (Ideal.ofBits .f32 0x43000000#32) (Ideal.ofBits .f32 0x3727C5AC#32)
          (fun j' : Fin 128 => ((∑ k : Fin 256, a0 (ix2 n k) * w (ix2 ⟨k.val, by omega⟩ j')
              + ∑ k : Fin 256, a1 (ix2 n k) * w (ix2 ⟨256 + k.val, by omega⟩ j'))
              + ∑ k : Fin 256, a2 (ix2 n k) * w (ix2 ⟨512 + k.val, by omega⟩ j')) + b (ix2 (0 : Fin 1) j'))
          (fun j' => g (ix2 (0 : Fin 1) j')) (fun j' => s (ix2 (0 : Fin 1) j')) j := rfl

/-- Entry (n, j) of the output array after the launch is entry (n, j) of the whole-array function of the seven
    input arrays as the launch finds them. -/
theorem final1 (c : Dev nD) (n : Fin 50000) (j : Fin 128) :
    (dat1 (F := Ideal) V c).arrAt 7 cfg1.N (ValueIdx.ix2 n j)
      = G1 (V c main_v77) (V c main_v99) (V c main_v124) (V c main_v131) (V c main_v132) (V c main_v133) (V c main_v134) (ix2 n j) := by
  rw [final1_arr V c]

end Cert.KernelIdeal.Hand

end
-- ==== Proof.LibScatterForms.lean ====
/-
  The host's scatter-add in two spellings of one sum.

  Updates `u e`, one per edge `e`, are added onto the entries `dst e` of a node array. Spelt over vectors, the
  operand is `[N]` and the updates `[E]`; spelt with a trailing unit axis, the operand is `[N, 1]` and the updates
  are rows `[E, 1]` that land whole. In both, the start index of update `e` is read signed off the same index
  column and is NOT clamped, so update `e` lands on node `n` exactly when `dst e = n`; the two scattered arrays
  therefore agree entry by entry when the updates and the operands do.
-/
import Idealize.ShloMosaic.PureOps.Ideal.Laws
import Idealize.ShloMosaic.Lib.ValueIdx

noncomputable section

namespace Cert.ScatterForms

open Idealize.ShloMosaic Idealize.ShloMosaic.ValueIdx

/-- An update lands on operand entry `i` exactly when, on every axis, its unclamped start plus its window
    coordinate is `i`'s coordinate (being a coordinate of `i`, that sum is then in range). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro he a
      have h1 := congrArg (fun f => (f a).val) (Option.some.inj he)
      have h2 := (h a).1
      simp only at h1
      omega
    · intro he
      refine congrArg some (funext fun a => Fin.ext ?_)
      have h1 := he a
      have h2 := (h a).1
      show (d.start j idx a + (d.window j a : Int)).toNat = (i a).val
      omega
  · rename_i h
    constructor
    · intro he
      exact absurd he (by simp)
    · intro he
      exfalso
      apply h
      intro a
      have h1 := he a
      have h2 := (i a).isLt
      constructor <;> omega

/-! ## Over vectors -/

/-- The dimension numbers of `x.at[idx].add(u)` for `x : [N]`, `idx : [E]` given as a column `[E, 1]`, `u : [E]`. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem vecScatter_start {N E w : Nat} (wf : ScatterDims.WF ⟨1, ![N]⟩ ⟨2, ![E, 1]⟩ ⟨1, ![E]⟩ [] [0] [0] 1)
    (idx : IVec ⟨2, ![E, 1]⟩ w) (e : Fin E) :
    (vecScatter N E wf).start (ix1 e) idx 0 = (idx (ix2 e (0 : Fin 1))).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem vecScatter_window {N E : Nat} (wf : ScatterDims.WF ⟨1, ![N]⟩ ⟨2, ![E, 1]⟩ ⟨1, ![E]⟩ [] [0] [0] 1) (e : Fin E) :
    (vecScatter N E wf).window (ix1 e) 0 = 0 := by
  unfold ScatterDims.window
  rw [dif_neg (show ¬ (0 : Fin 1) ∈ (vecScatter N E wf).sKept from
    fun h => (of_decide_eq_true (List.mem_filter.mp h).2) (List.mem_singleton.mpr rfl))]

/-- Update `e` lands on entry `n` exactly when its index, read signed, is `n`. -/
theorem vecScatter_lands {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (vecScatter N E wf).resultIdx? (ix1 e) idx = some (ix1 n) ↔ (idx (ix2 e (0 : Fin 1))).toInt = (n.val : Int) := by
  rw [resultIdx?_eq_some_iff]
  constructor
  · intro h
    have h0 : (idx (ix2 e (0 : Fin 1))).toInt + ((0 : ℕ) : Int) = (n.val : Int) := by
      have := h 0
      rwa [vecScatter_start, vecScatter_window] at this
    simpa using h0
  · intro h a
    obtain rfl : a = 0 := Subsingleton.elim _ _
    show (vecScatter N E wf).start (ix1 e) idx 0 + ((vecScatter N E wf).window (ix1 e) 0 : Int) = (n.val : Int)
    rw [vecScatter_start, vecScatter_window]
    simpa using h

/-! ## With a trailing unit axis -/

/-- The dimension numbers of `x.at[idx].add(u)` for `x : [N, 1]`, `idx : [E]` given as a column `[E, 1]`, `u : [E, 1]`:
    update row `e` goes, whole, to operand row `idx[e]`. -/
abbrev colScatter (N E : Nat) (wf : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ where
  updateWindowDims := [1]
  insertedWindowDims := [0]
  scatterDimsToOperandDims := [0]
  indexVectorDim := 1
  wf := wf

theorem colScatter_start0 {N E w : Nat} (wf : ScatterDims.WF ⟨2, ![N, 1]⟩ ⟨2, ![E, 1]⟩ ⟨2, ![E, 1]⟩ [1] [0] [0] 1)
    (idx : IVec ⟨2, ![E, 1]⟩ w) (e : Fin E) (c : Fin 1) :
    (colScatter N E wf).start (ix2 e c) idx 0 = (idx (ix2 e (0 : Fin 1))).toInt := by
  unfold ScatterDims.start
  rw [dif_pos (show (0 : Fin 2) ∈ (colScatter N E wf).scatterDimsToOperandDims from List.mem_singleton.mpr rfl)]
  have hsi : (colScatter N E wf).siIdx (ix2 e c) ⟨List.idxOf (0 : Fin 2) (colScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem colScatter_window0 {N E : Nat} (wf : ScatterDims.WF ⟨2, ![N, 1]⟩ ⟨2, ![E, 1]⟩ ⟨2, ![E, 1]⟩ [1] [0] [0] 1)
    (e : Fin E) (c : Fin 1) : (colScatter N E wf).window (ix2 e c) 0 = 0 := by
  unfold ScatterDims.window
  rw [dif_neg (show ¬ (0 : Fin 2) ∈ (colScatter N E wf).sKept from
    fun h => (of_decide_eq_true (List.mem_filter.mp h).2) (List.mem_singleton.mpr rfl))]

/-- On the unit axis the window coordinate of update `(e, c)` is `c` itself. -/
theorem colScatter_window1 {N E : Nat} (wf : ScatterDims.WF ⟨2, ![N, 1]⟩ ⟨2, ![E, 1]⟩ ⟨2, ![E, 1]⟩ [1] [0] [0] 1)
    (e : Fin E) (c : Fin 1) : (colScatter N E wf).window (ix2 e c) 1 = c.val := by
  have hk : (1 : Fin 2) ∈ (colScatter N E wf).sKept := by
    simp [ScatterDims.sKept, Shape.kept, List.mem_filter, List.mem_finRange]
  have hoff : ∀ (k : Nat) (hk : k < (colScatter N E wf).updateWindowDims.length),
      (colScatter N E wf).updateWindowDims[k]'hk = (1 : Fin 2) := by
    intro k hk
    match k, hk with
    | 0, _ => rfl
  unfold ScatterDims.window
  rw [dif_pos hk]
  show ((ix2 e c) ((colScatter N E wf).updateWindowDims[List.idxOf (1 : Fin 2) (colScatter N E wf).sKept]'_)).val = c.val
  rw [hoff]

/-- The unit axis is not indexed: its start is 0. -/
theorem colScatter_start1 {N E w : Nat} (wf : ScatterDims.WF ⟨2, ![N, 1]⟩ ⟨2, ![E, 1]⟩ ⟨2, ![E, 1]⟩ [1] [0] [0] 1)
    (idx : IVec ⟨2, ![E, 1]⟩ w) (e : Fin E) (c : Fin 1) : (colScatter N E wf).start (ix2 e c) idx 1 = 0 := by
  unfold ScatterDims.start
  rw [dif_neg (show ¬ (1 : Fin 2) ∈ (colScatter N E wf).scatterDimsToOperandDims from
    fun h => absurd (congrArg Fin.val (List.mem_singleton.mp h)) Nat.one_ne_zero)]

/-- Update row `e` lands on row `n` exactly when its index, read signed, is `n`. -/
theorem colScatter_lands {N E w : Nat} (wf : ScatterDims.WF ⟨2, ![N, 1]⟩ ⟨2, ![E, 1]⟩ ⟨2, ![E, 1]⟩ [1] [0] [0] 1)
    (idx : IVec ⟨2, ![E, 1]⟩ w) (e : Fin E) (c : Fin 1) (n : Fin N) (z : Fin 1) :
    (colScatter N E wf).resultIdx? (ix2 e c) idx = some (ix2 n z) ↔ (idx (ix2 e (0 : Fin 1))).toInt = (n.val : Int) := by
  rw [resultIdx?_eq_some_iff]
  constructor
  · intro h
    have h0 : (idx (ix2 e (0 : Fin 1))).toInt + ((0 : ℕ) : Int) = (n.val : Int) := by
      have := h 0
      rwa [colScatter_start0, colScatter_window0] at this
    simpa using h0
  · intro h a
    match a with
    | ⟨0, _⟩ =>
      show (colScatter N E wf).start (ix2 e c) idx 0 + ((colScatter N E wf).window (ix2 e c) 0 : Int) = (n.val : Int)
      rw [colScatter_start0, colScatter_window0]
      simpa using h
    | ⟨1, _⟩ =>
      show (colScatter N E wf).start (ix2 e c) idx 1 + ((colScatter N E wf).window (ix2 e c) 1 : Int) = (z.val : Int)
      rw [colScatter_start1, colScatter_window1]
      have hc := c.isLt
      have hz := z.isLt
      omega

/-! ## The two spellings give one sum -/

/-- THE LAW that joins the two programs' scatters: with the same index column, operands that agree at node `n` and
    updates that agree edge by edge, the scattered vector at `n` is the scattered column at `(n, 0)` — the updates that
    land there are the same edges. -/
theorem scatterAdd_vec_eq_col {N E w : Nat}
    (wfK : ScatterDims.WF ⟨1, ![N]⟩ ⟨2, ![E, 1]⟩ ⟨1, ![E]⟩ [] [0] [0] 1)
    (wfR : ScatterDims.WF ⟨2, ![N, 1]⟩ ⟨2, ![E, 1]⟩ ⟨2, ![E, 1]⟩ [1] [0] [0] 1)
    (idx : IVec ⟨2, ![E, 1]⟩ w)
    (xK : (⟨1, ![N]⟩ : Shape).Idx → EReal) (xR : (⟨2, ![N, 1]⟩ : Shape).Idx → EReal)
    (uK : (⟨1, ![E]⟩ : Shape).Idx → EReal) (uR : (⟨2, ![E, 1]⟩ : Shape).Idx → EReal)
    (n : Fin N) (z : Fin 1) (hx : xK (ix1 n) = xR (ix2 n z))
    (hu : ∀ e : Fin E, uK (ix1 e) = uR (ix2 e (0 : Fin 1))) :
    Ideal.hostScatterAdd (vecScatter N E wfK) xK idx uK (ix1 n)
      = Ideal.hostScatterAdd (colScatter N E wfR) xR idx uR (ix2 n z) := by
  unfold Ideal.hostScatterAdd
  rw [hx]
  congr 1
  refine Finset.sum_bij' (fun j _ => ix2 (j 0) (0 : Fin 1)) (fun j _ => ix1 (j 0)) ?_ ?_ ?_ ?_ ?_
  · intro j hj
    obtain ⟨e, rfl⟩ : ∃ e, j = ix1 e := ⟨j 0, eq_ix1 j⟩
    rw [Finset.mem_filter] at hj ⊢
    exact ⟨Finset.mem_univ _, (colScatter_lands wfR idx e 0 n z).mpr ((vecScatter_lands wfK idx e n).mp hj.2)⟩
  · intro j hj
    obtain ⟨e, c, rfl⟩ : ∃ e c, j = ix2 e c := ⟨j 0, j 1, eq_ix2 j⟩
    rw [Finset.mem_filter] at hj ⊢
    exact ⟨Finset.mem_univ _, (vecScatter_lands wfK idx e n).mpr ((colScatter_lands wfR idx e c n z).mp hj.2)⟩
  · intro j _
    exact (eq_ix1 j).symm
  · intro j _
    funext a
    match a with
    | ⟨0, _⟩ => rfl
    | ⟨1, _⟩ =>
      refine Fin.ext ?_
      have := idx2_lt1 j
      show (0 : ℕ) = (j 1).val
      omega
  · intro j _
    obtain ⟨e, rfl⟩ : ∃ e, j = ix1 e := ⟨j 0, eq_ix1 j⟩
    exact hu e

end Cert.ScatterForms

end
-- ==== Proof.LibRows2.lean ====
/-
  Whole rows of a rank-2 array moved by an index column, read at an entry, and the host's accumulating scatter of
  rows written as a sum over the edges; a vector picked by an index column likewise.

  For an operand of shape [N, D], an index column [E, 1] and rows [E, D]:
  * jnp's x[idx] (a row gather) at entry (e, j) is the operand at row idx[e] — read signed and clamped into
    [0, N − 1] — and the same j;
  * update entry (e, j) of the row scatter lands on operand entry (n, j') exactly when idx[e], read signed and not
    clamped, is n and j = j';
  * hence the scattered sum at (n, j) is the operand entry plus the sum over the edges e with idx[e] = n of the
    update entry (e, j).
  For a vector [N] picked by a column [E, 1], entry e is the vector at idx[e] read signed and clamped.
  Nothing here mentions a program: the shapes are literal ranks with symbolic extents.
-/
import Idealize.ShloMosaic.PureOps.Ideal.Laws
import Idealize.ShloMosaic.Lib.ValueIdx
import proofs.«108161_j89232240542461_2_alg».proof.Proof.LibScatterForms

noncomputable section

namespace Cert.Rows2

open Idealize.ShloMosaic Idealize.ShloMosaic.ValueIdx

/-! ## The row gather of a rank-2 operand -/

/-- The dimension numbers of x[idx] for x : [N, D] and idx : [E] given as a column [E, 1]: whole rows. -/
abbrev pickRows2 (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry (e, j) of the gather is the operand at row idx[e, 0] — read signed and clamped into [0, N − 1] — and the
    same column j. -/
theorem gather_pickRows2_apply {α : Type} {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (pickRows2 N D E wf) x idx (ix2 e j)
      = x (ix2 ⟨min (idx (ix2 e (0 : Fin 1))).toInt.toNat (N - 1), by omega⟩ j) := by
  unfold Host.gather
  congr 1
  funext c
  refine Fin.ext ?_
  have hnb : ∀ c : Fin 2, (pickRows2 N D E wf).batchCoord (ix2 e j) c = 0 := fun c =>
    GatherDims.batchCoord_eq_zero _ _ _ List.not_mem_nil
  have hs : ∀ c : Fin 2, c ≠ 0 → (pickRows2 N D E wf).start (ix2 e j) idx c = 0 := by
    intro c hc
    unfold GatherDims.start
    rw [dif_neg (show ¬ c ∈ (pickRows2 N D E wf).startIndexMap from fun h => hc (List.mem_singleton.mp h))]
  match c with
  | ⟨0, _⟩ =>
    show (pickRows2 N D E wf).start (ix2 e j) idx 0 + (pickRows2 N D E wf).batchCoord (ix2 e j) 0
      + (pickRows2 N D E wf).offCoord (ix2 e j) 0 = _
    rw [hnb, GatherDims.offCoord_eq_zero _ _ _ (fun h => ((GatherDims.mem_sKept _ _).mp h).1 (List.mem_singleton.mpr rfl))]
    simp only [Nat.add_zero]
    unfold GatherDims.start
    rw [dif_pos (show (0 : Fin 2) ∈ (pickRows2 N D E wf).startIndexMap from List.mem_singleton.mpr rfl)]
    have hsi : (pickRows2 N D E wf).siIdx (ix2 e j) ⟨List.idxOf (0 : Fin 2) (pickRows2 N D E wf).startIndexMap,
        List.idxOf_lt_length_iff.2 (List.mem_singleton.mpr rfl)⟩ = ix2 e (0 : Fin 1) := by
      funext q; refine Fin.ext ?_
      match q with
      | ⟨0, _⟩ => rfl
      | ⟨1, _⟩ => rfl
    rw [hsi]
    rfl
  | ⟨1, _⟩ =>
    show (pickRows2 N D E wf).start (ix2 e j) idx 1 + (pickRows2 N D E wf).batchCoord (ix2 e j) 1
      + (pickRows2 N D E wf).offCoord (ix2 e j) 1 = j.val
    rw [hs 1 (by decide), hnb]
    have hk : (1 : Fin 2) ∈ (pickRows2 N D E wf).sKept :=
      (GatherDims.mem_sKept _ _).mpr
        ⟨fun h => absurd (congrArg Fin.val (List.mem_singleton.mp h)) Nat.one_ne_zero, List.not_mem_nil⟩
    unfold GatherDims.offCoord
    rw [dif_pos hk, Nat.zero_add]
    rfl

/-! ## A vector picked by an index column -/

/-- The dimension numbers of x[idx] for x : [N] and idx : [E] given as a column [E, 1]: single entries. -/
abbrev pick1 (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry e of the gather is the vector at idx[e, 0], read signed and clamped into [0, N − 1]. -/
theorem gather_pick1_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (pick1 N E wf) x idx (ix1 e)
      = x (ix1 ⟨min (idx (ix2 e (0 : Fin 1))).toInt.toNat (N - 1), by omega⟩) := by
  unfold Host.gather
  congr 1
  funext c
  refine Fin.ext ?_
  have hnb : ∀ c : Fin 1, (pick1 N E wf).batchCoord (ix1 e) c = 0 := fun c =>
    GatherDims.batchCoord_eq_zero _ _ _ List.not_mem_nil
  match c with
  | ⟨0, _⟩ =>
    show (pick1 N E wf).start (ix1 e) idx 0 + (pick1 N E wf).batchCoord (ix1 e) 0
      + (pick1 N E wf).offCoord (ix1 e) 0 = _
    rw [hnb, GatherDims.offCoord_eq_zero _ _ _ (fun h => ((GatherDims.mem_sKept _ _).mp h).1 (List.mem_singleton.mpr rfl))]
    simp only [Nat.add_zero]
    unfold GatherDims.start
    rw [dif_pos (show (0 : Fin 1) ∈ (pick1 N E wf).startIndexMap from List.mem_singleton.mpr rfl)]
    have hsi : (pick1 N E wf).siIdx (ix1 e) ⟨List.idxOf (0 : Fin 1) (pick1 N E wf).startIndexMap,
        List.idxOf_lt_length_iff.2 (List.mem_singleton.mpr rfl)⟩ = ix2 e (0 : Fin 1) := by
      funext q; refine Fin.ext ?_
      match q with
      | ⟨0, _⟩ => rfl
      | ⟨1, _⟩ => rfl
    rw [hsi]
    rfl

/-! ## The row scatter of a rank-2 operand -/

/-- The dimension numbers of x.at[idx].add(u) for x : [N, D], idx : [E] as a column [E, 1] and u : [E, D]: update
    row e goes, whole, to operand row idx[e]. -/
abbrev rowScatter2 (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section
variable {N D E w : Nat} (wf : ScatterDims.WF ⟨2, ![N, D]⟩ ⟨2, ![E, 1]⟩ ⟨2, ![E, D]⟩ [1] [0] [0] 1)
  (idx : IVec ⟨2, ![E, 1]⟩ w) (e : Fin E) (j : Fin D)

theorem rowScatter2_start0 : (rowScatter2 N D E wf).start (ix2 e j) idx 0 = (idx (ix2 e (0 : Fin 1))).toInt := by
  unfold ScatterDims.start
  rw [dif_pos (show (0 : Fin 2) ∈ (rowScatter2 N D E wf).scatterDimsToOperandDims from List.mem_singleton.mpr rfl)]
  have hsi : (rowScatter2 N D E wf).siIdx (ix2 e j) ⟨List.idxOf (0 : Fin 2) (rowScatter2 N D E wf).scatterDimsToOperandDims,
      List.idxOf_lt_length_iff.2 (List.mem_singleton.mpr rfl)⟩ = ix2 e (0 : Fin 1) := by
    funext q; refine Fin.ext ?_
    match q with
    | ⟨0, _⟩ => rfl
    | ⟨1, _⟩ => rfl
  rw [hsi]

theorem rowScatter2_start1 : (rowScatter2 N D E wf).start (ix2 e j) idx 1 = 0 := by
  unfold ScatterDims.start
  rw [dif_neg (show ¬ (1 : Fin 2) ∈ (rowScatter2 N D E wf).scatterDimsToOperandDims from
    fun h => absurd (congrArg Fin.val (List.mem_singleton.mp h)) Nat.one_ne_zero)]

theorem rowScatter2_window0 : (rowScatter2 N D E wf).window (ix2 e j) 0 = 0 := by
  unfold ScatterDims.window
  rw [dif_neg (show ¬ (0 : Fin 2) ∈ (rowScatter2 N D E wf).sKept from
    fun h => (of_decide_eq_true (List.mem_filter.mp h).2) (List.mem_singleton.mpr rfl))]

theorem rowScatter2_window1 : (rowScatter2 N D E wf).window (ix2 e j) 1 = j.val := by
  have hk : (1 : Fin 2) ∈ (rowScatter2 N D E wf).sKept := by
    simp [ScatterDims.sKept, Shape.kept, List.mem_filter, List.mem_finRange]
  unfold ScatterDims.window
  rw [dif_pos hk]
  rfl

/-- Update entry (e, j) lands on operand entry (n, j') exactly when its row index, read signed, is n and the
    columns agree. -/
theorem rowScatter2_lands (n : Fin N) (j' : Fin D) :
    (rowScatter2 N D E wf).resultIdx? (ix2 e j) idx = some (ix2 n j')
      ↔ (idx (ix2 e (0 : Fin 1))).toInt = (n.val : Int) ∧ j = j' := by
  rw [Cert.ScatterForms.resultIdx?_eq_some_iff]
  constructor
  · intro h
    have h0 : (idx (ix2 e (0 : Fin 1))).toInt + ((0 : ℕ) : Int) = (n.val : Int) := by
      have := h 0
      rwa [rowScatter2_start0, rowScatter2_window0] at this
    have h1 : (0 : Int) + ((j.val : ℕ) : Int) = (j'.val : Int) := by
      have := h 1
      rwa [rowScatter2_start1, rowScatter2_window1] at this
    refine ⟨by simpa using h0, Fin.ext ?_⟩
    omega
  · rintro ⟨h0, rfl⟩ c
    match c with
    | ⟨0, _⟩ =>
      show (rowScatter2 N D E wf).start (ix2 e j) idx 0 + ((rowScatter2 N D E wf).window (ix2 e j) 0 : Int) = (n.val : Int)
      rw [rowScatter2_start0, rowScatter2_window0]
      simpa using h0
    | ⟨1, _⟩ =>
      show (rowScatter2 N D E wf).start (ix2 e j) idx 1 + ((rowScatter2 N D E wf).window (ix2 e j) 1 : Int) = (j.val : Int)
      rw [rowScatter2_start1, rowScatter2_window1]
      simp

end

/-- The scattered sum at entry (n, j): the operand entry plus, over the edges whose row index read signed is n, the
    update entry (e, j). -/
theorem hostScatterAdd_rows2_apply {N D E w : Nat}
    (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (u : (⟨2, ![E, D]⟩ : Shape).Idx → EReal)
    (n : Fin N) (j : Fin D) :
    Ideal.hostScatterAdd (rowScatter2 N D E wf) x idx u (ix2 n j)
      = x (ix2 n j) + ∑ e : Fin E, if (idx (ix2 e (0 : Fin 1))).toInt = (n.val : Int) then u (ix2 e j) else 0 := by
  unfold Ideal.hostScatterAdd
  congr 1
  rw [← Finset.sum_filter]
  refine Finset.sum_bij' (fun i _ => i 0) (fun e _ => ix2 e j) ?_ ?_ ?_ ?_ ?_
  · intro i hi
    obtain ⟨e, j1, rfl⟩ : ∃ e j1, i = ix2 e j1 := ⟨i 0, i 1, eq_ix2 i⟩
    exact Finset.mem_filter.mpr ⟨Finset.mem_univ _,
      ((rowScatter2_lands wf idx e j1 n j).mp (Finset.mem_filter.mp hi).2).1⟩
  · intro e he
    exact Finset.mem_filter.mpr ⟨Finset.mem_univ _,
      (rowScatter2_lands wf idx e j n j).mpr ⟨(Finset.mem_filter.mp he).2, rfl⟩⟩
  · intro i hi
    obtain ⟨e, j1, rfl⟩ : ∃ e j1, i = ix2 e j1 := ⟨i 0, i 1, eq_ix2 i⟩
    obtain ⟨_, rfl⟩ := (rowScatter2_lands wf idx e j1 n j).mp (Finset.mem_filter.mp hi).2
    rfl
  · intro e _
    rfl
  · intro i hi
    obtain ⟨e, j1, rfl⟩ : ∃ e j1, i = ix2 e j1 := ⟨i 0, i 1, eq_ix2 i⟩
    obtain ⟨_, rfl⟩ := (rowScatter2_lands wf idx e j1 n j).mp (Finset.mem_filter.mp hi).2
    rfl

end Cert.Rows2

end
-- ==== Proof.LibRows3.lean ====
/-
  Whole rows of a rank-3 array moved by an index column, read at an entry, and the host's accumulating scatter written
  as a sum over the edges.

  For an operand of shape [N, A, B], an index column [E, 1] and rows [E, A, B]:
  * jnp's x[idx] (a row gather) at entry (e, a, b) is the operand at row idx[e] — read signed and clamped into
    [0, N − 1] — and the same (a, b);
  * update entry (e, a, b) of the row scatter lands on operand entry (n, a', b') exactly when idx[e], read signed
    and not clamped, is n and (a, b) = (a', b');
  * hence the scattered sum at (n, a, b) is the operand entry plus the sum over the edges e with idx[e] = n of the
    update entry (e, a, b); the rank-1 form (operand [N], updates [E]) reads the same way.
  Nothing here mentions a program: the shapes are literal ranks with symbolic extents.
-/
import Idealize.ShloMosaic.PureOps.Ideal.Laws
import Idealize.ShloMosaic.Lib.ValueIdx
import proofs.«108161_j89232240542461_2_alg».proof.Proof.LibScatterForms

noncomputable section

namespace Cert.Rows3

open Idealize.ShloMosaic Idealize.ShloMosaic.ValueIdx

/-! ## Sums over a rank-1 index type -/

/-- The rank-1 index type is its one coordinate. -/
def idxEquiv1 {n : Nat} : (⟨1, ![n]⟩ : Shape).Idx ≃ Fin n where
  toFun j := j 0
  invFun e := ix1 e
  left_inv j := (eq_ix1 j).symm
  right_inv _ := rfl

theorem sum_idx1 {M : Type*} [AddCommMonoid M] {n : Nat} (f : (⟨1, ![n]⟩ : Shape).Idx → M) :
    ∑ j, f j = ∑ e : Fin n, f (ix1 e) :=
  Fintype.sum_equiv idxEquiv1 f (fun e => f (ix1 e)) fun j => congrArg f (eq_ix1 j)

/-! ## The row gather of a rank-3 operand -/

/-- The dimension numbers of x[idx] for x : [N, A, B] and idx : [E] given as a column [E, 1]: whole rows. -/
abbrev pickRows3 (N A B E : Nat)
    (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

/-- Entry (e, a, b) of the gather is the operand at row idx[e, 0] — read signed and clamped into [0, N − 1] — and the
    same trailing coordinates. -/
theorem gather_pickRows3_apply {α : Type} {N A B E w : Nat} (hN : 0 < N)
    (wf : GatherDims.WF ⟨3, ![N, A, B]⟩ ⟨2, ![E, 1]⟩ ⟨3, ![E, A, B]⟩ [1, 2] [0] [] [0] [] 1 ![1, A, B])
    (x : (⟨3, ![N, A, B]⟩ : Shape).Idx → α) (idx : IVec ⟨2, ![E, 1]⟩ w) (e : Fin E) (a : Fin A) (b : Fin B) :
    Host.gather (pickRows3 N A B E wf) x idx (ix3 e a b)
      = x (ix3 ⟨min (idx (ix2 e (0 : Fin 1))).toInt.toNat (N - 1), by omega⟩ a b) := by
  unfold Host.gather
  congr 1
  funext c
  refine Fin.ext ?_
  have hnb : ∀ c : Fin 3, (pickRows3 N A B E wf).batchCoord (ix3 e a b) c = 0 := fun c =>
    GatherDims.batchCoord_eq_zero _ _ _ List.not_mem_nil
  have hs : ∀ c : Fin 3, c ≠ 0 → (pickRows3 N A B E wf).start (ix3 e a b) idx c = 0 := by
    intro c hc
    unfold GatherDims.start
    rw [dif_neg (show ¬ c ∈ (pickRows3 N A B E wf).startIndexMap from fun h => hc (List.mem_singleton.mp h))]
  match c with
  | ⟨0, _⟩ =>
    show (pickRows3 N A B E wf).start (ix3 e a b) idx 0 + (pickRows3 N A B E wf).batchCoord (ix3 e a b) 0
      + (pickRows3 N A B E wf).offCoord (ix3 e a b) 0 = _
    rw [hnb, GatherDims.offCoord_eq_zero _ _ _ (fun h => ((GatherDims.mem_sKept _ _).mp h).1 (List.mem_singleton.mpr rfl))]
    simp only [Nat.add_zero]
    unfold GatherDims.start
    rw [dif_pos (show (0 : Fin 3) ∈ (pickRows3 N A B E wf).startIndexMap from List.mem_singleton.mpr rfl)]
    have hsi : (pickRows3 N A B E wf).siIdx (ix3 e a b) ⟨List.idxOf (0 : Fin 3) (pickRows3 N A B E wf).startIndexMap,
        List.idxOf_lt_length_iff.2 (List.mem_singleton.mpr rfl)⟩ = ix2 e (0 : Fin 1) := by
      funext q; refine Fin.ext ?_
      match q with
      | ⟨0, _⟩ => rfl
      | ⟨1, _⟩ => rfl
    rw [hsi]
    rfl
  | ⟨1, _⟩ =>
    show (pickRows3 N A B E wf).start (ix3 e a b) idx 1 + (pickRows3 N A B E wf).batchCoord (ix3 e a b) 1
      + (pickRows3 N A B E wf).offCoord (ix3 e a b) 1 = a.val
    rw [hs 1 (by decide), hnb]
    have hk : (1 : Fin 3) ∈ (pickRows3 N A B E wf).sKept :=
      (GatherDims.mem_sKept _ _).mpr
        ⟨fun h => absurd (congrArg Fin.val (List.mem_singleton.mp h)) Nat.one_ne_zero, List.not_mem_nil⟩
    unfold GatherDims.offCoord
    rw [dif_pos hk, Nat.zero_add]
    rfl
  | ⟨2, _⟩ =>
    show (pickRows3 N A B E wf).start (ix3 e a b) idx 2 + (pickRows3 N A B E wf).batchCoord (ix3 e a b) 2
      + (pickRows3 N A B E wf).offCoord (ix3 e a b) 2 = b.val
    rw [hs 2 (by decide), hnb]
    have hk : (2 : Fin 3) ∈ (pickRows3 N A B E wf).sKept :=
      (GatherDims.mem_sKept _ _).mpr
        ⟨fun h => absurd (congrArg Fin.val (List.mem_singleton.mp h)) (by decide : (2 : ℕ) ≠ 0), List.not_mem_nil⟩
    unfold GatherDims.offCoord
    rw [dif_pos hk, Nat.zero_add]
    rfl

/-! ## The row scatter of a rank-3 operand -/

/-- The dimension numbers of x.at[idx].add(u) for x : [N, A, B], idx : [E] as a column [E, 1] and u : [E, A, B]: update
    row e goes, whole, to operand row idx[e]. -/
abbrev rowScatter3 (N A B E : Nat)
    (wf : ScatterDims.WF ⟨3, ![N, A, B]⟩ ⟨2, ![E, 1]⟩ ⟨3, ![E, A, B]⟩ [1, 2] [0] [0] 1) :
    ScatterDims ⟨3, ![N, A, B]⟩ ⟨2, ![E, 1]⟩ ⟨3, ![E, A, B]⟩ where
  updateWindowDims := [1, 2]
  insertedWindowDims := [0]
  scatterDimsToOperandDims := [0]
  indexVectorDim := 1
  wf := wf

section
variable {N A B E w : Nat} (wf : ScatterDims.WF ⟨3, ![N, A, B]⟩ ⟨2, ![E, 1]⟩ ⟨3, ![E, A, B]⟩ [1, 2] [0] [0] 1)
  (idx : IVec ⟨2, ![E, 1]⟩ w) (e : Fin E) (a : Fin A) (b : Fin B)

theorem rowScatter3_start0 : (rowScatter3 N A B E wf).start (ix3 e a b) idx 0 = (idx (ix2 e (0 : Fin 1))).toInt := by
  unfold ScatterDims.start
  rw [dif_pos (show (0 : Fin 3) ∈ (rowScatter3 N A B E wf).scatterDimsToOperandDims from List.mem_singleton.mpr rfl)]
  have hsi : (rowScatter3 N A B E wf).siIdx (ix3 e a b) ⟨List.idxOf (0 : Fin 3) (rowScatter3 N A B E wf).scatterDimsToOperandDims,
      List.idxOf_lt_length_iff.2 (List.mem_singleton.mpr rfl)⟩ = ix2 e (0 : Fin 1) := by
    funext q; refine Fin.ext ?_
    match q with
    | ⟨0, _⟩ => rfl
    | ⟨1, _⟩ => rfl
  rw [hsi]

theorem rowScatter3_start_ne (c : Fin 3) (hc : c ≠ 0) : (rowScatter3 N A B E wf).start (ix3 e a b) idx c = 0 := by
  unfold ScatterDims.start
  rw [dif_neg (show ¬ c ∈ (rowScatter3 N A B E wf).scatterDimsToOperandDims from fun h => hc (List.mem_singleton.mp h))]

theorem rowScatter3_window0 : (rowScatter3 N A B E wf).window (ix3 e a b) 0 = 0 := by
  unfold ScatterDims.window
  rw [dif_neg (show ¬ (0 : Fin 3) ∈ (rowScatter3 N A B E wf).sKept from
    fun h => (of_decide_eq_true (List.mem_filter.mp h).2) (List.mem_singleton.mpr rfl))]

theorem rowScatter3_window1 : (rowScatter3 N A B E wf).window (ix3 e a b) 1 = a.val := by
  have hk : (1 : Fin 3) ∈ (rowScatter3 N A B E wf).sKept := by
    simp [ScatterDims.sKept, Shape.kept, List.mem_filter, List.mem_finRange]
  unfold ScatterDims.window
  rw [dif_pos hk]
  rfl

theorem rowScatter3_window2 : (rowScatter3 N A B E wf).window (ix3 e a b) 2 = b.val := by
  have hk : (2 : Fin 3) ∈ (rowScatter3 N A B E wf).sKept := by
    simp [ScatterDims.sKept, Shape.kept, List.mem_filter, List.mem_finRange]
  unfold ScatterDims.window
  rw [dif_pos hk]
  rfl

/-- Update entry (e, a, b) lands on operand entry (n, a', b') exactly when its row index, read signed, is n and the
    trailing coordinates agree. -/
theorem rowScatter3_lands (n : Fin N) (a' : Fin A) (b' : Fin B) :
    (rowScatter3 N A B E wf).resultIdx? (ix3 e a b) idx = some (ix3 n a' b')
      ↔ (idx (ix2 e (0 : Fin 1))).toInt = (n.val : Int) ∧ a = a' ∧ b = b' := by
  rw [Cert.ScatterForms.resultIdx?_eq_some_iff]
  constructor
  · intro h
    have h0 : (idx (ix2 e (0 : Fin 1))).toInt + ((0 : ℕ) : Int) = (n.val : Int) := by
      have := h 0
      rwa [rowScatter3_start0, rowScatter3_window0] at this
    have h1 : (0 : Int) + ((a.val : ℕ) : Int) = (a'.val : Int) := by
      have := h 1
      rwa [rowScatter3_start_ne wf idx e a b 1 (by decide), rowScatter3_window1] at this
    have h2 : (0 : Int) + ((b.val : ℕ) : Int) = (b'.val : Int) := by
      have := h 2
      rwa [rowScatter3_start_ne wf idx e a b 2 (by decide), rowScatter3_window2] at this
    refine ⟨by simpa using h0, Fin.ext ?_, Fin.ext ?_⟩
    · omega
    · omega
  · rintro ⟨h0, rfl, rfl⟩ c
    match c with
    | ⟨0, _⟩ =>
      show (rowScatter3 N A B E wf).start (ix3 e a b) idx 0 + ((rowScatter3 N A B E wf).window (ix3 e a b) 0 : Int) = (n.val : Int)
      rw [rowScatter3_start0, rowScatter3_window0]
      simpa using h0
    | ⟨1, _⟩ =>
      show (rowScatter3 N A B E wf).start (ix3 e a b) idx 1 + ((rowScatter3 N A B E wf).window (ix3 e a b) 1 : Int) = (a.val : Int)
      rw [rowScatter3_start_ne wf idx e a b 1 (by decide), rowScatter3_window1]
      simp
    | ⟨2, _⟩ =>
      show (rowScatter3 N A B E wf).start (ix3 e a b) idx 2 + ((rowScatter3 N A B E wf).window (ix3 e a b) 2 : Int) = (b.val : Int)
      rw [rowScatter3_start_ne wf idx e a b 2 (by decide), rowScatter3_window2]
      simp

end

/-- The scattered sum at entry (n, a, b): the operand entry plus, over the edges whose row index read signed is n, the
    update entry (e, a, b). -/
theorem hostScatterAdd_rows3_apply {N A B E w : Nat}
    (wf : ScatterDims.WF ⟨3, ![N, A, B]⟩ ⟨2, ![E, 1]⟩ ⟨3, ![E, A, B]⟩ [1, 2] [0] [0] 1)
    (x : (⟨3, ![N, A, B]⟩ : Shape).Idx → EReal) (idx : IVec ⟨2, ![E, 1]⟩ w) (u : (⟨3, ![E, A, B]⟩ : Shape).Idx → EReal)
    (n : Fin N) (a : Fin A) (b : Fin B) :
    Ideal.hostScatterAdd (rowScatter3 N A B E wf) x idx u (ix3 n a b)
      = x (ix3 n a b) + ∑ e : Fin E, if (idx (ix2 e (0 : Fin 1))).toInt = (n.val : Int) then u (ix3 e a b) else 0 := by
  unfold Ideal.hostScatterAdd
  congr 1
  rw [← Finset.sum_filter]
  refine Finset.sum_bij' (fun j _ => j 0) (fun e _ => ix3 e a b) ?_ ?_ ?_ ?_ ?_
  · intro j hj
    obtain ⟨e, a1, b1, rfl⟩ : ∃ e a1 b1, j = ix3 e a1 b1 := ⟨j 0, j 1, j 2, eq_ix3 j⟩
    exact Finset.mem_filter.mpr ⟨Finset.mem_univ _,
      ((rowScatter3_lands wf idx e a1 b1 n a b).mp (Finset.mem_filter.mp hj).2).1⟩
  · intro e he
    exact Finset.mem_filter.mpr ⟨Finset.mem_univ _,
      (rowScatter3_lands wf idx e a b n a b).mpr ⟨(Finset.mem_filter.mp he).2, rfl, rfl⟩⟩
  · intro j hj
    obtain ⟨e, a1, b1, rfl⟩ : ∃ e a1 b1, j = ix3 e a1 b1 := ⟨j 0, j 1, j 2, eq_ix3 j⟩
    obtain ⟨_, rfl, rfl⟩ := (rowScatter3_lands wf idx e a1 b1 n a b).mp (Finset.mem_filter.mp hj).2
    rfl
  · intro e _
    rfl
  · intro j hj
    obtain ⟨e, a1, b1, rfl⟩ : ∃ e a1 b1, j = ix3 e a1 b1 := ⟨j 0, j 1, j 2, eq_ix3 j⟩
    obtain ⟨_, rfl, rfl⟩ := (rowScatter3_lands wf idx e a1 b1 n a b).mp (Finset.mem_filter.mp hj).2
    rfl

/-- The rank-1 scattered sum at entry n: the operand entry plus, over the edges whose index read signed is n, the update. -/
theorem hostScatterAdd_vec_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (u : (⟨1, ![E]⟩ : Shape).Idx → EReal) (n : Fin N) :
    Ideal.hostScatterAdd (Cert.ScatterForms.vecScatter N E wf) x idx u (ix1 n)
      = x (ix1 n) + ∑ e : Fin E, if (idx (ix2 e (0 : Fin 1))).toInt = (n.val : Int) then u (ix1 e) else 0 := by
  unfold Ideal.hostScatterAdd
  congr 1
  rw [← Finset.sum_filter]
  refine Finset.sum_bij' (fun j _ => j 0) (fun e _ => ix1 e) ?_ ?_ ?_ ?_ ?_
  · intro j hj
    obtain ⟨e, rfl⟩ : ∃ e, j = ix1 e := ⟨j 0, eq_ix1 j⟩
    exact Finset.mem_filter.mpr ⟨Finset.mem_univ _,
      (Cert.ScatterForms.vecScatter_lands wf idx e n).mp (Finset.mem_filter.mp hj).2⟩
  · intro e he
    exact Finset.mem_filter.mpr ⟨Finset.mem_univ _,
      (Cert.ScatterForms.vecScatter_lands wf idx e n).mpr (Finset.mem_filter.mp he).2⟩
  · intro j _
    exact (eq_ix1 j).symm
  · intro e _
    rfl
  · intro j _
    obtain ⟨e, rfl⟩ : ∃ e, j = ix1 e := ⟨j 0, eq_ix1 j⟩
    rfl

end Cert.Rows3

end
-- ==== Proof.SpecGraph.lean ====
/-
  The result of two Chebyshev graph-convolution layers, stated index by index as one function of the argument arrays.

  Nodes are Fin 50000, edges Fin 800000. The edge array holds two rows of 32-bit words (row 0 the sources, row 1 the
  destinations); nothing bounds the words. A word is used in two ways: read signed and unclamped, to decide on which
  node a scattered update lands (a word outside [0, 50000) lands nowhere), and wrapped (a negative word gets 50000
  added) then clamped into [0, 49999], to fetch a row.

  With w e = 0 on an edge whose two words are equal and 1 otherwise, deg n the sum of w over the edges whose source
  word is n, and dinv n = rsqrt (max (deg n) tiny) where deg n > 0 and 0 elsewhere, one propagation of a feature
  array h is
      prop h n j = (0 + Σ_{e : destination word of e is n} ((((-1) · dinv (src e)) · w e) · dinv (dst e)) · h (src e) j) + 0 · h n j,
  the three Chebyshev terms are h, prop h and 2 · prop (prop h) − h, and a layer contracts each with its weight
  slice, adds the bias, normalises the row and takes the maximum with 0.
-/
import Idealize.ShloMosaic.PureOps.Ideal.Laws
import Idealize.ShloMosaic.Lib.ValueIdx

noncomputable section

namespace Cert.Spec

open Idealize.ShloMosaic Idealize.ShloMosaic.ValueIdx

/-! ## The float constants the algebra needs as numbers -/

theorem ofBits_one : Ideal.ofBits .f32 0x3F800000#32 = 1 := by
  simp [Ideal.ofBits, Ideal.ieee, -EReal.coe_mul]; norm_num

theorem ofBits_neg_one : Ideal.ofBits .f32 0xBF800000#32 = -1 := by
  simp [Ideal.ofBits, Ideal.ieee, -EReal.coe_mul]; norm_num

theorem ofBits_two : Ideal.ofBits .f32 0x40000000#32 = 2 := by
  simp [Ideal.ofBits, Ideal.ieee, -EReal.coe_mul]; norm_num; norm_cast

/-- A select on a decided condition is the conditional. -/
theorem select_ofBool {α : Type} (b : Bool) (x y : α) : Scalar.select (BitVec.ofBool b) x y = if b then x else y := by
  cases b <;> simp [Scalar.select]

/-! ## The edge words -/

/-- The edge words: row 0 the sources, row 1 the destinations. -/
abbrev Words : Type := IVec ⟨2, ![2, 800000]⟩ 32

/-- Word r of edge e read signed (and not clamped): the node a scattered update lands on, if any. -/
def σ (ei : Words) (r : Fin 2) (e : Fin 800000) : ℤ := (ei (ix2 r e)).toInt

/-- The two words of edge e are the same word. -/
def same (ei : Words) (e : Fin 800000) : Prop := ei (ix2 (0 : Fin 2) e) = ei (ix2 (1 : Fin 2) e)

instance (ei : Words) : DecidablePred (same ei) := fun e =>
  inferInstanceAs (Decidable (ei (ix2 (0 : Fin 2) e) = ei (ix2 (1 : Fin 2) e)))

/-- A negative word gets the node count added (the words wrap, as 32-bit integers). -/
def wrap (word : BitVec 32) : BitVec 32 :=
  Scalar.select (IntOp.cmpi .slt word 0#32) (IntOp.addi word 50000#32) word

/-- The row a word fetches: wrapped, read signed, clamped into [0, 49999]. -/
def grow (word : BitVec 32) : Fin 50000 := ⟨min (wrap word).toInt.toNat (50000 - 1), by omega⟩

/-- The row edge e fetches by its source word. -/
def gsrc (ei : Words) (e : Fin 800000) : Fin 50000 := grow (ei (ix2 (0 : Fin 2) e))

/-- The row edge e fetches by its destination word. -/
def gdst (ei : Words) (e : Fin 800000) : Fin 50000 := grow (ei (ix2 (1 : Fin 2) e))

/-- A word that reads signed as a node is not wrapped. -/
theorem wrap_of_toInt_eq (word : BitVec 32) (n : Fin 50000) (h : word.toInt = (n.val : ℤ)) : wrap word = word := by
  have h0 : word.slt 0#32 = false := by
    rw [BitVec.slt]
    simp
    omega
  show Scalar.select (BitVec.ofBool (word.slt 0#32)) _ _ = _
  rw [h0]
  rfl

/-- A word that reads signed as a node fetches that node's row. -/
theorem grow_of_toInt_eq (word : BitVec 32) (n : Fin 50000) (h : word.toInt = (n.val : ℤ)) : grow word = n := by
  refine Fin.ext ?_
  show min (wrap word).toInt.toNat (50000 - 1) = n.val
  rw [wrap_of_toInt_eq word n h, h]
  have := n.isLt
  omega

theorem gdst_of_σ_eq (ei : Words) (e : Fin 800000) (n : Fin 50000) (h : σ ei 1 e = (n.val : ℤ)) : gdst ei e = n :=
  grow_of_toInt_eq _ n h

theorem gsrc_of_σ_eq (ei : Words) (e : Fin 800000) (n : Fin 50000) (h : σ ei 0 e = (n.val : ℤ)) : gsrc ei e = n :=
  grow_of_toInt_eq _ n h

/-- On an edge whose two words are the same word, both readings agree. -/
theorem same_readings (ei : Words) (e : Fin 800000) (h : same ei e) : σ ei 0 e = σ ei 1 e ∧ gsrc ei e = gdst ei e := by
  unfold same at h
  exact ⟨by unfold σ; rw [h], by unfold gsrc gdst; rw [h]⟩

/-! ## Degrees and the normalisation -/

/-- The weight of edge e before normalisation: 0 when its two words are the same word, 1 otherwise. -/
def wE (ei : Words) (e : Fin 800000) : EReal := if same ei e then 0 else 1

/-- The degree of node n: the sum of the weights of the edges whose source word, read signed, is n. -/
def deg (ei : Words) (n : Fin 50000) : EReal :=
  0 + ∑ e : Fin 800000, if σ ei 0 e = (n.val : ℤ) then wE ei e else 0

/-- The inverse square root of the degree (floored at a tiny constant) where the degree is positive, 0 elsewhere. -/
def dinv (ei : Words) (n : Fin 50000) : EReal :=
  if 0 < deg ei n then Ideal.rsqrt (max (deg ei n) (Ideal.ofBits .f32 0x2B8CBCCC#32)) else 0

/-! ## One propagation -/

/-- One propagation over abstract readings of the edges: σd the node edge e lands on, gs and gd the rows it fetches by
    its source and destination, same the edges of weight 0. -/
def propG {N E D : ℕ} (σd : Fin E → ℤ) (gs gd : Fin E → Fin N) (same : Fin E → Prop) [DecidablePred same]
    (dinv : Fin N → EReal) (h : Fin N → Fin D → EReal) (n : Fin N) (j : Fin D) : EReal :=
  (0 + ∑ e : Fin E, if σd e = (n.val : ℤ)
      then ((((-1 : EReal) * dinv (gs e)) * (if same e then (0 : EReal) else 1)) * dinv (gd e)) * h (gs e) j else 0)
    + 0 * h n j

/-- One propagation of the feature array h along the edge words ei. -/
def propS {D : ℕ} (ei : Words) (h : Fin 50000 → Fin D → EReal) (n : Fin 50000) (j : Fin D) : EReal :=
  propG (σ ei 1) (gsrc ei) (gdst ei) (same ei) (dinv ei) h n j

/-- The normalised weight of edge e. -/
def wn (ei : Words) (e : Fin 800000) : EReal :=
  (((-1 : EReal) * dinv ei (gsrc ei e)) * wE ei e) * dinv ei (gdst ei e)

theorem propS_eq {D : ℕ} (ei : Words) (h : Fin 50000 → Fin D → EReal) (n : Fin 50000) (j : Fin D) :
    propS ei h n j
      = (0 + ∑ e : Fin 800000, if σ ei 1 e = (n.val : ℤ) then wn ei e * h (gsrc ei e) j else 0) + 0 * h n j := rfl

/-- The second Chebyshev term. -/
def tx1 {D : ℕ} (ei : Words) (h : Fin 50000 → Fin D → EReal) : Fin 50000 → Fin D → EReal := propS ei h

/-- The third Chebyshev term: 2 · prop (prop h) − h. -/
def tx2 {D : ℕ} (ei : Words) (h : Fin 50000 → Fin D → EReal) (n : Fin 50000) (j : Fin D) : EReal :=
  (2 : EReal) * propS ei (propS ei h) n j - h n j

/-! ## A layer before its normalisation -/

/-- The three Chebyshev terms contracted with the three slices of the weight, plus the bias. -/
def acc {d d' : ℕ} (ei : Words) (h : Fin 50000 → Fin d → EReal) (W : (⟨3, ![3, d, d']⟩ : Shape).Idx → EReal)
    (b : (⟨1, ![d']⟩ : Shape).Idx → EReal) (n : Fin 50000) (j : Fin d') : EReal :=
  ((∑ k : Fin d, h n k * W (ix3 (0 : Fin 3) k j) + ∑ k : Fin d, tx1 ei h n k * W (ix3 (1 : Fin 3) k j))
      + ∑ k : Fin d, tx2 ei h n k * W (ix3 (2 : Fin 3) k j)) + b (ix1 j)

end Cert.Spec

end
-- ==== Proof.KHostRead1.lean ====
/-
  The host side of the kernel's program read at an edge or at a node, in the specification's readings of the edge
  words: the source and destination words, the self-loop indicator and its complement, the degree, its inverse square
  root, the self-loop count, and the two index columns the propagation reads.
-/
import proofs.«108161_j89232240542461_2_alg».proof.Proof.KHostDefs
import proofs.«108161_j89232240542461_2_alg».proof.Proof.LibRows2
import proofs.«108161_j89232240542461_2_alg».proof.Proof.LibRows3
import proofs.«108161_j89232240542461_2_alg».proof.Proof.SpecGraph
import Idealize.ShloMosaic.Lib.Pipeline.Value

noncomputable section

namespace Cert.KernelIdeal.Hand

open Idealize.ShloMosaic Idealize.ShloMosaic.ValueIdx Idealize.ShloMosaic.TcCoe
open Cert.KernelIdeal Cert.KernelIdeal.Gen

/-! ## Layouts read at an index -/

/-- A scalar spread over any shape is read at its one entry. -/
theorem bcast0_apply {α : Type} {t : Shape} (h : S_.BroadcastsInDim t (![] : Fin 0 → Fin t.rank)) (y : S_.Idx → α) (i : t.Idx) :
    broadcastInDim t ![] h y i = y (fun a => a.elim0) :=
  broadcastInDim_apply _ h y i (fun a => a.elim0) (fun a => a.elim0)

/-- A word list as an index column, read at (e, 0). -/
theorem kCol_at (v : IVec S800000 32) (e : Fin 800000) : kCol v (ix2 e (0 : Fin 1)) = v (ix1 e) := by
  unfold kCol
  exact broadcastInDim_apply _ bcast_S800000_S800000x1_0 v (ix2 e (0 : Fin 1)) (ix1 e) (fun a => match a with
    | ⟨0, _⟩ => by show e.val = if (800000 : Nat) = 1 then 0 else e.val; rw [if_neg (by decide)])

/-! ## The printed scatter-add of a vector, read at a node -/

theorem kscatter1 (x : (⟨1, ![50000]⟩ : Shape).Idx → EReal) (idx : IVec ⟨2, ![800000, 1]⟩ 32)
    (u : (⟨1, ![800000]⟩ : Shape).Idx → EReal) (n : Fin 50000) :
    Host.scatterAdd (F := Ideal) (φ := .f32) scatter_S50000_S800000x1_S800000_n_0_0_1 x idx u (ix1 n)
      = x (ix1 n) + ∑ e : Fin 800000, if (idx (ix2 e (0 : Fin 1))).toInt = (n.val : Int) then u (ix1 e) else 0 :=
  Cert.Rows3.hostScatterAdd_vec_apply Facts₀.scatter_S50000_S800000x1_S800000_n_0_0_1_wf x idx u n

/-! ## The words -/

theorem kSrc_at (ei : IVec S2x800000 32) (e : Fin 800000) : kSrc ei (ix1 e) = ei (ix2 (0 : Fin 2) e) := by
  unfold kSrc
  refine (shapeCast_apply _ shapeCasts_S1x800000_S800000 (ix1 e) (ix2 (0 : Fin 1) e) ?_).trans ?_
  · rewrite [Shape.rowMajor_val_two, Shape.rowMajor_val_one]
    show 0 * 800000 + e.val = e.val
    omega
  · exact extractStridedSlice_apply ![0, 0] ei slices_S2x800000_S1x800000_0_0 (ix2 (0 : Fin 1) e) (ix2 (0 : Fin 2) e)
      (fun a => match a with
        | ⟨0, _⟩ => by show 0 = 0 + 0; rfl
        | ⟨1, _⟩ => by show e.val = 0 + e.val; omega)

theorem kDst_at (ei : IVec S2x800000 32) (e : Fin 800000) : kDst ei (ix1 e) = ei (ix2 (1 : Fin 2) e) := by
  unfold kDst
  refine (shapeCast_apply _ shapeCasts_S1x800000_S800000 (ix1 e) (ix2 (0 : Fin 1) e) ?_).trans ?_
  · rewrite [Shape.rowMajor_val_two, Shape.rowMajor_val_one]
    show 0 * 800000 + e.val = e.val
    omega
  · exact extractStridedSlice_apply ![1, 0] ei slices_S2x800000_S1x800000_1_0 (ix2 (0 : Fin 1) e) (ix2 (1 : Fin 2) e)
      (fun a => match a with
        | ⟨0, _⟩ => by show 1 = 1 + 0; rfl
        | ⟨1, _⟩ => by show e.val = 0 + e.val; omega)

/-- The wrapped source words as an index column, read at (e, 0). -/
theorem kWrapCol_at (ei : IVec S2x800000 32) (e : Fin 800000) :
    kCol (kWrap ei) (ix2 e (0 : Fin 1)) = Spec.wrap (ei (ix2 (0 : Fin 2) e)) := by
  rw [kCol_at]
  show Scalar.select (IntOp.cmpi .slt (kSrc ei (ix1 e)) (broadcastInDim S800000 ![] bcast_S_S800000 (constantI S_ 32 0#32) (ix1 e)))
      (IntOp.addi (kSrc ei (ix1 e)) (broadcastInDim S800000 ![] bcast_S_S800000 (constantI S_ 32 50000#32) (ix1 e)))
      (kSrc ei (ix1 e)) = _
  rw [bcast0_apply, bcast0_apply, kSrc_at]
  rfl

/-- The destination words as an index column, read at (e, 0). -/
theorem kDstCol_at (ei : IVec S2x800000 32) (e : Fin 800000) :
    kCol (kDst ei) (ix2 e (0 : Fin 1)) = ei (ix2 (1 : Fin 2) e) := by
  rw [kCol_at, kDst_at]

/-! ## The self-loop indicator, the degree, its inverse square root, the self-loop count -/

theorem kSelf_at (ei : IVec S2x800000 32) (e : Fin 800000) :
    kSelf (F := Ideal) ei (ix1 e) = if Spec.same ei e then 1 else 0 := by
  show (((BitVec.ofBool (kSrc ei (ix1 e) == kDst ei (ix1 e))).toNat : ℝ) : EReal) = _
  rw [kSrc_at, kDst_at]
  unfold Spec.same
  by_cases h : ei (ix2 (0 : Fin 2) e) = ei (ix2 (1 : Fin 2) e)
  · simp [h]
  · simp [h]

theorem kNonself_at (ei : IVec S2x800000 32) (e : Fin 800000) :
    kNonself (F := Ideal) ei (ix1 e) = Spec.wE ei e := by
  show broadcastInDim S800000 ![] bcast_S_S800000 (constant (F := Ideal) S_ .f32 0x3F800000#32) (ix1 e) - kSelf (F := Ideal) ei (ix1 e) = _
  rw [bcast0_apply, constant_apply, Spec.ofBits_one, kSelf_at]
  unfold Spec.wE
  split
  · show ((1 : ℝ) : EReal) - ((1 : ℝ) : EReal) = 0
    rw [← EReal.coe_sub]
    simp
  · simp

theorem kDeg_at (ei : IVec S2x800000 32) (n : Fin 50000) : kDeg (F := Ideal) ei (ix1 n) = Spec.deg ei n := by
  unfold kDeg
  rw [kscatter1, bcast0_apply, constant_apply, Ideal.ofBits_zero_f32]
  unfold Spec.deg
  refine congrArg (0 + ·) (Finset.sum_congr rfl fun e _ => ?_)
  rw [kCol_at, kSrc_at, kNonself_at]
  rfl

theorem kCnt_at (ei : IVec S2x800000 32) (n : Fin 50000) :
    kCnt (F := Ideal) ei (ix1 n)
      = 0 + ∑ e : Fin 800000, if Spec.σ ei 0 e = (n.val : ℤ) then (if Spec.same ei e then (1 : EReal) else 0) else 0 := by
  unfold kCnt
  rw [kscatter1, bcast0_apply, constant_apply, Ideal.ofBits_zero_f32]
  refine congrArg (0 + ·) (Finset.sum_congr rfl fun e _ => ?_)
  rw [kCol_at, kSrc_at, kSelf_at]
  rfl

/-- A select on "greater than" is the conditional on the order. -/
theorem select_ogt {α : Type} (a b : EReal) (x y : α) :
    Scalar.select (Ideal.cmp .ogt a b) x y = if b < a then x else y := by
  unfold Ideal.cmp
  simp only [Spec.select_ofBool, decide_eq_true_eq]

/-- The host's inverse square root of a vector, read at an entry. -/
theorem hrsqrt_apply {s : Shape} (v : FVec Ideal s .f32) (i : s.Idx) : Host.rsqrt v i = Ideal.rsqrt (v i) := rfl

theorem kDinv_at (ei : IVec S2x800000 32) (n : Fin 50000) : kDinv (F := Ideal) ei (ix1 n) = Spec.dinv ei n := by
  unfold kDinv
  rw [select_apply, cmpf_apply, hrsqrt_apply, maximumf_apply, kDeg_at]
  simp only [id_eq]
  rw [bcast0_apply, bcast0_apply, constant_apply, constant_apply, Ideal.ofBits_zero_f32, Ideal.cmpf_def, select_ogt]
  rfl

end Cert.KernelIdeal.Hand

end
-- ==== Proof.SpecReal.lean ====
/-
  The degrees and their inverse square roots are real numbers: a degree is a finite sum of zeros and ones, and the
  inverse square root of a positive real floored from below is a real whatever the floor is.
-/
import proofs.«108161_j89232240542461_2_alg».proof.Proof.SpecGraph

noncomputable section

namespace Cert.Spec

open Idealize.ShloMosaic Idealize.ShloMosaic.ValueIdx

/-- A finite sum of nonnegative reals is a nonnegative real. -/
theorem sum_nonneg_real {ι : Type*} (s : Finset ι) (f : ι → EReal)
    (hf : ∀ i ∈ s, ∃ r : ℝ, 0 ≤ r ∧ f i = (r : EReal)) : ∃ r : ℝ, 0 ≤ r ∧ ∑ i ∈ s, f i = (r : EReal) := by
  classical
  induction s using Finset.induction_on with
  | empty => exact ⟨0, le_refl 0, by simp⟩
  | insert a s ha ih =>
    obtain ⟨r1, h1, e1⟩ := hf a (Finset.mem_insert_self a s)
    obtain ⟨r2, h2, e2⟩ := ih (fun i hi => hf i (Finset.mem_insert_of_mem hi))
    refine ⟨r1 + r2, add_nonneg h1 h2, ?_⟩
    rw [Finset.sum_insert ha, e1, e2, EReal.coe_add]

/-- The weight of an edge is 0 or 1. -/
theorem wE_real (ei : Words) (e : Fin 800000) : ∃ r : ℝ, 0 ≤ r ∧ wE ei e = (r : EReal) := by
  unfold wE
  split
  · exact ⟨0, le_refl 0, by simp⟩
  · exact ⟨1, zero_le_one, by simp⟩

/-- A degree is a nonnegative real. -/
theorem deg_real (ei : Words) (n : Fin 50000) : ∃ r : ℝ, 0 ≤ r ∧ deg ei n = (r : EReal) := by
  unfold deg
  obtain ⟨r, hr, e⟩ := sum_nonneg_real Finset.univ
    (fun e : Fin 800000 => if σ ei 0 e = (n.val : ℤ) then wE ei e else 0) (fun e _ => by
      show ∃ r : ℝ, 0 ≤ r ∧ (if σ ei 0 e = (n.val : ℤ) then wE ei e else 0) = (r : EReal)
      split
      · exact wE_real ei e
      · exact ⟨0, le_refl 0, by simp⟩)
  exact ⟨r, hr, by rw [e, zero_add]⟩

/-- The inverse square root of a positive real floored from below by any extended real is a real. -/
theorem rsqrt_max_real (r : ℝ) (hr : 0 < r) (c : EReal) : ∃ q : ℝ, Ideal.rsqrt (max (r : EReal) c) = (q : EReal) := by
  induction c using EReal.rec with
  | bot =>
    rw [max_bot_right, Ideal.rsqrt_coe, if_neg (not_lt.mpr hr.le), if_neg hr.ne']
    exact ⟨_, rfl⟩
  | top =>
    rw [max_top_right, Ideal.rsqrt_top]
    exact ⟨0, by simp⟩
  | coe c =>
    have hm : 0 < max r c := lt_max_of_lt_left hr
    rw [show max (r : EReal) (c : EReal) = ((max r c : ℝ) : EReal) from (EReal.coe_strictMono.monotone.map_max).symm,
      Ideal.rsqrt_coe, if_neg (not_lt.mpr hm.le), if_neg hm.ne']
    exact ⟨_, rfl⟩

/-- The inverse square root of a degree is a real. -/
theorem dinv_real (ei : Words) (n : Fin 50000) : ∃ q : ℝ, dinv ei n = (q : EReal) := by
  unfold dinv
  obtain ⟨r, hr, e⟩ := deg_real ei n
  split
  · rename_i hpos
    rw [e] at hpos ⊢
    exact rsqrt_max_real r (by exact_mod_cast hpos) _
  · exact ⟨0, by simp⟩

end Cert.Spec

end
-- ==== Proof.LibChebAlgebra.lean ====
/-
  One propagation step of the normalised graph Laplacian, computed in two ways, over the extended reals.

  A graph has N nodes and E edges. Edge e carries a source word and a destination word, read as
  integers σs e and σd e, and the row numbers gs e, gd e of the rows that are fetched for it. With the
  inverse square-root degrees dinv and the node features h, both real-valued, one side gathers
  dinv (gs e) · h (gs e) along every edge that lands on node n, subtracts (number of self-loops at n)
  · dinv n · h n, and multiplies the difference by -dinv n; the other side sums, over the edges that
  land on n, the products (-dinv (gs e)) · [e is no self-loop] · dinv (gd e) · h (gs e). A self-loop at n
  contributes exactly dinv n · h n to the gathered sum, and the self-loops at n are exactly the edges the
  count counts, so the difference is the sum over the edges that are no self-loops; distributing the
  factor -dinv n over that sum gives the other side. Distributing a factor over a sum is valid on the
  extended reals only when the entries are real numbers, so every statement here carries that
  hypothesis, and the file also collects the closure rules "a real combination of reals is real" that
  discharge it: sums, products, differences, maxima, quotients by a non-zero real, inverse square roots
  of positive reals, the inverse square-root degree, and a layer-normalised row. Last, a sum over 3·d
  indices splits into three sums over d indices (a contraction against three stacked blocks).
-/
import Mathlib.Data.EReal.Operations
import Mathlib.Algebra.BigOperators.Intervals
import Mathlib.Algebra.BigOperators.Fin
import Mathlib.Tactic.Ring
import Idealize.ShloMosaic.PureOps.Ideal

namespace Cert.Lib.Cheb

open Finset
open Idealize.ShloMosaic

/-- An extended real is REAL when it is the image of a real number. -/
def IsReal (x : EReal) : Prop := ∃ r : ℝ, x = (r : EReal)

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [sum_insert ha, sum_insert ha, EReal.coe_add, ih]

/-- The image of a real chosen by a condition is the image chosen by the same condition. -/
theorem coe_ite (p : Prop) [Decidable p] (a b : ℝ) :
    ((if p then a else b : ℝ) : EReal) = if p then (a : EReal) else (b : EReal) := by
  split <;> rfl

/-- The two forms of the propagation step agree over the reals: termwise, a self-loop landing on n
    cancels against its share of the count, and every other edge landing on n contributes
    -dinv n · dinv (gs e) · h (gs e). -/
theorem prop_eq_real {N E D : ℕ} (σs σd : Fin E → ℤ) (gs gd : Fin E → Fin N) (same : Fin E → Prop)
    [DecidablePred same]
    (hsame : ∀ e, same e → σs e = σd e ∧ gs e = gd e)
    (hd : ∀ e (n : Fin N), σd e = (n.val : ℤ) → gd e = n)
    (d : Fin N → ℝ) (H : Fin N → Fin D → ℝ) (n : Fin N) (j : Fin D) :
    ((-1 : ℝ) * d n) * ((0 + ∑ e : Fin E, if σd e = (n.val : ℤ) then d (gs e) * H (gs e) j else 0)
        - (0 + ∑ e : Fin E, if σs e = (n.val : ℤ) then (if same e then (1 : ℝ) else 0) else 0)
          * (d n * H n j))
      = (0 + ∑ e : Fin E, if σd e = (n.val : ℤ) then
            ((((-1 : ℝ) * d (gs e)) * (if same e then (0 : ℝ) else 1)) * d (gd e)) * H (gs e) j else 0)
        + 0 * H n j := by
  rw [zero_add, zero_add, zero_add, zero_mul, add_zero, Finset.sum_mul, ← Finset.sum_sub_distrib,
    Finset.mul_sum]
  refine Finset.sum_congr rfl fun e _ => ?_
  by_cases h2 : same e
  · obtain ⟨hσ, hg⟩ := hsame e h2
    by_cases h1 : σd e = (n.val : ℤ)
    · have hgd : gd e = n := hd e n h1
      have hgs : gs e = n := hg.trans hgd
      rw [hσ, if_pos h1, if_pos h1, if_pos h2, if_pos h1, if_pos h2, hgs]
      ring
    · rw [hσ, if_neg h1, if_neg h1, if_neg h1]
      ring
  · by_cases h1 : σd e = (n.val : ℤ)
    · have hgd : gd e = n := hd e n h1
      rw [if_pos h1, if_neg h2, if_pos h1, if_neg h2, hgd, ite_self]
      ring
    · rw [if_neg h1, if_neg h2, if_neg h1, ite_self]
      ring

/-- The kernel-side form of the propagation step is the image of the same expression over the reals. -/
theorem lhs_coe {N E D : ℕ} (σs σd : Fin E → ℤ) (gs : Fin E → Fin N) (same : Fin E → Prop)
    [DecidablePred same] (d : Fin N → ℝ) (H : Fin N → Fin D → ℝ) (n : Fin N) (j : Fin D) :
    ((-1 : EReal) * (d n : EReal)) * ((0 + ∑ e : Fin E, if σd e = (n.val : ℤ) then
            (d (gs e) : EReal) * (H (gs e) j : EReal) else 0)
        - (0 + ∑ e : Fin E, if σs e = (n.val : ℤ) then (if same e then (1 : EReal) else 0) else 0)
          * ((d n : EReal) * (H n j : EReal)))
      = ((((-1 : ℝ) * d n) * ((0 + ∑ e : Fin E, if σd e = (n.val : ℤ) then d (gs e) * H (gs e) j else 0)
        - (0 + ∑ e : Fin E, if σs e = (n.val : ℤ) then (if same e then (1 : ℝ) else 0) else 0)
          * (d n * H n j)) : ℝ) : EReal) := by
  simp only [coe_sum, coe_ite, EReal.coe_add, EReal.coe_sub, EReal.coe_mul, EReal.coe_neg,
    EReal.coe_zero, EReal.coe_one]

/-- The reference-side form of the propagation step is the image of the same expression over the reals. -/
theorem rhs_coe {N E D : ℕ} (σd : Fin E → ℤ) (gs gd : Fin E → Fin N) (same : Fin E → Prop)
    [DecidablePred same] (d : Fin N → ℝ) (H : Fin N → Fin D → ℝ) (n : Fin N) (j : Fin D) :
    (0 + ∑ e : Fin E, if σd e = (n.val : ℤ) then
          ((((-1 : EReal) * (d (gs e) : EReal)) * (if same e then (0 : EReal) else 1)) * (d (gd e) : EReal))
            * (H (gs e) j : EReal) else 0)
        + 0 * (H n j : EReal)
      = (((0 + ∑ e : Fin E, if σd e = (n.val : ℤ) then
            ((((-1 : ℝ) * d (gs e)) * (if same e then (0 : ℝ) else 1)) * d (gd e)) * H (gs e) j else 0)
        + 0 * H n j : ℝ) : EReal) := by
  simp only [coe_sum, coe_ite, EReal.coe_add, EReal.coe_mul, EReal.coe_neg, EReal.coe_zero,
    EReal.coe_one]

/-- C1. One propagation step of the normalised Laplacian: the gathered sum minus the self-loop count
    times the node's own term, scaled by -dinv n, equals the sum over the edges landing on n of
    (-dinv (gs e)) · [no self-loop] · dinv (gd e) · h (gs e). The entries are real, so both sides are
    images of real expressions, which agree termwise. -/
theorem prop_eq {N E D : ℕ} (σs σd : Fin E → ℤ) (gs gd : Fin E → Fin N) (same : Fin E → Prop)
    [DecidablePred same]
    (hsame : ∀ e, same e → σs e = σd e ∧ gs e = gd e)
    (hd : ∀ e (n : Fin N), σd e = (n.val : ℤ) → gd e = n)
    (dinv : Fin N → EReal) (hdinv : ∀ n, IsReal (dinv n))
    (h : Fin N → Fin D → EReal) (hh : ∀ n j, IsReal (h n j)) (n : Fin N) (j : Fin D) :
    ((-1 : EReal) * dinv n) * ((0 + ∑ e : Fin E, if σd e = (n.val : ℤ) then dinv (gs e) * h (gs e) j else 0)
        - (0 + ∑ e : Fin E, if σs e = (n.val : ℤ) then (if same e then (1 : EReal) else 0) else 0)
          * (dinv n * h n j))
      = (0 + ∑ e : Fin E, if σd e = (n.val : ℤ) then
            ((((-1 : EReal) * dinv (gs e)) * (if same e then (0 : EReal) else 1)) * dinv (gd e))
              * h (gs e) j else 0)
        + 0 * h n j := by
  choose d hd' using hdinv
  choose H hH using hh
  obtain rfl : dinv = fun n => (d n : EReal) := funext hd'
  obtain rfl : h = fun n j => (H n j : EReal) := funext fun n => funext fun j => hH n j
  show ((-1 : EReal) * (d n : EReal)) * ((0 + ∑ e : Fin E, if σd e = (n.val : ℤ) then
            (d (gs e) : EReal) * (H (gs e) j : EReal) else 0)
        - (0 + ∑ e : Fin E, if σs e = (n.val : ℤ) then (if same e then (1 : EReal) else 0) else 0)
          * ((d n : EReal) * (H n j : EReal)))
      = (0 + ∑ e : Fin E, if σd e = (n.val : ℤ) then
          ((((-1 : EReal) * (d (gs e) : EReal)) * (if same e then (0 : EReal) else 1)) * (d (gd e) : EReal))
            * (H (gs e) j : EReal) else 0)
        + 0 * (H n j : EReal)
  rw [lhs_coe, rhs_coe, prop_eq_real σs σd gs gd same hsame hd d H n j]

/-- C1'. The kernel-side form of the propagation step is real when its entries are. -/
theorem prop_real {N E D : ℕ} (σs σd : Fin E → ℤ) (gs : Fin E → Fin N) (same : Fin E → Prop)
    [DecidablePred same]
    (dinv : Fin N → EReal) (hdinv : ∀ n, IsReal (dinv n))
    (h : Fin N → Fin D → EReal) (hh : ∀ n j, IsReal (h n j)) (n : Fin N) (j : Fin D) :
    IsReal (((-1 : EReal) * dinv n) * ((0 + ∑ e : Fin E, if σd e = (n.val : ℤ) then dinv (gs e) * h (gs e) j else 0)
        - (0 + ∑ e : Fin E, if σs e = (n.val : ℤ) then (if same e then (1 : EReal) else 0) else 0)
          * (dinv n * h n j))) := by
  choose d hd' using hdinv
  choose H hH using hh
  obtain rfl : dinv = fun n => (d n : EReal) := funext hd'
  obtain rfl : h = fun n j => (H n j : EReal) := funext fun n => funext fun j => hH n j
  exact ⟨_, lhs_coe σs σd gs same d H n j⟩

end Cert.Lib.Cheb
-- ==== Proof.LibChebReal.lean ====
/-
  Which extended reals stay real, and how a stacked contraction splits.

  The extended reals are the reals with two infinities added; a value is REAL when it is the image of a
  real number. Sums, differences, products, negations, maxima and conditional choices of reals are
  real, and so is a finite sum of reals. A quotient by a non-zero real is the product with its
  reciprocal, hence real; the inverse square root of a positive real r is 1/√r, hence real. From these:
  the inverse square-root degree "rsqrt (max deg c) when deg > 0, else 0" is real for a real degree and
  a positive real floor c; the mean of a real row over a non-zero real count is real; its variance over
  a positive count is real and non-negative (a sum of squares of reals times a positive reciprocal), so
  adding a positive ε gives a positive real, whose inverse square root is real; therefore every entry
  of the layer-normalised, scaled, shifted and rectified row is real. Last, a sum over the first 3·d
  naturals is the sum of three sums over d naturals (the contraction of a row against three blocks
  stacked on top of each other), also in the form indexed by Fin.
-/
import Mathlib.Data.EReal.Operations
import Mathlib.Algebra.BigOperators.Intervals
import Mathlib.Algebra.BigOperators.Fin
import Mathlib.Algebra.Order.BigOperators.Group.Finset
import Mathlib.Tactic.Ring
import Idealize.ShloMosaic.PureOps.Ideal
import proofs.«108161_j89232240542461_2_alg».proof.Proof.LibChebAlgebra

namespace Cert.Lib.Cheb

open Finset
open Idealize.ShloMosaic

/-! ## C2: closure of the reals under the operations -/

/-- The image of a real number is real. -/
protected theorem IsReal.coe (r : ℝ) : IsReal (r : EReal) := ⟨r, rfl⟩

/-- Zero is real. -/
protected theorem IsReal.zero : IsReal (0 : EReal) := ⟨0, EReal.coe_zero.symm⟩

/-- One is real. -/
protected theorem IsReal.one : IsReal (1 : EReal) := ⟨1, EReal.coe_one.symm⟩

/-- A sum of two reals is real. -/
protected theorem IsReal.add {x y : EReal} (hx : IsReal x) (hy : IsReal y) : IsReal (x + y) := by
  obtain ⟨r, rfl⟩ := hx; obtain ⟨q, rfl⟩ := hy; exact ⟨r + q, (EReal.coe_add r q).symm⟩

/-- A difference of two reals is real. -/
protected theorem IsReal.sub {x y : EReal} (hx : IsReal x) (hy : IsReal y) : IsReal (x - y) := by
  obtain ⟨r, rfl⟩ := hx; obtain ⟨q, rfl⟩ := hy; exact ⟨r - q, (EReal.coe_sub r q).symm⟩

/-- A product of two reals is real. -/
protected theorem IsReal.mul {x y : EReal} (hx : IsReal x) (hy : IsReal y) : IsReal (x * y) := by
  obtain ⟨r, rfl⟩ := hx; obtain ⟨q, rfl⟩ := hy; exact ⟨r * q, (EReal.coe_mul r q).symm⟩

/-- The negative of a real is real. -/
protected theorem IsReal.neg {x : EReal} (hx : IsReal x) : IsReal (-x) := by
  obtain ⟨r, rfl⟩ := hx; exact ⟨-r, (EReal.coe_neg r).symm⟩

/-- The larger of two reals is real. -/
protected theorem IsReal.max {x y : EReal} (hx : IsReal x) (hy : IsReal y) : IsReal (max x y) := by
  obtain ⟨r, rfl⟩ := hx; obtain ⟨q, rfl⟩ := hy
  exact ⟨max r q, (EReal.coe_strictMono.monotone.map_max).symm⟩

/-- A choice between two reals is real. -/
protected theorem IsReal.ite {p : Prop} [Decidable p] {x y : EReal} (hx : IsReal x) (hy : IsReal y) :
    IsReal (if p then x else y) := by
  split
  · exact hx
  · exact hy

/-- A finite sum of reals is real. -/
protected theorem IsReal.sum {ι : Type*} (s : Finset ι) (f : ι → EReal) (hf : ∀ i ∈ s, IsReal (f i)) :
    IsReal (∑ i ∈ s, f i) := by
  classical
  induction s using Finset.induction_on with
  | empty => exact ⟨0, by rw [Finset.sum_empty, EReal.coe_zero]⟩
  | insert a s ha ih =>
    rw [Finset.sum_insert ha]
    exact (hf a (Finset.mem_insert_self a s)).add (ih fun i hi => hf i (Finset.mem_insert_of_mem hi))

/-- A sum of reals over a whole finite index type is real. -/
protected theorem IsReal.sum_univ {ι : Type*} [Fintype ι] (f : ι → EReal) (hf : ∀ i, IsReal (f i)) :
    IsReal (∑ i, f i) :=
  IsReal.sum _ _ fun i _ => hf i

/-- Zero plus a sum of reals over a whole finite index type is real. -/
protected theorem IsReal.zero_add_sum {ι : Type*} [Fintype ι] (f : ι → EReal) (hf : ∀ i, IsReal (f i)) :
    IsReal (0 + ∑ i, f i) :=
  IsReal.zero.add (IsReal.sum_univ f hf)

/-- Zero plus the sum of the selected entries (the others replaced by zero) is real when the selected
    entries are. -/
protected theorem IsReal.zero_add_sum_ite {ι : Type*} [Fintype ι] (p : ι → Prop) [DecidablePred p]
    (f : ι → EReal) (hf : ∀ i, p i → IsReal (f i)) :
    IsReal (0 + ∑ i, if p i then f i else 0) :=
  IsReal.zero.add (IsReal.sum_univ _ fun i => by
    by_cases hp : p i
    · rw [if_pos hp]; exact hf i hp
    · rw [if_neg hp]; exact IsReal.zero)

/-- The quotient of a real by a non-zero real is real: it is the product with the reciprocal. -/
protected theorem IsReal.div {x y : EReal} (hx : IsReal x) (hy : IsReal y) (hy0 : y ≠ 0) :
    IsReal (Ideal.div x y) := by
  obtain ⟨r, rfl⟩ := hx; obtain ⟨q, rfl⟩ := hy
  have hq : q ≠ 0 := fun h => hy0 (by rw [h, EReal.coe_zero])
  exact ⟨r * (1 / q), by rw [Ideal.div_coe hq, EReal.coe_mul]⟩

/-- The inverse square root of a positive real r is the real 1/√r. -/
protected theorem IsReal.rsqrt {x : EReal} (hx : IsReal x) (hpos : 0 < x) : IsReal (Ideal.rsqrt x) := by
  obtain ⟨r, rfl⟩ := hx
  have hr : 0 < r := EReal.coe_pos.mp hpos
  exact ⟨(Real.sqrt r)⁻¹, by rw [Ideal.rsqrt_coe, if_neg (not_lt.mpr hr.le), if_neg hr.ne']⟩

/-! ## C3: the inverse square-root degree -/

/-- C3. For a real degree and a positive real floor c, "rsqrt (max deg c) when deg > 0, else 0" is
    real: max deg c ≥ c > 0. -/
theorem dinv_real (deg c : EReal) (hdeg : IsReal deg) (hc : IsReal c) (hcpos : 0 < c) :
    IsReal (if 0 < deg then Ideal.rsqrt (max deg c) else 0) :=
  IsReal.ite (IsReal.rsqrt (hdeg.max hc) (lt_max_of_lt_right hcpos)) IsReal.zero

/-! ## C4: a layer-normalised row -/

/-- The mean of a real row over a non-zero real count is real. -/
theorem mean_real {D : ℕ} (a : Fin D → EReal) (ha : ∀ k, IsReal (a k)) (dn : EReal) (hdn : IsReal dn)
    (hdn0 : dn ≠ 0) : IsReal (Ideal.div (0 + ∑ k, a k) dn) :=
  IsReal.div (IsReal.zero_add_sum a ha) hdn hdn0

/-- The mean squared deviation of a real row from a real centre, over a positive real count, is a
    non-negative real: a sum of squares times a positive reciprocal. -/
theorem var_real_nonneg {D : ℕ} (a : Fin D → EReal) (ha : ∀ k, IsReal (a k)) (mu dn : EReal)
    (hmu : IsReal mu) (hdn : IsReal dn) (hdnpos : 0 < dn) :
    ∃ v : ℝ, 0 ≤ v ∧ Ideal.div (0 + ∑ k, (a k - mu) * (a k - mu)) dn = (v : EReal) := by
  choose a' ha' using ha
  obtain ⟨m, rfl⟩ := hmu
  obtain ⟨q, rfl⟩ := hdn
  have hq : 0 < q := EReal.coe_pos.mp hdnpos
  have hsum : (0 + ∑ k, (a k - (m : EReal)) * (a k - (m : EReal)))
      = ((∑ k, (a' k - m) * (a' k - m) : ℝ) : EReal) := by
    rw [zero_add, coe_sum]
    exact Finset.sum_congr rfl fun k _ => by rw [ha' k, ← EReal.coe_sub, ← EReal.coe_mul]
  refine ⟨(∑ k, (a' k - m) * (a' k - m)) * (1 / q), ?_, ?_⟩
  · exact mul_nonneg (Finset.sum_nonneg fun k _ => mul_self_nonneg _) (one_div_pos.mpr hq).le
  · rw [hsum, Ideal.div_coe hq.ne', EReal.coe_mul]

/-- The inverse square root of "variance plus a positive real ε" is real, the variance being the mean
    squared deviation of a real row from a real centre over a positive real count. -/
theorem rsqrt_var_real {D : ℕ} (a : Fin D → EReal) (ha : ∀ k, IsReal (a k)) (mu dn eps : EReal)
    (hmu : IsReal mu) (hdn : IsReal dn) (hdnpos : 0 < dn) (heps : IsReal eps) (hepspos : 0 < eps) :
    IsReal (Ideal.rsqrt (Ideal.div (0 + ∑ k, (a k - mu) * (a k - mu)) dn + eps)) := by
  obtain ⟨v, hv0, hv⟩ := var_real_nonneg a ha mu dn hmu hdn hdnpos
  obtain ⟨ε, rfl⟩ := heps
  have hε : 0 < ε := EReal.coe_pos.mp hepspos
  rw [hv, ← EReal.coe_add]
  exact IsReal.rsqrt (IsReal.coe _) (EReal.coe_pos.mpr (add_pos_of_nonneg_of_pos hv0 hε))

/-- C4. Every entry of a layer-normalised row is real: with mu the mean and var the mean squared
    deviation of the real row a over the positive real count dn, and a positive real ε,
    max ((a j - mu) · rsqrt (var + ε) · g j + bt j) 0 is real for real scale g and shift bt. The mean
    and the variance enter as named values together with their defining equations. -/
theorem layernorm_real {D : ℕ} (a g bt : Fin D → EReal) (ha : ∀ k, IsReal (a k))
    (hg : ∀ k, IsReal (g k)) (hbt : ∀ k, IsReal (bt k))
    (dn eps : EReal) (hdn : IsReal dn) (hdnpos : 0 < dn) (heps : IsReal eps) (hepspos : 0 < eps)
    (mu var : EReal) (hmu : mu = Ideal.div (0 + ∑ k, a k) dn)
    (hvar : var = Ideal.div (0 + ∑ k, (a k - mu) * (a k - mu)) dn) (j : Fin D) :
    IsReal (max (((a j - mu) * Ideal.rsqrt (var + eps)) * g j + bt j) 0) := by
  have hmuR : IsReal mu := by rw [hmu]; exact mean_real a ha dn hdn hdnpos.ne'
  have hrs : IsReal (Ideal.rsqrt (var + eps)) := by
    rw [hvar]; exact rsqrt_var_real a ha mu dn eps hmuR hdn hdnpos heps hepspos
  exact (((((ha j).sub hmuR).mul hrs).mul (hg j)).add (hbt j)).max IsReal.zero

/-- C4, with the mean and the variance written out. -/
theorem layernorm_real' {D : ℕ} (a g bt : Fin D → EReal) (ha : ∀ k, IsReal (a k))
    (hg : ∀ k, IsReal (g k)) (hbt : ∀ k, IsReal (bt k))
    (dn eps : EReal) (hdn : IsReal dn) (hdnpos : 0 < dn) (heps : IsReal eps) (hepspos : 0 < eps)
    (j : Fin D) :
    IsReal (max (((a j - Ideal.div (0 + ∑ k, a k) dn)
        * Ideal.rsqrt (Ideal.div (0 + ∑ k, (a k - Ideal.div (0 + ∑ k, a k) dn)
            * (a k - Ideal.div (0 + ∑ k, a k) dn)) dn + eps)) * g j + bt j) 0) :=
  layernorm_real a g bt ha hg hbt dn eps hdn hdnpos heps hepspos _ _ rfl rfl j

/-! ## C5: a contraction against three stacked blocks -/

/-- C5. A sum over the first 3·d naturals is the sum over the first d, plus the sum over the next d,
    plus the sum over the last d. -/
theorem sum_three {M : Type*} [AddCommMonoid M] (d : ℕ) (f : ℕ → M) :
    ∑ k ∈ Finset.range (3 * d), f k
      = (∑ k ∈ Finset.range d, f k + ∑ k ∈ Finset.range d, f (d + k))
        + ∑ k ∈ Finset.range d, f (2 * d + k) := by
  have h3 : 3 * d = d + d + d := by ring
  rw [h3, Finset.sum_range_add, Finset.sum_range_add, two_mul]

/-- C5 indexed by Fin: a sum over Fin (3·d) of a function of the underlying natural splits into three
    sums over Fin d. -/
theorem sum_three_fin {M : Type*} [AddCommMonoid M] (d : ℕ) (f : ℕ → M) :
    ∑ k : Fin (3 * d), f k.val
      = (∑ k : Fin d, f k.val + ∑ k : Fin d, f (d + k.val)) + ∑ k : Fin d, f (2 * d + k.val) := by
  have h1 : ∑ k : Fin (3 * d), f k.val = ∑ k ∈ Finset.range (3 * d), f k :=
    Fin.sum_univ_eq_sum_range f (3 * d)
  have h2 : ∑ k : Fin d, f k.val = ∑ k ∈ Finset.range d, f k := Fin.sum_univ_eq_sum_range f d
  have h3 : ∑ k : Fin d, f (d + k.val) = ∑ k ∈ Finset.range d, f (d + k) :=
    Fin.sum_univ_eq_sum_range (fun k => f (d + k)) d
  have h4 : ∑ k : Fin d, f (2 * d + k.val) = ∑ k ∈ Finset.range d, f (2 * d + k) :=
    Fin.sum_univ_eq_sum_range (fun k => f (2 * d + k)) d
  rw [h1, h2, h3, h4]
  exact sum_three d f

end Cert.Lib.Cheb
-- ==== Proof.KHostRead2.lean ====
/-
  THE JOIN between the kernel's host side and the specification: one propagation step as the kernel's host operations
  spell it — scale the rows by the inverse square-root degrees, gather along the edges, sum into the destination rows,
  take away the self-loop count times the scaled row, scale by minus the inverse square-root degree — is, over the
  kernel's own degree data and index columns, the specification's propagation; and so for the second Chebyshev term.
-/
import proofs.«108161_j89232240542461_2_alg».proof.Proof.KHostRead1
import proofs.«108161_j89232240542461_2_alg».proof.Proof.SpecReal
import proofs.«108161_j89232240542461_2_alg».proof.Proof.LibChebReal

noncomputable section

namespace Cert.KernelIdeal.Hand

open Idealize.ShloMosaic Idealize.ShloMosaic.ValueIdx Idealize.ShloMosaic.TcCoe
open Cert.KernelIdeal Cert.KernelIdeal.Gen

/-- A scalar spread over the node column, read at an entry. -/
theorem bcN1_apply {α : Type} (y : S_.Idx → α) (i : S50000x1.Idx) :
    broadcastInDim S50000x1 ![] bcast_S_S50000x1 y i = y (fun a => a.elim0) := bcast0_apply _ y i

/-- A scalar spread over the 128-wide node rows, read at an entry. -/
theorem bcN128_apply {α : Type} (y : S_.Idx → α) (i : S50000x128.Idx) :
    broadcastInDim S50000x128 ![] bcast_S_S50000x128 y i = y (fun a => a.elim0) := bcast0_apply _ y i

/-- A scalar spread over the 256-wide node rows, read at an entry. -/
theorem bcN256_apply {α : Type} (y : S_.Idx → α) (i : S50000x256.Idx) :
    broadcastInDim S50000x256 ![] bcast_S_S50000x256 y i = y (fun a => a.elim0) := bcast0_apply _ y i

/-- A node vector as a column, read at (n, 0). -/
theorem ncol_apply {α : Type} (v : S50000.Idx → α) (n : Fin 50000) :
    broadcastInDim S50000x1 ![0] bcast_S50000_S50000x1_0 v (ix2 n (0 : Fin 1)) = v (ix1 n) :=
  broadcastInDim_apply _ bcast_S50000_S50000x1_0 v (ix2 n (0 : Fin 1)) (ix1 n) (fun a => match a with
    | ⟨0, _⟩ => by show n.val = if (50000 : Nat) = 1 then 0 else n.val; rw [if_neg (by decide)])

/-! ## Width 128 -/

theorem up128_apply {α : Type} (x : S50000x1.Idx → α) (n : Fin 50000) (j : Fin 128) :
    broadcastInDim S50000x128 ![0, 1] bcast_S50000x1_S50000x128_0_1 x (ix2 n j) = x (ix2 n (0 : Fin 1)) :=
  broadcastInDim_apply _ bcast_S50000x1_S50000x128_0_1 x (ix2 n j) (ix2 n (0 : Fin 1)) (fun a => match a with
    | ⟨0, _⟩ => by show n.val = if (50000 : Nat) = 1 then 0 else n.val; rw [if_neg (by decide)]
    | ⟨1, _⟩ => by show 0 = if (1 : Nat) = 1 then 0 else j.val; rw [if_pos rfl])

/-- A node vector spread over the 128-wide rows through the column form, read at (n, j). -/
theorem rowcast128_apply {α : Type} (v : S50000.Idx → α) (n : Fin 50000) (j : Fin 128) :
    broadcastInDim S50000x128 ![0, 1] bcast_S50000x1_S50000x128_0_1 (broadcastInDim S50000x1 ![0] bcast_S50000_S50000x1_0 v) (ix2 n j)
      = v (ix1 n) :=
  (up128_apply _ n j).trans (ncol_apply v n)

/-- Minus the node vector, spread over the 128-wide rows, read at (n, j). -/
theorem negcol128_apply (v : FVec Ideal S50000 .f32) (n : Fin 50000) (j : Fin 128) :
    broadcastInDim S50000x128 ![0, 1] bcast_S50000x1_S50000x128_0_1
        (mulf (broadcastInDim S50000x1 ![] bcast_S_S50000x1 (constant (F := Ideal) S_ .f32 0xBF800000#32))
          (broadcastInDim S50000x1 ![0] bcast_S50000_S50000x1_0 v)) (ix2 n j)
      = (-1 : EReal) * v (ix1 n) := by
  refine (up128_apply _ n j).trans ?_
  rw [mulf_apply, bcN1_apply, constant_apply, ncol_apply, Spec.ofBits_neg_one]

theorem kgather128 (x : (⟨2, ![50000, 128]⟩ : Shape).Idx → EReal) (idx : IVec ⟨2, ![800000, 1]⟩ 32) (e : Fin 800000)
    (j : Fin 128) :
    Host.gather gather_S50000x128_S800000x1_S800000x128_1_0_n_n_0_1_1128 x idx (ix2 e j)
      = x (ix2 ⟨min (idx (ix2 e (0 : Fin 1))).toInt.toNat (50000 - 1), by omega⟩ j) :=
  Cert.Rows2.gather_pickRows2_apply (by decide) Facts₀.gather_S50000x128_S800000x1_S800000x128_1_0_n_n_0_1_1128_wf x idx e j

theorem kscatter128 (x : (⟨2, ![50000, 128]⟩ : Shape).Idx → EReal) (idx : IVec ⟨2, ![800000, 1]⟩ 32)
    (u : (⟨2, ![800000, 128]⟩ : Shape).Idx → EReal) (n : Fin 50000) (j : Fin 128) :
    Host.scatterAdd (F := Ideal) (φ := .f32) scatter_S50000x128_S800000x1_S800000x128_1_0_0_1 x idx u (ix2 n j)
      = x (ix2 n j) + ∑ e : Fin 800000, if (idx (ix2 e (0 : Fin 1))).toInt = (n.val : Int) then u (ix2 e j) else 0 :=
  Cert.Rows2.hostScatterAdd_rows2_apply Facts₀.scatter_S50000x128_S800000x1_S800000x128_1_0_0_1_wf x idx u n j

/-- The rows scaled by the inverse square-root degrees, read at an entry. -/
theorem kD128_apply (dinv : FVec Ideal S50000 .f32) (h : FVec Ideal S50000x128 .f32) (n : Fin 50000) (j : Fin 128) :
    mulf (broadcastInDim S50000x128 ![0, 1] bcast_S50000x1_S50000x128_0_1 (broadcastInDim S50000x1 ![0] bcast_S50000_S50000x1_0 dinv)) h (ix2 n j) = dinv (ix1 n) * h (ix2 n j) := by
  rw [mulf_apply, rowcast128_apply]

/-- The scaled rows gathered along the edges and summed into the destination rows, read at an entry. -/
theorem kS128_apply (dinv : FVec Ideal S50000 .f32) (idxcol dstcol : IVec S800000x1 32) (h : FVec Ideal S50000x128 .f32)
    (n : Fin 50000) (j : Fin 128) :
    Host.scatterAdd (F := Ideal) (φ := .f32) scatter_S50000x128_S800000x1_S800000x128_1_0_0_1
        (broadcastInDim S50000x128 ![] bcast_S_S50000x128 (constant (F := Ideal) S_ .f32 0x00000000#32)) dstcol
        (Host.gather gather_S50000x128_S800000x1_S800000x128_1_0_n_n_0_1_1128 (mulf (broadcastInDim S50000x128 ![0, 1] bcast_S50000x1_S50000x128_0_1 (broadcastInDim S50000x1 ![0] bcast_S50000_S50000x1_0 dinv)) h) idxcol) (ix2 n j)
      = 0 + ∑ e : Fin 800000, if (dstcol (ix2 e (0 : Fin 1))).toInt = (n.val : ℤ)
          then dinv (ix1 (⟨min (idxcol (ix2 e (0 : Fin 1))).toInt.toNat (50000 - 1), by omega⟩ : Fin 50000)) * h (ix2 (⟨min (idxcol (ix2 e (0 : Fin 1))).toInt.toNat (50000 - 1), by omega⟩ : Fin 50000) j) else 0 := by
  rw [kscatter128, bcN128_apply, constant_apply, Ideal.ofBits_zero_f32]
  refine congrArg (0 + ·) (Finset.sum_congr rfl fun e _ => ?_)
  rw [kgather128, kD128_apply]

/-- One propagation step of the kernel's host side, read at an entry. -/
theorem kProp128_read (dinv cnt : FVec Ideal S50000 .f32) (idxcol dstcol : IVec S800000x1 32)
    (h : FVec Ideal S50000x128 .f32) (n : Fin 50000) (j : Fin 128) :
    kProp128 (F := Ideal) dinv cnt idxcol dstcol h (ix2 n j)
      = ((-1 : EReal) * dinv (ix1 n))
        * ((0 + ∑ e : Fin 800000, if (dstcol (ix2 e (0 : Fin 1))).toInt = (n.val : ℤ)
              then dinv (ix1 (⟨min (idxcol (ix2 e (0 : Fin 1))).toInt.toNat (50000 - 1), by omega⟩ : Fin 50000)) * h (ix2 (⟨min (idxcol (ix2 e (0 : Fin 1))).toInt.toNat (50000 - 1), by omega⟩ : Fin 50000) j) else 0)
          - cnt (ix1 n) * (dinv (ix1 n) * h (ix2 n j))) := by
  unfold kProp128
  rw [mulf_apply, subf_apply, mulf_apply]
  exact congrArg₂ (· * ·) (negcol128_apply dinv n j)
    (congrArg₂ (· - ·) (kS128_apply dinv idxcol dstcol h n j)
      (congrArg₂ (· * ·) (rowcast128_apply cnt n j) (kD128_apply dinv h n j)))

/-- THE JOIN: the kernel's propagation step over its own degree data is the specification's propagation. -/
theorem kProp128_eq (ei : IVec S2x800000 32) (h : FVec Ideal S50000x128 .f32)
    (hh : ∀ n k, Cert.Lib.Cheb.IsReal (h (ix2 n k))) (n : Fin 50000) (j : Fin 128) :
    kProp128 (F := Ideal) (kDinv ei) (kCnt ei) (kCol (kWrap ei)) (kCol (kDst ei)) h (ix2 n j)
      = Spec.propS ei (fun n k => h (ix2 n k)) n j := by
  rw [kProp128_read]
  simp only [kDinv_at, kCnt_at, kWrapCol_at, kDstCol_at]
  exact Cert.Lib.Cheb.prop_eq (Spec.σ ei 0) (Spec.σ ei 1) (Spec.gsrc ei) (Spec.gdst ei) (Spec.same ei)
    (Spec.same_readings ei) (fun e n => Spec.gdst_of_σ_eq ei e n) (Spec.dinv ei) (Spec.dinv_real ei)
    (fun n k => h (ix2 n k)) hh n j

theorem kProp128_real (ei : IVec S2x800000 32) (h : FVec Ideal S50000x128 .f32)
    (hh : ∀ n k, Cert.Lib.Cheb.IsReal (h (ix2 n k))) (n : Fin 50000) (j : Fin 128) :
    Cert.Lib.Cheb.IsReal (kProp128 (F := Ideal) (kDinv ei) (kCnt ei) (kCol (kWrap ei)) (kCol (kDst ei)) h (ix2 n j)) := by
  rw [kProp128_read]
  simp only [kDinv_at, kCnt_at, kWrapCol_at, kDstCol_at]
  exact Cert.Lib.Cheb.prop_real (Spec.σ ei 0) (Spec.σ ei 1) (Spec.gsrc ei) (Spec.same ei) (Spec.dinv ei) (Spec.dinv_real ei)
    (fun n k => h (ix2 n k)) hh n j

/-- The kernel's second Chebyshev term, read at an entry. -/
theorem kTx2_128_read (dinv cnt : FVec Ideal S50000 .f32) (idxcol dstcol : IVec S800000x1 32)
    (h : FVec Ideal S50000x128 .f32) (n : Fin 50000) (j : Fin 128) :
    kTx2_128 (F := Ideal) dinv cnt idxcol dstcol h (ix2 n j)
      = (2 : EReal) * kProp128 (F := Ideal) dinv cnt idxcol dstcol (kProp128 (F := Ideal) dinv cnt idxcol dstcol h) (ix2 n j)
        - h (ix2 n j) := by
  unfold kTx2_128
  rw [subf_apply, mulf_apply, bcN128_apply, constant_apply, Spec.ofBits_two]

theorem kTx2_128_eq (ei : IVec S2x800000 32) (h : FVec Ideal S50000x128 .f32)
    (hh : ∀ n k, Cert.Lib.Cheb.IsReal (h (ix2 n k))) (n : Fin 50000) (j : Fin 128) :
    kTx2_128 (F := Ideal) (kDinv ei) (kCnt ei) (kCol (kWrap ei)) (kCol (kDst ei)) h (ix2 n j)
      = Spec.tx2 ei (fun n k => h (ix2 n k)) n j := by
  rw [kTx2_128_read, kProp128_eq ei _ (fun n k => kProp128_real ei h hh n k)]
  simp only [kProp128_eq ei h hh]
  rfl

theorem kTx2_128_real (ei : IVec S2x800000 32) (h : FVec Ideal S50000x128 .f32)
    (hh : ∀ n k, Cert.Lib.Cheb.IsReal (h (ix2 n k))) (n : Fin 50000) (j : Fin 128) :
    Cert.Lib.Cheb.IsReal (kTx2_128 (F := Ideal) (kDinv ei) (kCnt ei) (kCol (kWrap ei)) (kCol (kDst ei)) h (ix2 n j)) := by
  rw [kTx2_128_read]
  exact Cert.Lib.Cheb.IsReal.sub
    (Cert.Lib.Cheb.IsReal.mul ⟨2, by norm_cast⟩ (kProp128_real ei _ (fun n k => kProp128_real ei h hh n k) n j)) (hh n j)

/-! ## Width 256 -/

theorem up256_apply {α : Type} (x : S50000x1.Idx → α) (n : Fin 50000) (j : Fin 256) :
    broadcastInDim S50000x256 ![0, 1] bcast_S50000x1_S50000x256_0_1 x (ix2 n j) = x (ix2 n (0 : Fin 1)) :=
  broadcastInDim_apply _ bcast_S50000x1_S50000x256_0_1 x (ix2 n j) (ix2 n (0 : Fin 1)) (fun a => match a with
    | ⟨0, _⟩ => by show n.val = if (50000 : Nat) = 1 then 0 else n.val; rw [if_neg (by decide)]
    | ⟨1, _⟩ => by show 0 = if (1 : Nat) = 1 then 0 else j.val; rw [if_pos rfl])

/-- A node vector spread over the 256-wide rows through the column form, read at (n, j). -/
theorem rowcast256_apply {α : Type} (v : S50000.Idx → α) (n : Fin 50000) (j : Fin 256) :
    broadcastInDim S50000x256 ![0, 1] bcast_S50000x1_S50000x256_0_1 (broadcastInDim S50000x1 ![0] bcast_S50000_S50000x1_0 v) (ix2 n j)
      = v (ix1 n) :=
  (up256_apply _ n j).trans (ncol_apply v n)

/-- Minus the node vector, spread over the 256-wide rows, read at (n, j). -/
theorem negcol256_apply (v : FVec Ideal S50000 .f32) (n : Fin 50000) (j : Fin 256) :
    broadcastInDim S50000x256 ![0, 1] bcast_S50000x1_S50000x256_0_1
        (mulf (broadcastInDim S50000x1 ![] bcast_S_S50000x1 (constant (F := Ideal) S_ .f32 0xBF800000#32))
          (broadcastInDim S50000x1 ![0] bcast_S50000_S50000x1_0 v)) (ix2 n j)
      = (-1 : EReal) * v (ix1 n) := by
  refine (up256_apply _ n j).trans ?_
  rw [mulf_apply, bcN1_apply, constant_apply, ncol_apply, Spec.ofBits_neg_one]

theorem kgather256 (x : (⟨2, ![50000, 256]⟩ : Shape).Idx → EReal) (idx : IVec ⟨2, ![800000, 1]⟩ 32) (e : Fin 800000)
    (j : Fin 256) :
    Host.gather gather_S50000x256_S800000x1_S800000x256_1_0_n_n_0_1_1256 x idx (ix2 e j)
      = x (ix2 ⟨min (idx (ix2 e (0 : Fin 1))).toInt.toNat (50000 - 1), by omega⟩ j) :=
  Cert.Rows2.gather_pickRows2_apply (by decide) Facts₀.gather_S50000x256_S800000x1_S800000x256_1_0_n_n_0_1_1256_wf x idx e j

theorem kscatter256 (x : (⟨2, ![50000, 256]⟩ : Shape).Idx → EReal) (idx : IVec ⟨2, ![800000, 1]⟩ 32)
    (u : (⟨2, ![800000, 256]⟩ : Shape).Idx → EReal) (n : Fin 50000) (j : Fin 256) :
    Host.scatterAdd (F := Ideal) (φ := .f32) scatter_S50000x256_S800000x1_S800000x256_1_0_0_1 x idx u (ix2 n j)
      = x (ix2 n j) + ∑ e : Fin 800000, if (idx (ix2 e (0 : Fin 1))).toInt = (n.val : Int) then u (ix2 e j) else 0 :=
  Cert.Rows2.hostScatterAdd_rows2_apply Facts₀.scatter_S50000x256_S800000x1_S800000x256_1_0_0_1_wf x idx u n j

/-- The rows scaled by the inverse square-root degrees, read at an entry. -/
theorem kD256_apply (dinv : FVec Ideal S50000 .f32) (h : FVec Ideal S50000x256 .f32) (n : Fin 50000) (j : Fin 256) :
    mulf (broadcastInDim S50000x256 ![0, 1] bcast_S50000x1_S50000x256_0_1 (broadcastInDim S50000x1 ![0] bcast_S50000_S50000x1_0 dinv)) h (ix2 n j) = dinv (ix1 n) * h (ix2 n j) := by
  rw [mulf_apply, rowcast256_apply]

/-- The scaled rows gathered along the edges and summed into the destination rows, read at an entry. -/
theorem kS256_apply (dinv : FVec Ideal S50000 .f32) (idxcol dstcol : IVec S800000x1 32) (h : FVec Ideal S50000x256 .f32)
    (n : Fin 50000) (j : Fin 256) :
    Host.scatterAdd (F := Ideal) (φ := .f32) scatter_S50000x256_S800000x1_S800000x256_1_0_0_1
        (broadcastInDim S50000x256 ![] bcast_S_S50000x256 (constant (F := Ideal) S_ .f32 0x00000000#32)) dstcol
        (Host.gather gather_S50000x256_S800000x1_S800000x256_1_0_n_n_0_1_1256 (mulf (broadcastInDim S50000x256 ![0, 1] bcast_S50000x1_S50000x256_0_1 (broadcastInDim S50000x1 ![0] bcast_S50000_S50000x1_0 dinv)) h) idxcol) (ix2 n j)
      = 0 + ∑ e : Fin 800000, if (dstcol (ix2 e (0 : Fin 1))).toInt = (n.val : ℤ)
          then dinv (ix1 (⟨min (idxcol (ix2 e (0 : Fin 1))).toInt.toNat (50000 - 1), by omega⟩ : Fin 50000)) * h (ix2 (⟨min (idxcol (ix2 e (0 : Fin 1))).toInt.toNat (50000 - 1), by omega⟩ : Fin 50000) j) else 0 := by
  rw [kscatter256, bcN256_apply, constant_apply, Ideal.ofBits_zero_f32]
  refine congrArg (0 + ·) (Finset.sum_congr rfl fun e _ => ?_)
  rw [kgather256, kD256_apply]

/-- One propagation step of the kernel's host side, read at an entry. -/
theorem kProp256_read (dinv cnt : FVec Ideal S50000 .f32) (idxcol dstcol : IVec S800000x1 32)
    (h : FVec Ideal S50000x256 .f32) (n : Fin 50000) (j : Fin 256) :
    kProp256 (F := Ideal) dinv cnt idxcol dstcol h (ix2 n j)
      = ((-1 : EReal) * dinv (ix1 n))
        * ((0 + ∑ e : Fin 800000, if (dstcol (ix2 e (0 : Fin 1))).toInt = (n.val : ℤ)
              then dinv (ix1 (⟨min (idxcol (ix2 e (0 : Fin 1))).toInt.toNat (50000 - 1), by omega⟩ : Fin 50000)) * h (ix2 (⟨min (idxcol (ix2 e (0 : Fin 1))).toInt.toNat (50000 - 1), by omega⟩ : Fin 50000) j) else 0)
          - cnt (ix1 n) * (dinv (ix1 n) * h (ix2 n j))) := by
  unfold kProp256
  rw [mulf_apply, subf_apply, mulf_apply]
  exact congrArg₂ (· * ·) (negcol256_apply dinv n j)
    (congrArg₂ (· - ·) (kS256_apply dinv idxcol dstcol h n j)
      (congrArg₂ (· * ·) (rowcast256_apply cnt n j) (kD256_apply dinv h n j)))

/-- THE JOIN: the kernel's propagation step over its own degree data is the specification's propagation. -/
theorem kProp256_eq (ei : IVec S2x800000 32) (h : FVec Ideal S50000x256 .f32)
    (hh : ∀ n k, Cert.Lib.Cheb.IsReal (h (ix2 n k))) (n : Fin 50000) (j : Fin 256) :
    kProp256 (F := Ideal) (kDinv ei) (kCnt ei) (kCol (kWrap ei)) (kCol (kDst ei)) h (ix2 n j)
      = Spec.propS ei (fun n k => h (ix2 n k)) n j := by
  rw [kProp256_read]
  simp only [kDinv_at, kCnt_at, kWrapCol_at, kDstCol_at]
  exact Cert.Lib.Cheb.prop_eq (Spec.σ ei 0) (Spec.σ ei 1) (Spec.gsrc ei) (Spec.gdst ei) (Spec.same ei)
    (Spec.same_readings ei) (fun e n => Spec.gdst_of_σ_eq ei e n) (Spec.dinv ei) (Spec.dinv_real ei)
    (fun n k => h (ix2 n k)) hh n j

theorem kProp256_real (ei : IVec S2x800000 32) (h : FVec Ideal S50000x256 .f32)
    (hh : ∀ n k, Cert.Lib.Cheb.IsReal (h (ix2 n k))) (n : Fin 50000) (j : Fin 256) :
    Cert.Lib.Cheb.IsReal (kProp256 (F := Ideal) (kDinv ei) (kCnt ei) (kCol (kWrap ei)) (kCol (kDst ei)) h (ix2 n j)) := by
  rw [kProp256_read]
  simp only [kDinv_at, kCnt_at, kWrapCol_at, kDstCol_at]
  exact Cert.Lib.Cheb.prop_real (Spec.σ ei 0) (Spec.σ ei 1) (Spec.gsrc ei) (Spec.same ei) (Spec.dinv ei) (Spec.dinv_real ei)
    (fun n k => h (ix2 n k)) hh n j

/-- The kernel's second Chebyshev term, read at an entry. -/
theorem kTx2_256_read (dinv cnt : FVec Ideal S50000 .f32) (idxcol dstcol : IVec S800000x1 32)
    (h : FVec Ideal S50000x256 .f32) (n : Fin 50000) (j : Fin 256) :
    kTx2_256 (F := Ideal) dinv cnt idxcol dstcol h (ix2 n j)
      = (2 : EReal) * kProp256 (F := Ideal) dinv cnt idxcol dstcol (kProp256 (F := Ideal) dinv cnt idxcol dstcol h) (ix2 n j)
        - h (ix2 n j) := by
  unfold kTx2_256
  rw [subf_apply, mulf_apply, bcN256_apply, constant_apply, Spec.ofBits_two]

theorem kTx2_256_eq (ei : IVec S2x800000 32) (h : FVec Ideal S50000x256 .f32)
    (hh : ∀ n k, Cert.Lib.Cheb.IsReal (h (ix2 n k))) (n : Fin 50000) (j : Fin 256) :
    kTx2_256 (F := Ideal) (kDinv ei) (kCnt ei) (kCol (kWrap ei)) (kCol (kDst ei)) h (ix2 n j)
      = Spec.tx2 ei (fun n k => h (ix2 n k)) n j := by
  rw [kTx2_256_read, kProp256_eq ei _ (fun n k => kProp256_real ei h hh n k)]
  simp only [kProp256_eq ei h hh]
  rfl

theorem kTx2_256_real (ei : IVec S2x800000 32) (h : FVec Ideal S50000x256 .f32)
    (hh : ∀ n k, Cert.Lib.Cheb.IsReal (h (ix2 n k))) (n : Fin 50000) (j : Fin 256) :
    Cert.Lib.Cheb.IsReal (kTx2_256 (F := Ideal) (kDinv ei) (kCnt ei) (kCol (kWrap ei)) (kCol (kDst ei)) h (ix2 n j)) := by
  rw [kTx2_256_read]
  exact Cert.Lib.Cheb.IsReal.sub
    (Cert.Lib.Cheb.IsReal.mul ⟨2, by norm_cast⟩ (kProp256_real ei _ (fun n k => kProp256_real ei h hh n k) n j)) (hh n j)

end Cert.KernelIdeal.Hand

end
-- ==== Proof.KStackRead.lean ====
/-
  The host-side stacked weights and row forms, read at an index.

  The stacked weights are the three matrices of a `3 × a × b` array laid one under another: rows `0 … a-1` of the
  stack are matrix 0, rows `a … 2a-1` matrix 1, rows `2a … 3a-1` matrix 2. Each matrix is taken as a one-slab slice
  of the array along its first axis with that axis then dropped, so entry `(k, j)` of matrix `i` is the array's
  entry `(i, k, j)`. A vector laid out as one row reads, at `(0, j)`, the vector's entry `j`.
-/
import proofs.«108161_j89232240542461_2_alg».proof.Proof.KHostDefs
import Idealize.ShloMosaic.Lib.ValueIdx
import Idealize.ShloMosaic.Lib.Pipeline.Value
import Idealize.ShloMosaic.Lib.ValueLayout

noncomputable section

namespace Cert.KernelIdeal.Hand

open Idealize.ShloMosaic Idealize.ShloMosaic.TcCoe Idealize.ShloMosaic.ValueIdx
open Cert.KernelIdeal Cert.KernelIdeal.Gen

variable {F : FTy → Type} [FloatOps F]

/-! ## One slab of a three-axis array as a matrix -/

/-- Slab `o` of an `m × a × b` array, sliced out along the first axis and recast as an `a × b` matrix, reads at
    `(k, j)` the array's entry `(o, k, j)`. -/
theorem slab_apply {α : Type} {m a b : ℕ} (o : ℕ) (ho : o < m) (W : (⟨3, ![m, a, b]⟩ : Shape).Idx → α)
    (hs : (⟨3, ![m, a, b]⟩ : Shape).Slices ![o, 0, 0] ⟨3, ![1, a, b]⟩)
    (hc : (⟨3, ![1, a, b]⟩ : Shape).ShapeCasts ⟨2, ![a, b]⟩) (k : Fin a) (j : Fin b) :
    shapeCast ⟨2, ![a, b]⟩ (extractStridedSlice ⟨3, ![1, a, b]⟩ ![o, 0, 0] W hs) hc (ix2 k j) = W (ix3 ⟨o, ho⟩ k j) :=
  (shapeCast_1ab_ab_apply _ hc k j).trans
    (extractStridedSlice_apply ![o, 0, 0] W hs (ix3 (0 : Fin 1) k j) (ix3 ⟨o, ho⟩ k j) fun ax => by
      match ax with
      | ⟨0, _⟩ => show o = o + 0; omega
      | ⟨1, _⟩ => show k.val = 0 + k.val; omega
      | ⟨2, _⟩ => show j.val = 0 + j.val; omega)

/-! ## Three matrices one under another -/

section Stack

variable {α : Type} {a b A : ℕ} (x₀ x₁ x₂ : (⟨2, ![a, b]⟩ : Shape).Idx → α)
  (h : Shape.Concatenates [(⟨2, ![a, b]⟩ : Shape), ⟨2, ![a, b]⟩, ⟨2, ![a, b]⟩] ⟨2, ![A, b]⟩ 0)

/-- The first `a` rows of the stack are the first matrix. -/
theorem stack3_apply_0 (k : Fin a) (j : Fin b) (hk : k.val < A) :
    concatenate ⟨2, ![A, b]⟩ 0 [⟨⟨2, ![a, b]⟩, x₀⟩, ⟨⟨2, ![a, b]⟩, x₁⟩, ⟨⟨2, ![a, b]⟩, x₂⟩] h (ix2 ⟨k.val, hk⟩ j)
      = x₀ (ix2 k j) :=
  concatenate_apply_piece (a := 0)
    (xs := [⟨⟨2, ![a, b]⟩, x₀⟩, ⟨⟨2, ![a, b]⟩, x₁⟩, ⟨⟨2, ![a, b]⟩, x₂⟩]) (h := h) (j := ix2 ⟨k.val, hk⟩ j)
    (k := 0) (hk := by simp) (s₁ := ⟨2, ![a, b]⟩) (x₁ := x₀) (hxk := rfl) (hr := rfl) (pre := 0) (hpre := rfl)
    (i := ix2 k j)
    (hi := fun c hc => by
      match c with
      | ⟨0, _⟩ => exact absurd rfl hc
      | ⟨1, _⟩ => rfl)
    (ha := Nat.zero_add _)

/-- The next `a` rows are the second matrix. -/
theorem stack3_apply_1 (k : Fin a) (j : Fin b) (hk : a + k.val < A) :
    concatenate ⟨2, ![A, b]⟩ 0 [⟨⟨2, ![a, b]⟩, x₀⟩, ⟨⟨2, ![a, b]⟩, x₁⟩, ⟨⟨2, ![a, b]⟩, x₂⟩] h (ix2 ⟨a + k.val, hk⟩ j)
      = x₁ (ix2 k j) :=
  concatenate_apply_piece (a := 0)
    (xs := [⟨⟨2, ![a, b]⟩, x₀⟩, ⟨⟨2, ![a, b]⟩, x₁⟩, ⟨⟨2, ![a, b]⟩, x₂⟩]) (h := h) (j := ix2 ⟨a + k.val, hk⟩ j)
    (k := 1) (hk := by simp) (s₁ := ⟨2, ![a, b]⟩) (x₁ := x₁) (hxk := rfl) (hr := rfl) (pre := a) (hpre := by simp)
    (i := ix2 k j)
    (hi := fun c hc => by
      match c with
      | ⟨0, _⟩ => exact absurd rfl hc
      | ⟨1, _⟩ => rfl)
    (ha := rfl)

/-- The last `a` rows are the third matrix. -/
theorem stack3_apply_2 (k : Fin a) (j : Fin b) (hk : a + a + k.val < A) :
    concatenate ⟨2, ![A, b]⟩ 0 [⟨⟨2, ![a, b]⟩, x₀⟩, ⟨⟨2, ![a, b]⟩, x₁⟩, ⟨⟨2, ![a, b]⟩, x₂⟩] h (ix2 ⟨a + a + k.val, hk⟩ j)
      = x₂ (ix2 k j) :=
  concatenate_apply_piece (a := 0)
    (xs := [⟨⟨2, ![a, b]⟩, x₀⟩, ⟨⟨2, ![a, b]⟩, x₁⟩, ⟨⟨2, ![a, b]⟩, x₂⟩]) (h := h) (j := ix2 ⟨a + a + k.val, hk⟩ j)
    (k := 2) (hk := by simp) (s₁ := ⟨2, ![a, b]⟩) (x₁ := x₂) (hxk := rfl) (hr := rfl) (pre := a + a) (hpre := by simp)
    (i := ix2 k j)
    (hi := fun c hc => by
      match c with
      | ⟨0, _⟩ => exact absurd rfl hc
      | ⟨1, _⟩ => rfl)
    (ha := rfl)

end Stack

/-! ## The stacked weights of the first layer: three 128 × 256 matrices -/

theorem kStack128_apply_0 (W : FVec F S3x128x256 .f32) (k : Fin 128) (j : Fin 256) :
    kStack128 W (ix2 ⟨k.val, by omega⟩ j) = W (ix3 (0 : Fin 3) k j) := by
  unfold kStack128
  exact (stack3_apply_0 _ _ _ _ k j _).trans (slab_apply 0 (by omega) W _ _ k j)
theorem kStack128_apply_1 (W : FVec F S3x128x256 .f32) (k : Fin 128) (j : Fin 256) :
    kStack128 W (ix2 ⟨128 + k.val, by omega⟩ j) = W (ix3 (1 : Fin 3) k j) := by
  unfold kStack128
  exact (stack3_apply_1 _ _ _ _ k j _).trans (slab_apply 1 (by omega) W _ _ k j)
theorem kStack128_apply_2 (W : FVec F S3x128x256 .f32) (k : Fin 128) (j : Fin 256) :
    kStack128 W (ix2 ⟨256 + k.val, by omega⟩ j) = W (ix3 (2 : Fin 3) k j) := by
  unfold kStack128
  exact (stack3_apply_2 _ _ _ _ k j _).trans (slab_apply 2 (by omega) W _ _ k j)

/-! ## The stacked weights of the second layer: three 256 × 128 matrices -/

theorem kStack256_apply_0 (W : FVec F S3x256x128 .f32) (k : Fin 256) (j : Fin 128) :
    kStack256 W (ix2 ⟨k.val, by omega⟩ j) = W (ix3 (0 : Fin 3) k j) := by
  unfold kStack256
  exact (stack3_apply_0 _ _ _ _ k j _).trans (slab_apply 0 (by omega) W _ _ k j)
theorem kStack256_apply_1 (W : FVec F S3x256x128 .f32) (k : Fin 256) (j : Fin 128) :
    kStack256 W (ix2 ⟨256 + k.val, by omega⟩ j) = W (ix3 (1 : Fin 3) k j) := by
  unfold kStack256
  exact (stack3_apply_1 _ _ _ _ k j _).trans (slab_apply 1 (by omega) W _ _ k j)
theorem kStack256_apply_2 (W : FVec F S3x256x128 .f32) (k : Fin 256) (j : Fin 128) :
    kStack256 W (ix2 ⟨512 + k.val, by omega⟩ j) = W (ix3 (2 : Fin 3) k j) := by
  unfold kStack256
  exact (stack3_apply_2 _ _ _ _ k j _).trans (slab_apply 2 (by omega) W _ _ k j)

/-! ## The row forms -/

/-- A 256-vector laid out as one row reads, at `(0, j)`, its entry `j`. -/
theorem kRow256_apply (v : FVec F S256 .f32) (j : Fin 256) : kRow256 v (ix2 (0 : Fin 1) j) = v (ix1 j) := by
  unfold kRow256
  exact shapeCast_a_1a_apply v _ 0 j

/-- A 128-vector laid out as one row reads, at `(0, j)`, its entry `j`. -/
theorem kRow128_apply (v : FVec F S128 .f32) (j : Fin 128) : kRow128 v (ix2 (0 : Fin 1) j) = v (ix1 j) := by
  unfold kRow128
  exact shapeCast_a_1a_apply v _ 0 j

end Cert.KernelIdeal.Hand

end
-- ==== Proof.Spec.lean ====
/-
  The result: two Chebyshev graph-convolution layers, each the accumulated row of the three contractions and the bias,
  normalised along the feature axis and cut at 0, as one function of the ten argument arrays, index by index.
-/
import proofs.«108161_j89232240542461_2_alg».proof.Proof.SpecGraph
import proofs.«108161_j89232240542461_2_alg».proof.Proof.SpecRow

noncomputable section

namespace Cert.Spec

open Idealize.ShloMosaic Idealize.ShloMosaic.ValueIdx

/-- One layer: the accumulated row of node n, normalised with scale g and shift bt, and its maximum with 0. The
    divisor dn is the row width as a float and eps the variance floor. -/
def layer {d d' : ℕ} (ei : Words) (dn eps : EReal) (h : Fin 50000 → Fin d → EReal)
    (W : (⟨3, ![3, d, d']⟩ : Shape).Idx → EReal) (b g bt : (⟨1, ![d']⟩ : Shape).Idx → EReal)
    (n : Fin 50000) (j : Fin d') : EReal :=
  lnRow dn eps (fun j' => acc ei h W b n j') (fun j' => g (ix1 j')) (fun j' => bt (ix1 j')) j

/-- The first layer: 128 features in, 256 out. -/
def layer1 (x : (⟨2, ![50000, 128]⟩ : Shape).Idx → EReal) (ei : Words)
    (W1 : (⟨3, ![3, 128, 256]⟩ : Shape).Idx → EReal) (b1 g1 bt1 : (⟨1, ![256]⟩ : Shape).Idx → EReal) :
    Fin 50000 → Fin 256 → EReal :=
  layer ei (Ideal.ofBits .f32 0x43800000#32) (Ideal.ofBits .f32 0x3727C5AC#32) (fun n k => x (ix2 n k)) W1 b1 g1 bt1

/-- The result at node n and feature j: the second layer (256 features in, 128 out) of the first. -/
def G (x : (⟨2, ![50000, 128]⟩ : Shape).Idx → EReal) (ei : Words)
    (W1 : (⟨3, ![3, 128, 256]⟩ : Shape).Idx → EReal) (b1 g1 bt1 : (⟨1, ![256]⟩ : Shape).Idx → EReal)
    (W2 : (⟨3, ![3, 256, 128]⟩ : Shape).Idx → EReal) (b2 g2 bt2 : (⟨1, ![128]⟩ : Shape).Idx → EReal)
    (n : Fin 50000) (j : Fin 128) : EReal :=
  layer ei (Ideal.ofBits .f32 0x43000000#32) (Ideal.ofBits .f32 0x3727C5AC#32) (layer1 x ei W1 b1 g1 bt1) W2 b2 g2 bt2 n j

end Cert.Spec

end
-- ==== Proof.SpecConsts.lean ====
/-
  The float words the row normalisation uses, as the extended reals they denote: the two row widths 256 and 128, and
  the positive reals denoted by the variance floor and by the degree floor.
-/
import Idealize.ShloMosaic.PureOps.Ideal.Laws

noncomputable section

namespace Cert.Spec

open Idealize.ShloMosaic

theorem ofBits_256 : Ideal.ofBits .f32 0x43800000#32 = ((256 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

/-- The variance floor (about 1e-5) denotes a positive real. -/
theorem ofBits_eps : ∃ r : ℝ, 0 < r ∧ Ideal.ofBits .f32 0x3727C5AC#32 = (r : EReal) := by
  refine ⟨((2 ^ 23 + 2606508 : ℕ) : ℝ) * (2 : ℝ) ^ ((110 : ℤ) - 127 - 23), by positivity, ?_⟩
  simp [Ideal.ofBits, Ideal.ieee, -EReal.coe_mul]

/-- The degree floor (about 1e-12) denotes a positive real. -/
theorem ofBits_tiny : ∃ r : ℝ, 0 < r ∧ Ideal.ofBits .f32 0x2B8CBCCC#32 = (r : EReal) := by
  refine ⟨((2 ^ 23 + 0x0CBCCC : ℕ) : ℝ) * (2 : ℝ) ^ ((87 : ℤ) - 127 - 23), by positivity, ?_⟩
  simp [Ideal.ofBits, Ideal.ieee, -EReal.coe_mul]

end Cert.Spec

end
-- ==== Proof.SpecReal2.lean ====
/-
  Every value the specification passes from one stage to the next is a real number when the argument arrays hold real
  numbers: a propagation, the third Chebyshev term, the accumulated row, a normalised layer, and the first layer's
  result.
-/
import proofs.«108161_j89232240542461_2_alg».proof.Proof.Spec
import proofs.«108161_j89232240542461_2_alg».proof.Proof.SpecReal
import proofs.«108161_j89232240542461_2_alg».proof.Proof.SpecConsts
import proofs.«108161_j89232240542461_2_alg».proof.Proof.LibChebReal

noncomputable section

namespace Cert.Spec

open Idealize.ShloMosaic Idealize.ShloMosaic.ValueIdx Cert.Lib.Cheb

/-- A propagation of real features is real: it equals the gathered form, whose entries are real. -/
theorem propS_real {D : ℕ} (ei : Words) (h : Fin 50000 → Fin D → EReal) (hh : ∀ n k, IsReal (h n k))
    (n : Fin 50000) (j : Fin D) : IsReal (propS ei h n j) := by
  have e := prop_eq (σ ei 0) (σ ei 1) (gsrc ei) (gdst ei) (same ei) (same_readings ei)
    (fun e n => gdst_of_σ_eq ei e n) (dinv ei) (dinv_real ei) h hh n j
  have r := prop_real (σ ei 0) (σ ei 1) (gsrc ei) (same ei) (dinv ei) (dinv_real ei) h hh n j
  rw [e] at r
  exact r

theorem two_real : IsReal (2 : EReal) := ⟨2, by norm_cast⟩

theorem tx2_real {D : ℕ} (ei : Words) (h : Fin 50000 → Fin D → EReal) (hh : ∀ n k, IsReal (h n k))
    (n : Fin 50000) (j : Fin D) : IsReal (tx2 ei h n j) := by
  unfold tx2
  exact IsReal.sub (IsReal.mul two_real (propS_real ei _ (fun n k => propS_real ei h hh n k) n j)) (hh n j)

theorem acc_real {d d' : ℕ} (ei : Words) (h : Fin 50000 → Fin d → EReal) (W : (⟨3, ![3, d, d']⟩ : Shape).Idx → EReal)
    (b : (⟨1, ![d']⟩ : Shape).Idx → EReal) (hh : ∀ n k, IsReal (h n k)) (hW : ∀ i, IsReal (W i)) (hb : ∀ i, IsReal (b i))
    (n : Fin 50000) (j : Fin d') : IsReal (acc ei h W b n j) := by
  unfold acc
  exact (((IsReal.sum_univ _ fun k => (hh n k).mul (hW _)).add
      (IsReal.sum_univ _ fun k => (propS_real ei h hh n k).mul (hW _))).add
      (IsReal.sum_univ _ fun k => (tx2_real ei h hh n k).mul (hW _))).add (hb _)

theorem layer_real {d d' : ℕ} (ei : Words) (dn eps : EReal) (h : Fin 50000 → Fin d → EReal)
    (W : (⟨3, ![3, d, d']⟩ : Shape).Idx → EReal) (b g bt : (⟨1, ![d']⟩ : Shape).Idx → EReal)
    (hdn : ∃ r : ℝ, 0 < r ∧ dn = (r : EReal)) (heps : ∃ r : ℝ, 0 < r ∧ eps = (r : EReal))
    (hh : ∀ n k, IsReal (h n k)) (hW : ∀ i, IsReal (W i)) (hb : ∀ i, IsReal (b i)) (hg : ∀ i, IsReal (g i))
    (hbt : ∀ i, IsReal (bt i)) (n : Fin 50000) (j : Fin d') : IsReal (layer ei dn eps h W b g bt n j) := by
  obtain ⟨r, hr, rfl⟩ := hdn
  obtain ⟨q, hq, rfl⟩ := heps
  unfold layer
  rw [lnRow_eq]
  exact layernorm_real' (fun j' => acc ei h W b n j') (fun j' => g (ix1 j')) (fun j' => bt (ix1 j'))
    (fun k => acc_real ei h W b hh hW hb n k) (fun k => hg _) (fun k => hbt _) (r : EReal) (q : EReal)
    (IsReal.coe r) (EReal.coe_pos.mpr hr) (IsReal.coe q) (EReal.coe_pos.mpr hq) j

theorem layer1_real (x : (⟨2, ![50000, 128]⟩ : Shape).Idx → EReal) (ei : Words)
    (W1 : (⟨3, ![3, 128, 256]⟩ : Shape).Idx → EReal) (b1 g1 bt1 : (⟨1, ![256]⟩ : Shape).Idx → EReal)
    (hx : ∀ i, IsReal (x i)) (hW1 : ∀ i, IsReal (W1 i)) (hb1 : ∀ i, IsReal (b1 i)) (hg1 : ∀ i, IsReal (g1 i))
    (hbt1 : ∀ i, IsReal (bt1 i)) (n : Fin 50000) (k : Fin 256) : IsReal (layer1 x ei W1 b1 g1 bt1 n k) := by
  unfold layer1
  exact layer_real ei _ _ _ W1 b1 g1 bt1 ⟨256, by norm_num, ofBits_256⟩ ofBits_eps (fun n k => hx (ix2 n k)) hW1 hb1 hg1 hbt1
    n k

/-- The result is real too (the second layer over the first). -/
theorem G_real (x : (⟨2, ![50000, 128]⟩ : Shape).Idx → EReal) (ei : Words)
    (W1 : (⟨3, ![3, 128, 256]⟩ : Shape).Idx → EReal) (b1 g1 bt1 : (⟨1, ![256]⟩ : Shape).Idx → EReal)
    (W2 : (⟨3, ![3, 256, 128]⟩ : Shape).Idx → EReal) (b2 g2 bt2 : (⟨1, ![128]⟩ : Shape).Idx → EReal)
    (hx : ∀ i, IsReal (x i)) (hW1 : ∀ i, IsReal (W1 i)) (hb1 : ∀ i, IsReal (b1 i)) (hg1 : ∀ i, IsReal (g1 i))
    (hbt1 : ∀ i, IsReal (bt1 i)) (hW2 : ∀ i, IsReal (W2 i)) (hb2 : ∀ i, IsReal (b2 i)) (hg2 : ∀ i, IsReal (g2 i))
    (hbt2 : ∀ i, IsReal (bt2 i)) (n : Fin 50000) (j : Fin 128) : IsReal (G x ei W1 b1 g1 bt1 W2 b2 g2 bt2 n j) := by
  unfold G
  exact layer_real ei _ _ _ W2 b2 g2 bt2 ⟨128, by norm_num, ofBits_128⟩ ofBits_eps
    (fun n k => layer1_real x ei W1 b1 g1 bt1 hx hW1 hb1 hg1 hbt1 n k) hW2 hb2 hg2 hbt2 n j

end Cert.Spec

end
-- ==== Proof.KValue.lean ====
/-
  The kernel program's result as one function of the argument arrays. The second launch's output array is, row by
  row, the layer-normalised stacked contraction of its three input arrays against the stacked weights; its inputs are
  the first launch's output, that output's first propagation and second Chebyshev term; the first launch's output is
  the same of the node features. Each propagation, computed node-wise with the self-loop correction, is the
  edge-weighted sum of the specification whenever the propagated features are real, and the first layer's output is
  real because every argument entry is; so the result is the two-layer specification.
-/
import proofs.«108161_j89232240542461_2_alg».proof.Proof.KRun
import proofs.«108161_j89232240542461_2_alg».proof.Proof.KFold
import proofs.«108161_j89232240542461_2_alg».proof.Proof.KFinal0
import proofs.«108161_j89232240542461_2_alg».proof.Proof.KFinal1
import proofs.«108161_j89232240542461_2_alg».proof.Proof.KHostRead2
import proofs.«108161_j89232240542461_2_alg».proof.Proof.KStackRead
import proofs.«108161_j89232240542461_2_alg».proof.Proof.Spec
import proofs.«108161_j89232240542461_2_alg».proof.Proof.SpecReal2

set_option maxRecDepth 16384

noncomputable section

namespace Cert.KernelIdeal.Hand

open Idealize.ShloMosaic Idealize.ShloMosaic.TcCoe Idealize.SL.Sem Idealize.ShloMosaic.ValueIdx
open Cert.KernelIdeal Cert.KernelIdeal.Gen Cert.Lib.Cheb

variable (m : (ℓ : Loc nD τ sig) → Buf (Elt Ideal) ℓ) (ρ : Dev nD → PrngReg) (c : Dev nD)

/-! ## Buffers carried from the first stretches to both launches -/

theorem W5_v16 : W5 m ρ c (Proc.devRef .tc main_v16) = kDinv (F := Ideal) (m ((c.tc : Thread nD τ).loc main_arg1)) :=
  (W5_of_ne m ρ c main_v16 (by decide)).trans (foldA_v16 (W0 m ρ c))
theorem W5_v19 : W5 m ρ c (Proc.devRef .tc main_v19) = kCnt (F := Ideal) (m ((c.tc : Thread nD τ).loc main_arg1)) :=
  (W5_of_ne m ρ c main_v19 (by decide)).trans (foldA_v19 (W0 m ρ c))
theorem W5_v1 : W5 m ρ c (Proc.devRef .tc main_v1) = kSrc (m ((c.tc : Thread nD τ).loc main_arg1)) :=
  (W5_of_ne m ρ c main_v1 (by decide)).trans (foldA_v1 (W0 m ρ c))
theorem W5_v3 : W5 m ρ c (Proc.devRef .tc main_v3) = kDst (m ((c.tc : Thread nD τ).loc main_arg1)) :=
  (W5_of_ne m ρ c main_v3 (by decide)).trans (foldA_v3 (W0 m ρ c))
theorem W5_arg6 : W5 m ρ c (Proc.devRef .tc main_arg6) = m ((c.tc : Thread nD τ).loc main_arg6) :=
  (W5_of_ne m ρ c main_arg6 (by decide)).trans (foldA_arg6 (W0 m ρ c))
theorem W5_arg7 : W5 m ρ c (Proc.devRef .tc main_arg7) = m ((c.tc : Thread nD τ).loc main_arg7) :=
  (W5_of_ne m ρ c main_arg7 (by decide)).trans (foldA_arg7 (W0 m ρ c))
theorem W5_arg8 : W5 m ρ c (Proc.devRef .tc main_arg8) = m ((c.tc : Thread nD τ).loc main_arg8) :=
  (W5_of_ne m ρ c main_arg8 (by decide)).trans (foldA_arg8 (W0 m ρ c))
theorem W5_arg9 : W5 m ρ c (Proc.devRef .tc main_arg9) = m ((c.tc : Thread nD τ).loc main_arg9) :=
  (W5_of_ne m ρ c main_arg9 (by decide)).trans (foldA_arg9 (W0 m ρ c))

/-! ## The first layer -/

/-- The first launch's output array, entry by entry, is the specification's first layer. -/
theorem layer1_value (hx : ∀ i, IsReal ((m ((c.tc : Thread nD τ).loc main_arg0)) i)) (n : Fin 50000) (k : Fin 256) :
    W5 m ρ c (Proc.devRef .tc main_v77) (ix2 n k)
      = Cert.Spec.layer1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) n k := by
  rw [show W5 m ρ c (Proc.devRef .tc main_v77) = (dat0 (V4 m ρ) c).arrAt 7 cfg0.N from W5_arr m ρ c 7]
  rw [final0 (V4 m ρ) c n k]
  have e0 : V4 m ρ c main_arg0 = (m ((c.tc : Thread nD τ).loc main_arg0)) := foldA_arg0 (W0 m ρ c)
  have e1 : V4 m ρ c main_v41 = _ := foldA_v41 (W0 m ρ c)
  have e2 : V4 m ρ c main_v66 = _ := foldA_v66 (W0 m ρ c)
  have e3 : V4 m ρ c main_v73 = _ := foldA_v73 (W0 m ρ c)
  have e4 : V4 m ρ c main_v74 = _ := foldA_v74 (W0 m ρ c)
  have e5 : V4 m ρ c main_v75 = _ := foldA_v75 (W0 m ρ c)
  have e6 : V4 m ρ c main_v76 = _ := foldA_v76 (W0 m ρ c)
  rw [e0, e1, e2, e3, e4, e5, e6, G0_apply]
  have hx' : ∀ (n : Fin 50000) (k : Fin 128), IsReal ((m ((c.tc : Thread nD τ).loc main_arg0)) (ix2 n k)) := fun n k => hx _
  simp only [kProp128_eq _ _ hx', kTx2_128_eq _ _ hx', kStack128_apply_0, kStack128_apply_1, kStack128_apply_2, kRow256_apply]
  rfl

/-! ## The result -/

/-- The second launch's output array — the program's result — is the two-layer specification of the arguments. -/
theorem result_value (hx : ∀ i, IsReal ((m ((c.tc : Thread nD τ).loc main_arg0)) i)) (hW1 : ∀ i, IsReal ((m ((c.tc : Thread nD τ).loc main_arg2)) i)) (hb1 : ∀ i, IsReal ((m ((c.tc : Thread nD τ).loc main_arg3)) i))
    (hg1 : ∀ i, IsReal ((m ((c.tc : Thread nD τ).loc main_arg4)) i)) (hbt1 : ∀ i, IsReal ((m ((c.tc : Thread nD τ).loc main_arg5)) i)) :
    W8 m ρ c (Proc.devRef .tc main_v135)
      = fun i => Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (i 0) (i 1) := by
  funext i
  obtain ⟨n, j, rfl⟩ : ∃ (n : Fin 50000) (j : Fin 128), i = ix2 n j := ⟨i 0, i 1, eq_ix2 i⟩
  rw [show W8 m ρ c (Proc.devRef .tc main_v135) = (dat1 (V7 m ρ) c).arrAt 7 cfg1.N from W8_arr m ρ c 7]
  rw [final1 (V7 m ρ) c n j]
  have f0 : V7 m ρ c main_v77 = W5 m ρ c (Proc.devRef .tc main_v77) := foldB_v77 (W5 m ρ c)
  have f1 : V7 m ρ c main_v99 = kProp256 (kDinv (F := Ideal) (m ((c.tc : Thread nD τ).loc main_arg1))) (kCnt (F := Ideal) (m ((c.tc : Thread nD τ).loc main_arg1))) (kCol (kWrap (m ((c.tc : Thread nD τ).loc main_arg1)))) (kCol (kDst (m ((c.tc : Thread nD τ).loc main_arg1))))
      (W5 m ρ c (Proc.devRef .tc main_v77)) := by
    refine (foldB_v99 (W5 m ρ c)).trans ?_
    rw [W5_v16, W5_v19, W5_v1, W5_v3]; rfl
  have f2 : V7 m ρ c main_v124 = kTx2_256 (kDinv (F := Ideal) (m ((c.tc : Thread nD τ).loc main_arg1))) (kCnt (F := Ideal) (m ((c.tc : Thread nD τ).loc main_arg1))) (kCol (kWrap (m ((c.tc : Thread nD τ).loc main_arg1)))) (kCol (kDst (m ((c.tc : Thread nD τ).loc main_arg1))))
      (W5 m ρ c (Proc.devRef .tc main_v77)) := by
    refine (foldB_v124 (W5 m ρ c)).trans ?_
    rw [W5_v16, W5_v19, W5_v1, W5_v3]; rfl
  have f3 : V7 m ρ c main_v131 = kStack256 (F := Ideal) (m ((c.tc : Thread nD τ).loc main_arg6)) := (foldB_v131 (W5 m ρ c)).trans (by rw [W5_arg6])
  have f4 : V7 m ρ c main_v132 = kRow128 (F := Ideal) (m ((c.tc : Thread nD τ).loc main_arg7)) := (foldB_v132 (W5 m ρ c)).trans (by rw [W5_arg7])
  have f5 : V7 m ρ c main_v133 = kRow128 (F := Ideal) (m ((c.tc : Thread nD τ).loc main_arg8)) := (foldB_v133 (W5 m ρ c)).trans (by rw [W5_arg8])
  have f6 : V7 m ρ c main_v134 = kRow128 (F := Ideal) (m ((c.tc : Thread nD τ).loc main_arg9)) := (foldB_v134 (W5 m ρ c)).trans (by rw [W5_arg9])
  rw [f0, f1, f2, f3, f4, f5, f6, G1_apply]
  generalize hh : W5 m ρ c (Proc.devRef .tc main_v77) = h1
  have hl : ∀ (n : Fin 50000) (k : Fin 256), h1 (ix2 n k) = Cert.Spec.layer1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) n k :=
    fun n k => by rw [← hh]; exact layer1_value m ρ c hx n k
  have hr : ∀ (n : Fin 50000) (k : Fin 256), IsReal (h1 (ix2 n k)) := fun n k => by
    rw [hl]; exact Cert.Spec.layer1_real _ _ _ _ _ _ hx hW1 hb1 hg1 hbt1 n k
  simp only [kProp256_eq _ _ hr, kTx2_256_eq _ _ hr, kStack256_apply_0, kStack256_apply_1, kStack256_apply_2, kRow128_apply]
  have hfun : (fun (n : Fin 50000) (k : Fin 256) => h1 (ix2 n k)) = Cert.Spec.layer1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
    funext fun n => funext fun k => hl n k
  simp only [hl]
  rfl

end Cert.KernelIdeal.Hand

end
-- ==== Proof.KPre.lean ====
/-
  From the finiteness precondition to: every entry of every float argument array is a real number.

  The precondition is the conjunction, over the nine float arguments, of "the absolute value of every entry is
  below plus infinity". On the extended reals the absolute value of `x` is the larger of `x` and `-x`, and plus
  infinity's bit pattern denotes the top element, so each conjunct says that no entry is the top or the bottom
  element: every entry is the image of a real number.
-/
import proofs.«108161_j89232240542461_2_alg».proof.Defs
import proofs.«108161_j89232240542461_2_alg».proof.Proof.LibChebAlgebra
import Idealize.ShloMosaic.Lib.ReduceAll
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.ShloMosaic.TcCoe Idealize.ShloMosaic.ValueIdx
open Cert.Lib.Cheb

/-- The result shape of a reduction over every axis has one index. -/
instance subsingleton_scalarIdx : Subsingleton (⟨0, ![]⟩ : Shape).Idx := ⟨fun a b => funext fun d => d.elim0⟩

/-- Plus infinity's bit pattern denotes the top element. -/
theorem ofBits_inf_f32 : Ideal.ofBits .f32 0x7F800000#32 = ⊤ := by simp [Ideal.ofBits, Ideal.ieee]

/-- An extended real whose absolute value is below the top element is a real number. -/
theorem isReal_of_abs_lt_top (x : EReal) (h : max x (-x) < ⊤) : IsReal x := by
  induction x using EReal.rec with
  | bot => exact absurd h (by simp)
  | coe r => exact ⟨r, rfl⟩
  | top => exact absurd h (by simp)

/-- One conjunct of the precondition: if "every entry's absolute value is below plus infinity", reduced by `and`
    over every axis, is true, then every entry is real. -/
theorem all_finite_real {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
        (cmpf .olt (Host.absf x) (broadcastInDim s ![] hb (constant (F := Ideal) ⟨0, ![]⟩ .f32 0x7F800000#32)))
        (constantI ⟨0, ![]⟩ 1 1#1) hr hu ix0 = 1#1)
    (i : s.Idx) : IsReal (x i) := by
  have h1 := Host.reduce_andi_all _ _ hr hu ix0 e i
  rw [cmpf_apply, broadcastInDim_apply ![] hb _ i ix0 (fun a => a.elim0), constant_apply, ofBits_inf_f32] at h1
  have h2 : max (x i) (-(x i)) < ⊤ := by
    by_contra hn
    have h3 : FloatOps.cmpf (F := Ideal) CmpFPredicate.olt (Host.absf x i) (⊤ : EReal) = 0#1 := by
      show BitVec.ofBool (decide (max (x i) (-(x i)) < ⊤)) = 0#1
      rw [decide_eq_false hn]; rfl
    exact absurd (h3.symm.trans h1) (by decide)
  exact isReal_of_abs_lt_top _ h2

/-- Under the finiteness precondition every entry of every float argument array is real. -/
theorem pre_real [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal ((m ((c.tc : Thread Cert.KernelIdeal.nD Cert.KernelIdeal.τ).loc Cert.KernelIdeal.main_arg0)) i))
    ∧ (∀ i, IsReal ((m ((c.tc : Thread Cert.KernelIdeal.nD Cert.KernelIdeal.τ).loc Cert.KernelIdeal.main_arg2)) i))
    ∧ (∀ i, IsReal ((m ((c.tc : Thread Cert.KernelIdeal.nD Cert.KernelIdeal.τ).loc Cert.KernelIdeal.main_arg3)) i))
    ∧ (∀ i, IsReal ((m ((c.tc : Thread Cert.KernelIdeal.nD Cert.KernelIdeal.τ).loc Cert.KernelIdeal.main_arg4)) i))
    ∧ (∀ i, IsReal ((m ((c.tc : Thread Cert.KernelIdeal.nD Cert.KernelIdeal.τ).loc Cert.KernelIdeal.main_arg5)) i))
    ∧ (∀ i, IsReal ((m ((c.tc : Thread Cert.KernelIdeal.nD Cert.KernelIdeal.τ).loc Cert.KernelIdeal.main_arg6)) i))
    ∧ (∀ i, IsReal ((m ((c.tc : Thread Cert.KernelIdeal.nD Cert.KernelIdeal.τ).loc Cert.KernelIdeal.main_arg7)) i))
    ∧ (∀ i, IsReal ((m ((c.tc : Thread Cert.KernelIdeal.nD Cert.KernelIdeal.τ).loc Cert.KernelIdeal.main_arg8)) i))
    ∧ (∀ i, IsReal ((m ((c.tc : Thread Cert.KernelIdeal.nD Cert.KernelIdeal.τ).loc Cert.KernelIdeal.main_arg9)) i)) := by
  have h0 := congrFun (h c) ix0
  dsimp only [Cert.Pre_finite_inputs.fn, Cert.Pre_finite_inputs.fn_part1, Cert.Pre_finite_inputs.fn_part2] at h0
  simp only [andi, IntOp.andi_eq_one] at h0
  obtain ⟨⟨⟨⟨⟨⟨⟨⟨e0, e2⟩, e3⟩, e4⟩, e5⟩, e6⟩, e7⟩, e8⟩, e9⟩ := h0
  exact ⟨fun i => all_finite_real _ _ _ _ e0 i, fun i => all_finite_real _ _ _ _ e2 i, fun i => all_finite_real _ _ _ _ e3 i,
    fun i => all_finite_real _ _ _ _ e4 i, fun i => all_finite_real _ _ _ _ e5 i, fun i => all_finite_real _ _ _ _ e6 i,
    fun i => all_finite_real _ _ _ _ e7 i, fun i => all_finite_real _ _ _ _ e8 i, fun i => all_finite_real _ _ _ _ e9 i⟩

end Cert.KernelIdeal.Hand

end
-- ==== Proof.RefRead1.lean ====
/-
  The reference's edge-level stages read at an edge or at a node: the two rows of words, the edge weight, the degree,
  its inverse square root, the normalised weight, and the index, weight and constant columns each propagation reads.
-/
import proofs.«108161_j89232240542461_2_alg».proof.Proof.RefReadP
import proofs.«108161_j89232240542461_2_alg».proof.Proof.LibRows2
import proofs.«108161_j89232240542461_2_alg».proof.Proof.LibRows3
import proofs.«108161_j89232240542461_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- Closes a goal that is true by unfolding definitions, if the previous step has not closed it already. -/
macro "rfl_or_done" : tactic => `(tactic| first | done | rfl)

/-! ## The printed gathers and scatter-adds read at an entry -/

theorem gather1 (x : (⟨1, ![50000]⟩ : Shape).Idx → EReal) (idx : IVec ⟨2, ![800000, 1]⟩ 32) (e : Fin 800000) :
    Host.gather gather_S50000_S800000x1_S800000_n_0_n_n_0_1_1 x idx (ix1 e)
      = x (ix1 ⟨min (idx (ix2 e (0 : Fin 1))).toInt.toNat (50000 - 1), by omega⟩) :=
  Cert.Rows2.gather_pick1_apply (by decide) Facts₀.gather_S50000_S800000x1_S800000_n_0_n_n_0_1_1_wf x idx e

theorem scatter1 (x : (⟨1, ![50000]⟩ : Shape).Idx → EReal) (idx : IVec ⟨2, ![800000, 1]⟩ 32)
    (u : (⟨1, ![800000]⟩ : Shape).Idx → EReal) (n : Fin 50000) :
    Host.scatterAdd (F := Ideal) (φ := .f32) scatter_S50000_S800000x1_S800000_n_0_0_1 x idx u (ix1 n)
      = x (ix1 n) + ∑ e : Fin 800000, if (idx (ix2 e (0 : Fin 1))).toInt = (n.val : Int) then u (ix1 e) else 0 :=
  Cert.Rows3.hostScatterAdd_vec_apply Facts₀.scatter_S50000_S800000x1_S800000_n_0_0_1_wf x idx u n

theorem gather128 (x : (⟨2, ![50000, 128]⟩ : Shape).Idx → EReal) (idx : IVec ⟨2, ![800000, 1]⟩ 32) (e : Fin 800000)
    (j : Fin 128) :
    Host.gather gather_S50000x128_S800000x1_S800000x128_1_0_n_n_0_1_1128 x idx (ix2 e j)
      = x (ix2 ⟨min (idx (ix2 e (0 : Fin 1))).toInt.toNat (50000 - 1), by omega⟩ j) :=
  Cert.Rows2.gather_pickRows2_apply (by decide) Facts₀.gather_S50000x128_S800000x1_S800000x128_1_0_n_n_0_1_1128_wf x idx e j

theorem scatter128 (x : (⟨2, ![50000, 128]⟩ : Shape).Idx → EReal) (idx : IVec ⟨2, ![800000, 1]⟩ 32)
    (u : (⟨2, ![800000, 128]⟩ : Shape).Idx → EReal) (n : Fin 50000) (j : Fin 128) :
    Host.scatterAdd (F := Ideal) (φ := .f32) scatter_S50000x128_S800000x1_S800000x128_1_0_0_1 x idx u (ix2 n j)
      = x (ix2 n j) + ∑ e : Fin 800000, if (idx (ix2 e (0 : Fin 1))).toInt = (n.val : Int) then u (ix2 e j) else 0 :=
  Cert.Rows2.hostScatterAdd_rows2_apply Facts₀.scatter_S50000x128_S800000x1_S800000x128_1_0_0_1_wf x idx u n j

theorem gather256 (x : (⟨2, ![50000, 256]⟩ : Shape).Idx → EReal) (idx : IVec ⟨2, ![800000, 1]⟩ 32) (e : Fin 800000)
    (j : Fin 256) :
    Host.gather gather_S50000x256_S800000x1_S800000x256_1_0_n_n_0_1_1256 x idx (ix2 e j)
      = x (ix2 ⟨min (idx (ix2 e (0 : Fin 1))).toInt.toNat (50000 - 1), by omega⟩ j) :=
  Cert.Rows2.gather_pickRows2_apply (by decide) Facts₀.gather_S50000x256_S800000x1_S800000x256_1_0_n_n_0_1_1256_wf x idx e j

theorem scatter256 (x : (⟨2, ![50000, 256]⟩ : Shape).Idx → EReal) (idx : IVec ⟨2, ![800000, 1]⟩ 32)
    (u : (⟨2, ![800000, 256]⟩ : Shape).Idx → EReal) (n : Fin 50000) (j : Fin 256) :
    Host.scatterAdd (F := Ideal) (φ := .f32) scatter_S50000x256_S800000x1_S800000x256_1_0_0_1 x idx u (ix2 n j)
      = x (ix2 n j) + ∑ e : Fin 800000, if (idx (ix2 e (0 : Fin 1))).toInt = (n.val : Int) then u (ix2 e j) else 0 :=
  Cert.Rows2.hostScatterAdd_rows2_apply Facts₀.scatter_S50000x256_S800000x1_S800000x256_1_0_0_1_wf x idx u n j

/-! ## Index maps of the column layouts -/

/-- A map from the column [800000, 1] to the vector [800000] that keeps the edge sends (e, 0) to e. -/
theorem col_idx (f : S800000x1.Idx → S800000.Idx) (hf : ∀ i, (f i 0).val = (i 0).val) (e : Fin 800000) :
    f (ix2 e (0 : Fin 1)) = ix1 e :=
  funext fun a => Fin.ext (by match a with | ⟨0, _⟩ => exact hf _)

/-- A map from rows [800000, D] to the column [800000, 1] that keeps the edge sends (e, j) to (e, 0). -/
theorem colD_idx {D : ℕ} (f : (⟨2, ![800000, D]⟩ : Shape).Idx → S800000x1.Idx) (hf : ∀ i, (f i 0).val = (i 0).val)
    (e : Fin 800000) (j : Fin D) : f (ix2 e j) = ix2 e (0 : Fin 1) :=
  funext fun a => Fin.ext (by
    match a with
    | ⟨0, _⟩ => exact hf _
    | ⟨1, h1⟩ => exact Nat.lt_one_iff.mp (show (f (ix2 e j) ⟨1, h1⟩).val < 1 from (f (ix2 e j) ⟨1, h1⟩).isLt))

/-- A map from the column [50000, 1] to the vector [50000] that keeps the node sends (n, 0) to n. -/
theorem ncol_idx (f : S50000x1.Idx → S50000.Idx) (hf : ∀ i, (f i 0).val = (i 0).val) (n : Fin 50000) :
    f (ix2 n (0 : Fin 1)) = ix1 n :=
  funext fun a => Fin.ext (by match a with | ⟨0, _⟩ => exact hf _)

/-- A map from rows [50000, D] to the column [50000, 1] that keeps the node sends (n, j) to (n, 0). -/
theorem ncolD_idx {D : ℕ} (f : (⟨2, ![50000, D]⟩ : Shape).Idx → S50000x1.Idx) (hf : ∀ i, (f i 0).val = (i 0).val)
    (n : Fin 50000) (j : Fin D) : f (ix2 n j) = ix2 n (0 : Fin 1) :=
  funext fun a => Fin.ext (by
    match a with
    | ⟨0, _⟩ => exact hf _
    | ⟨1, h1⟩ => exact Nat.lt_one_iff.mp (show (f (ix2 n j) ⟨1, h1⟩).val < 1 from (f (ix2 n j) ⟨1, h1⟩).isLt))

/-- The k-th operand entry of a sum along the feature axis at node n is (n, k). -/
theorem red_idx {D : ℕ} (f : S50000.Idx → Fin D → (⟨2, ![50000, D]⟩ : Shape).Idx)
    (h0 : ∀ i k, (f i k 0).val = (i 0).val) (h1 : ∀ i k, (f i k 1).val = k.val) (n : Fin 50000) (k : Fin D) :
    f (ix1 n) k = ix2 n k :=
  funext fun a => Fin.ext (by
    match a with
    | ⟨0, _⟩ => exact h0 _ _
    | ⟨1, _⟩ => exact h1 _ _)

/-- A vector [D] spread over the rows of [50000, D] through [1, D] is read at its own coordinate. -/
theorem brow_idx {D : ℕ} (f : (⟨2, ![50000, D]⟩ : Shape).Idx → (⟨2, ![1, D]⟩ : Shape).Idx)
    (g : (⟨2, ![1, D]⟩ : Shape).Idx → (⟨1, ![D]⟩ : Shape).Idx) (h : ∀ i, (g (f i) 0).val = (i 1).val)
    (n : Fin 50000) (j : Fin D) : g (f (ix2 n j)) = ix1 j :=
  funext fun a => Fin.ext (by match a with | ⟨0, _⟩ => exact h _)

/-- The left operand's entry of a contraction over the second axis. -/
theorem lidx_eq {A B K : ℕ} (f : (⟨2, ![A, B]⟩ : Shape).Idx → Fin K → (⟨2, ![A, K]⟩ : Shape).Idx)
    (h0 : ∀ i k, (f i k 0).val = (i 0).val) (h1 : ∀ i k, (f i k 1).val = k.val) (n : Fin A) (j : Fin B) (k : Fin K) :
    f (ix2 n j) k = ix2 n k :=
  funext fun a => Fin.ext (by
    match a with
    | ⟨0, _⟩ => exact h0 _ _
    | ⟨1, _⟩ => exact h1 _ _)

/-- The right operand's entry of a contraction over its first axis. -/
theorem ridx_eq {A B K : ℕ} (f : (⟨2, ![A, B]⟩ : Shape).Idx → Fin K → (⟨2, ![K, B]⟩ : Shape).Idx)
    (h0 : ∀ i k, (f i k 0).val = k.val) (h1 : ∀ i k, (f i k 1).val = (i 1).val) (n : Fin A) (j : Fin B) (k : Fin K) :
    f (ix2 n j) k = ix2 k j :=
  funext fun a => Fin.ext (by
    match a with
    | ⟨0, _⟩ => exact h0 _ _
    | ⟨1, _⟩ => exact h1 _ _)

section
variable (x1 : (⟨S2x800000, .i32⟩ : BufTy).Contents (Elt Ideal))

/-! ## The words -/

theorem src_at (e : Fin 800000) : val_main_v1 (F := Ideal) x1 (ix1 e) = x1 (ix2 (0 : Fin 2) e) := by
  rw [val_main_v1_apply, val_main_v0_apply]
  refine congrArg x1 (funext fun a => Fin.ext ?_)
  match a with
  | ⟨0, _⟩ => rfl
  | ⟨1, _⟩ => exact Nat.mod_eq_of_lt e.isLt

theorem dst_at (e : Fin 800000) : val_main_v3 (F := Ideal) x1 (ix1 e) = x1 (ix2 (1 : Fin 2) e) := by
  rw [val_main_v3_apply, val_main_v2_apply]
  refine congrArg x1 (funext fun a => Fin.ext ?_)
  match a with
  | ⟨0, _⟩ => rfl
  | ⟨1, _⟩ => exact Nat.mod_eq_of_lt e.isLt

/-! ## The edge weight, the degree and its inverse square root -/

theorem w_at (e : Fin 800000) : val_main_v5 (F := Ideal) x1 (ix1 e) = Spec.wE x1 e := by
  rw [val_main_v5_apply, val_main_v4_apply, src_at, dst_at, val_main_call0_v0_apply, val_main_cst_apply,
    val_main_call0_v1_apply, val_main_cst_0_apply]
  simp only [Ideal.ofBits_def, Spec.ofBits_one, Ideal.ofBits_zero_f32]
  show Scalar.select (BitVec.ofBool (x1 (ix2 (0 : Fin 2) e) != x1 (ix2 (1 : Fin 2) e))) (1 : EReal) 0
    = if Spec.same x1 e then 0 else 1
  rw [Spec.select_ofBool]
  unfold Spec.same
  by_cases h : x1 (ix2 (0 : Fin 2) e) = x1 (ix2 (1 : Fin 2) e)
  · simp [h]
  · simp [h]

theorem deg_at (n : Fin 50000) : val_main_v9 (F := Ideal) x1 (ix1 n) = Spec.deg x1 n := by
  unfold val_main_v9
  rw [scatter1, val_main_v6_apply, val_main_cst_1_apply, Ideal.ofBits_def, Ideal.ofBits_zero_f32]
  unfold Spec.deg
  refine congrArg (0 + ·) (Finset.sum_congr rfl fun e _ => ?_)
  rw [val_main_v7_apply, col_idx idx_main_v7 (fun _ => rfl), src_at, val_main_v8_apply, w_at]
  rfl

theorem dinv_at (n : Fin 50000) : val_main_v15 (F := Ideal) x1 (ix1 n) = Spec.dinv x1 n := by
  rw [val_main_v15_apply, val_main_v11_apply, val_main_v14_apply, val_main_v13_apply, deg_at, val_main_v10_apply,
    val_main_cst_2_apply, val_main_v12_apply, val_main_cst_3_apply, val_main_call1_v1_apply, val_main_call1_v0_apply,
    val_main_cst_4_apply]
  simp only [Ideal.ofBits_def, Ideal.ofBits_zero_f32, Ideal.cmpf_def, Ideal.hostUnary_rsqrt_def, Ideal.maximumf_def]
  show Scalar.select (BitVec.ofBool (decide (0 < Spec.deg x1 n))) _ _ = _
  rw [Spec.select_ofBool]
  unfold Spec.dinv
  simp only [decide_eq_true_eq]

/-! ## The wrapped index columns -/

theorem wrapcol21_at (e : Fin 800000) :
    val_main_v21 (F := Ideal) x1 (ix2 e (0 : Fin 1)) = Spec.wrap (x1 (ix2 (0 : Fin 2) e)) := by
  rw [val_main_v21_apply, col_idx idx_main_v21 (fun _ => rfl), val_main_v20_apply, val_main_v17_apply,
    val_main_v19_apply, src_at, val_main_v16_apply, val_main_c_apply, val_main_v18_apply, val_main_c_5_apply]
  rfl

theorem wrapcol32_at (e : Fin 800000) :
    val_main_v32 (F := Ideal) x1 (ix2 e (0 : Fin 1)) = Spec.wrap (x1 (ix2 (1 : Fin 2) e)) := by
  rw [val_main_v32_apply, col_idx idx_main_v32 (fun _ => rfl), val_main_v31_apply, val_main_v28_apply,
    val_main_v30_apply, dst_at, val_main_v27_apply, val_main_c_7_apply, val_main_v29_apply, val_main_c_8_apply]
  rfl

theorem wrapcol44_at (e : Fin 800000) :
    val_main_v44 (F := Ideal) x1 (ix2 e (0 : Fin 1)) = Spec.wrap (x1 (ix2 (0 : Fin 2) e)) := by
  rw [val_main_v44_apply, col_idx idx_main_v44 (fun _ => rfl), val_main_v43_apply, val_main_v40_apply,
    val_main_v42_apply, src_at, val_main_v39_apply, val_main_c_9_apply, val_main_v41_apply, val_main_c_10_apply]
  rfl

theorem wrapcol64_at (e : Fin 800000) :
    val_main_v64 (F := Ideal) x1 (ix2 e (0 : Fin 1)) = Spec.wrap (x1 (ix2 (0 : Fin 2) e)) := by
  rw [val_main_v64_apply, col_idx idx_main_v64 (fun _ => rfl), val_main_v63_apply, val_main_v60_apply,
    val_main_v62_apply, src_at, val_main_v59_apply, val_main_c_13_apply, val_main_v61_apply, val_main_c_14_apply]
  rfl

theorem wrapcol118_at (e : Fin 800000) :
    val_main_v118 (F := Ideal) x1 (ix2 e (0 : Fin 1)) = Spec.wrap (x1 (ix2 (0 : Fin 2) e)) := by
  rw [val_main_v118_apply, col_idx idx_main_v118 (fun _ => rfl), val_main_v117_apply, val_main_v114_apply,
    val_main_v116_apply, src_at, val_main_v113_apply, val_main_c_23_apply, val_main_v115_apply, val_main_c_24_apply]
  rfl

theorem wrapcol138_at (e : Fin 800000) :
    val_main_v138 (F := Ideal) x1 (ix2 e (0 : Fin 1)) = Spec.wrap (x1 (ix2 (0 : Fin 2) e)) := by
  rw [val_main_v138_apply, col_idx idx_main_v138 (fun _ => rfl), val_main_v137_apply, val_main_v134_apply,
    val_main_v136_apply, src_at, val_main_v133_apply, val_main_c_27_apply, val_main_v135_apply, val_main_c_28_apply]
  rfl

/-! ## The normalised weight -/

theorem wn_at (e : Fin 800000) : val_main_v34 (F := Ideal) x1 (ix1 e) = Spec.wn x1 e := by
  rw [val_main_v34_apply, val_main_v26_apply, val_main_v24_apply, val_main_v23_apply, val_main_cst_6_apply,
    val_main_v25_apply, w_at]
  unfold val_main_v22 val_main_v33
  rw [gather1, gather1]
  simp only [wrapcol21_at, wrapcol32_at, dinv_at, Ideal.ofBits_def, Spec.ofBits_neg_one, Ideal.mulf_def]
  rfl_or_done

/-! ## The columns each propagation reads -/

theorem dstcol49_at (e : Fin 800000) :
    val_main_v49 (F := Ideal) x1 (ix2 e (0 : Fin 1)) = x1 (ix2 (1 : Fin 2) e) := by
  rw [val_main_v49_apply, col_idx idx_main_v49 (fun _ => rfl), dst_at]

theorem dstcol69_at (e : Fin 800000) :
    val_main_v69 (F := Ideal) x1 (ix2 e (0 : Fin 1)) = x1 (ix2 (1 : Fin 2) e) := by
  rw [val_main_v69_apply, col_idx idx_main_v69 (fun _ => rfl), dst_at]

theorem dstcol123_at (e : Fin 800000) :
    val_main_v123 (F := Ideal) x1 (ix2 e (0 : Fin 1)) = x1 (ix2 (1 : Fin 2) e) := by
  rw [val_main_v123_apply, col_idx idx_main_v123 (fun _ => rfl), dst_at]

theorem dstcol143_at (e : Fin 800000) :
    val_main_v143 (F := Ideal) x1 (ix2 e (0 : Fin 1)) = x1 (ix2 (1 : Fin 2) e) := by
  rw [val_main_v143_apply, col_idx idx_main_v143 (fun _ => rfl), dst_at]

theorem wb46_at (e : Fin 800000) (j : Fin 128) :
    val_main_v46 (F := Ideal) x1 (ix2 e j) = Spec.wn x1 e := by
  rw [val_main_v46_apply, colD_idx idx_main_v46 (fun _ => rfl), val_main_v38_apply, col_idx idx_main_v38 (fun _ => rfl), wn_at]

theorem wb66_at (e : Fin 800000) (j : Fin 128) :
    val_main_v66 (F := Ideal) x1 (ix2 e j) = Spec.wn x1 e := by
  rw [val_main_v66_apply, colD_idx idx_main_v66 (fun _ => rfl), val_main_v58_apply, col_idx idx_main_v58 (fun _ => rfl), wn_at]

theorem wb120_at (e : Fin 800000) (j : Fin 256) :
    val_main_v120 (F := Ideal) x1 (ix2 e j) = Spec.wn x1 e := by
  rw [val_main_v120_apply, colD_idx idx_main_v120 (fun _ => rfl), val_main_v112_apply, col_idx idx_main_v112 (fun _ => rfl), wn_at]

theorem wb140_at (e : Fin 800000) (j : Fin 256) :
    val_main_v140 (F := Ideal) x1 (ix2 e j) = Spec.wn x1 e := by
  rw [val_main_v140_apply, colD_idx idx_main_v140 (fun _ => rfl), val_main_v132_apply, col_idx idx_main_v132 (fun _ => rfl), wn_at]

end

/-! ## The constant arrays -/

theorem zero48_at (i : S50000x128.Idx) : val_main_v48 (F := Ideal) i = 0 := by
  rw [val_main_v48_apply, val_main_cst_11_apply, Ideal.ofBits_def, Ideal.ofBits_zero_f32]

theorem zero51_at (i : S50000x128.Idx) : val_main_v51 (F := Ideal) i = 0 := by
  rw [val_main_v51_apply, val_main_cst_12_apply, Ideal.ofBits_def, Ideal.ofBits_zero_f32]

theorem zero68_at (i : S50000x128.Idx) : val_main_v68 (F := Ideal) i = 0 := by
  rw [val_main_v68_apply, val_main_cst_15_apply, Ideal.ofBits_def, Ideal.ofBits_zero_f32]

theorem zero71_at (i : S50000x128.Idx) : val_main_v71 (F := Ideal) i = 0 := by
  rw [val_main_v71_apply, val_main_cst_16_apply, Ideal.ofBits_def, Ideal.ofBits_zero_f32]

theorem zero122_at (i : S50000x256.Idx) : val_main_v122 (F := Ideal) i = 0 := by
  rw [val_main_v122_apply, val_main_cst_25_apply, Ideal.ofBits_def, Ideal.ofBits_zero_f32]

theorem zero125_at (i : S50000x256.Idx) : val_main_v125 (F := Ideal) i = 0 := by
  rw [val_main_v125_apply, val_main_cst_26_apply, Ideal.ofBits_def, Ideal.ofBits_zero_f32]

theorem zero142_at (i : S50000x256.Idx) : val_main_v142 (F := Ideal) i = 0 := by
  rw [val_main_v142_apply, val_main_cst_29_apply, Ideal.ofBits_def, Ideal.ofBits_zero_f32]

theorem zero145_at (i : S50000x256.Idx) : val_main_v145 (F := Ideal) i = 0 := by
  rw [val_main_v145_apply, val_main_cst_30_apply, Ideal.ofBits_def, Ideal.ofBits_zero_f32]

theorem two74_at (i : S50000x128.Idx) : val_main_v74 (F := Ideal) i = 2 := by
  rw [val_main_v74_apply, val_main_cst_17_apply, Ideal.ofBits_def, Spec.ofBits_two]

theorem two148_at (i : S50000x256.Idx) : val_main_v148 (F := Ideal) i = 2 := by
  rw [val_main_v148_apply, val_main_cst_31_apply, Ideal.ofBits_def, Spec.ofBits_two]

end Cert.ReferenceIdeal.RefValue

end
-- ==== Proof.RefRead2.lean ====
/-
  Layer 1 of the reference read at an entry: the two propagations, the third Chebyshev term, the three contractions
  with the bias, and the row normalisation with its maximum with 0.
-/
import proofs.«108161_j89232240542461_2_alg».proof.Proof.RefRead1

noncomputable section

namespace Cert.ReferenceIdeal.RefValue

open Cert.ReferenceIdeal Cert.ReferenceIdeal.Gen Cert.ReferenceIdeal.Read Idealize.ShloMosaic Idealize.ShloMosaic.ValueIdx

section
variable (x0 : (⟨S50000x128, .f32⟩ : BufTy).Contents (Elt Ideal)) (x1 : (⟨S2x800000, .i32⟩ : BufTy).Contents (Elt Ideal)) (x2 : (⟨S3x128x256, .f32⟩ : BufTy).Contents (Elt Ideal)) (x3 : (⟨S256, .f32⟩ : BufTy).Contents (Elt Ideal)) (x4 : (⟨S256, .f32⟩ : BufTy).Contents (Elt Ideal)) (x5 : (⟨S256, .f32⟩ : BufTy).Contents (Elt Ideal))

/-! ## The propagations -/

theorem prop53_at (n : Fin 50000) (j : Fin 128) :
    val_main_v53 (F := Ideal) x0 x1 (ix2 n j) = Spec.propS x1 (fun (n : Fin 50000) (k : Fin 128) => x0 (ix2 n k)) n j := by
  rw [val_main_v53_apply, val_main_v52_apply, zero51_at]
  unfold val_main_v50
  rw [scatter128, zero48_at]
  simp only [Ideal.addf_def, Ideal.mulf_def]
  rw [Spec.propS_eq]
  refine congrArg₂ (· + ·) (congrArg (0 + ·) (Finset.sum_congr rfl fun e _ => ?_)) rfl
  rw [dstcol49_at, val_main_v47_apply, wb46_at]
  unfold val_main_v45
  rw [gather128]
  simp only [wrapcol44_at]
  rfl_or_done

/-- The first propagation as a function of the node and the feature. -/
theorem prop53_fn :
    (fun (n : Fin 50000) (k : Fin 128) => val_main_v53 (F := Ideal) x0 x1 (ix2 n k)) = Spec.propS x1 (fun (n : Fin 50000) (k : Fin 128) => x0 (ix2 n k)) :=
  funext fun n => funext fun k => prop53_at x0 x1 n k

theorem prop73_at' (n : Fin 50000) (j : Fin 128) :
    val_main_v73 (F := Ideal) x0 x1 (ix2 n j) = Spec.propS x1 (fun (n : Fin 50000) (k : Fin 128) => val_main_v53 (F := Ideal) x0 x1 (ix2 n k)) n j := by
  rw [val_main_v73_apply, val_main_v72_apply, zero71_at]
  unfold val_main_v70
  rw [scatter128, zero68_at]
  simp only [Ideal.addf_def, Ideal.mulf_def]
  rw [Spec.propS_eq]
  refine congrArg₂ (· + ·) (congrArg (0 + ·) (Finset.sum_congr rfl fun e _ => ?_)) rfl
  rw [dstcol69_at, val_main_v67_apply, wb66_at]
  unfold val_main_v65
  rw [gather128]
  simp only [wrapcol64_at]
  rfl_or_done

theorem prop73_at (n : Fin 50000) (j : Fin 128) :
    val_main_v73 (F := Ideal) x0 x1 (ix2 n j) = Spec.propS x1 (Spec.propS x1 (fun (n : Fin 50000) (k : Fin 128) => x0 (ix2 n k))) n j := by
  rw [prop73_at', prop53_fn]

theorem tx2_76_at (n : Fin 50000) (j : Fin 128) :
    val_main_v76 (F := Ideal) x0 x1 (ix2 n j) = Spec.tx2 x1 (fun (n : Fin 50000) (k : Fin 128) => x0 (ix2 n k)) n j := by
  rw [val_main_v76_apply, val_main_v75_apply, two74_at, prop73_at]
  rfl_or_done

/-! ## The three contractions and the bias -/

theorem w36_at (k : Fin 128) (j : Fin 256) :
    val_main_v36 (F := Ideal) x2 (ix2 k j) = x2 (ix3 (0 : Fin 3) k j) := by
  rw [val_main_v36_apply, val_main_v35_apply]
  refine congrArg x2 (funext fun a => Fin.ext ?_)
  have hk := k.isLt
  have hj := j.isLt
  match a with
  | ⟨0, _⟩ => rfl
  | ⟨1, _⟩ => show (k.val * 256 + j.val) / 256 % 128 = k.val; omega
  | ⟨2, _⟩ => show (k.val * 256 + j.val) % 256 = j.val; omega

theorem w55_at (k : Fin 128) (j : Fin 256) :
    val_main_v55 (F := Ideal) x2 (ix2 k j) = x2 (ix3 (1 : Fin 3) k j) := by
  rw [val_main_v55_apply, val_main_v54_apply]
  refine congrArg x2 (funext fun a => Fin.ext ?_)
  have hk := k.isLt
  have hj := j.isLt
  match a with
  | ⟨0, _⟩ => rfl
  | ⟨1, _⟩ => show (k.val * 256 + j.val) / 256 % 128 = k.val; omega
  | ⟨2, _⟩ => show (k.val * 256 + j.val) % 256 = j.val; omega

theorem w78_at (k : Fin 128) (j : Fin 256) :
    val_main_v78 (F := Ideal) x2 (ix2 k j) = x2 (ix3 (2 : Fin 3) k j) := by
  rw [val_main_v78_apply, val_main_v77_apply]
  refine congrArg x2 (funext fun a => Fin.ext ?_)
  have hk := k.isLt
  have hj := j.isLt
  match a with
  | ⟨0, _⟩ => rfl
  | ⟨1, _⟩ => show (k.val * 256 + j.val) / 256 % 128 = k.val; omega
  | ⟨2, _⟩ => show (k.val * 256 + j.val) % 256 = j.val; omega

theorem dot37_at (n : Fin 50000) (j : Fin 256) :
    val_main_v37 (F := Ideal) x0 x2 (ix2 n j) = ∑ k : Fin 128, x0 (ix2 n k) * x2 (ix3 (0 : Fin 3) k j) := by
  rw [val_main_v37_apply]
  refine Finset.sum_congr rfl fun k _ => ?_
  rw [lidx_eq lidx_main_v37 (fun _ _ => rfl) (fun _ _ => rfl), ridx_eq ridx_main_v37 (fun _ _ => rfl) (fun _ _ => rfl),
    w36_at]

theorem dot56_at (n : Fin 50000) (j : Fin 256) :
    val_main_v56 (F := Ideal) x0 x1 x2 (ix2 n j) = ∑ k : Fin 128, Spec.propS x1 (fun (n : Fin 50000) (k : Fin 128) => x0 (ix2 n k)) n k * x2 (ix3 (1 : Fin 3) k j) := by
  rw [val_main_v56_apply]
  refine Finset.sum_congr rfl fun k _ => ?_
  rw [lidx_eq lidx_main_v56 (fun _ _ => rfl) (fun _ _ => rfl), ridx_eq ridx_main_v56 (fun _ _ => rfl) (fun _ _ => rfl),
    w55_at, prop53_at]

theorem dot79_at (n : Fin 50000) (j : Fin 256) :
    val_main_v79 (F := Ideal) x0 x1 x2 (ix2 n j) = ∑ k : Fin 128, Spec.tx2 x1 (fun (n : Fin 50000) (k : Fin 128) => x0 (ix2 n k)) n k * x2 (ix3 (2 : Fin 3) k j) := by
  rw [val_main_v79_apply]
  refine Finset.sum_congr rfl fun k _ => ?_
  rw [lidx_eq lidx_main_v79 (fun _ _ => rfl) (fun _ _ => rfl), ridx_eq ridx_main_v79 (fun _ _ => rfl) (fun _ _ => rfl),
    w78_at, tx2_76_at]

theorem acc83_at (n : Fin 50000) (j : Fin 256) :
    val_main_v83 (F := Ideal) x0 x1 x2 x3 (ix2 n j) = Spec.acc (d := 128) (d' := 256) x1 (fun (n : Fin 50000) (k : Fin 128) => x0 (ix2 n k)) x2 x3 n j := by
  rw [val_main_v83_apply, val_main_v80_apply, val_main_v57_apply, dot37_at, dot56_at, dot79_at,
    val_main_v82_apply, val_main_v81_apply, brow_idx idx_main_v82 idx_main_v81 (fun _ => rfl)]
  rfl_or_done

/-! ## The row normalisation -/

theorem mean87_at (n : Fin 50000) :
    val_main_v87 (F := Ideal) x0 x1 x2 x3 (ix2 n (0 : Fin 1))
      = Ideal.div (0 + ∑ k : Fin 256, val_main_v83 (F := Ideal) x0 x1 x2 x3 (ix2 n k)) (Ideal.ofBits .f32 0x43800000#32) := by
  rw [val_main_v87_apply, val_main_v85_apply, ncol_idx idx_main_v85 (fun _ => rfl), val_main_v84_apply,
    val_main_v86_apply, val_main_cst_19_apply, val_main_cst_18_apply]
  simp only [Ideal.ofBits_def, Ideal.ofBits_zero_f32, Ideal.hostDivf_def]
  refine congrArg (fun s => Ideal.div (0 + s) _) (Finset.sum_congr rfl fun k _ => ?_)
  rw [red_idx idx_main_v84 (fun _ _ => rfl) (fun _ _ => rfl)]

theorem cen89_at (n : Fin 50000) (j : Fin 256) :
    val_main_v89 (F := Ideal) x0 x1 x2 x3 (ix2 n j) = val_main_v83 (F := Ideal) x0 x1 x2 x3 (ix2 n j) - val_main_v87 (F := Ideal) x0 x1 x2 x3 (ix2 n (0 : Fin 1)) := by
  rw [val_main_v89_apply, val_main_v88_apply, ncolD_idx idx_main_v88 (fun _ => rfl)]
  rfl_or_done

theorem cen96_at (n : Fin 50000) (j : Fin 256) :
    val_main_v96 (F := Ideal) x0 x1 x2 x3 (ix2 n j) = val_main_v83 (F := Ideal) x0 x1 x2 x3 (ix2 n j) - val_main_v87 (F := Ideal) x0 x1 x2 x3 (ix2 n (0 : Fin 1)) := by
  rw [val_main_v96_apply, val_main_v95_apply, ncolD_idx idx_main_v95 (fun _ => rfl)]
  rfl_or_done

theorem var94_at (n : Fin 50000) :
    val_main_v94 (F := Ideal) x0 x1 x2 x3 (ix2 n (0 : Fin 1))
      = Ideal.div (0 + ∑ k : Fin 256, (val_main_v83 (F := Ideal) x0 x1 x2 x3 (ix2 n k) - val_main_v87 (F := Ideal) x0 x1 x2 x3 (ix2 n (0 : Fin 1)))
          * (val_main_v83 (F := Ideal) x0 x1 x2 x3 (ix2 n k) - val_main_v87 (F := Ideal) x0 x1 x2 x3 (ix2 n (0 : Fin 1)))) (Ideal.ofBits .f32 0x43800000#32) := by
  rw [val_main_v94_apply, val_main_v92_apply, ncol_idx idx_main_v92 (fun _ => rfl), val_main_v91_apply,
    val_main_v93_apply, val_main_cst_21_apply, val_main_cst_20_apply]
  simp only [Ideal.ofBits_def, Ideal.ofBits_zero_f32, Ideal.hostDivf_def]
  refine congrArg (fun s => Ideal.div (0 + s) _) (Finset.sum_congr rfl fun k _ => ?_)
  rw [red_idx idx_main_v91 (fun _ _ => rfl) (fun _ _ => rfl), val_main_v90_apply, cen89_at]
  rfl_or_done

theorem ln108_at (n : Fin 50000) (j : Fin 256) :
    val_main_v108 (F := Ideal) x0 x1 x2 x3 x4 x5 (ix2 n j)
      = Spec.lnRow (Ideal.ofBits .f32 0x43800000#32) (Ideal.ofBits .f32 0x3727C5AC#32)
          (fun j' : Fin 256 => val_main_v83 (F := Ideal) x0 x1 x2 x3 (ix2 n j')) (fun j' => x4 (ix1 j')) (fun j' => x5 (ix1 j')) j := by
  rw [val_main_v108_apply, val_main_v107_apply, val_main_v104_apply, val_main_v101_apply, cen96_at,
    val_main_v100_apply, ncolD_idx idx_main_v100 (fun _ => rfl), val_main_v99_apply, val_main_v98_apply,
    var94_at, val_main_v97_apply, val_main_cst_22_apply, val_main_v103_apply, val_main_v102_apply,
    brow_idx idx_main_v103 idx_main_v102 (fun _ => rfl), val_main_v106_apply, val_main_v105_apply,
    brow_idx idx_main_v106 idx_main_v105 (fun _ => rfl), val_main_call2_v0_apply, val_main_call2_cst_apply,
    mean87_at]
  simp only [Ideal.ofBits_def, Ideal.ofBits_zero_f32]
  rfl_or_done

/-- Layer 1 at an entry, over the specification's accumulated row. -/
theorem layer1_at (n : Fin 50000) (j : Fin 256) :
    val_main_v108 (F := Ideal) x0 x1 x2 x3 x4 x5 (ix2 n j)
      = Spec.lnRow (Ideal.ofBits .f32 0x43800000#32) (Ideal.ofBits .f32 0x3727C5AC#32)
          (fun j' : Fin 256 => Spec.acc (d := 128) (d' := 256) x1 (fun (n : Fin 50000) (k : Fin 128) => x0 (ix2 n k)) x2 x3 n j')
          (fun j' => x4 (ix1 j')) (fun j' => x5 (ix1 j')) j := by
  rw [ln108_at]
  simp only [acc83_at]

end

end Cert.ReferenceIdeal.RefValue

end
-- ==== Proof.RefRead3.lean ====
/-
  Layer 2 of the reference read at an entry: the two propagations, the third Chebyshev term, the three contractions
  with the bias, and the row normalisation with its maximum with 0.
-/
import proofs.«108161_j89232240542461_2_alg».proof.Proof.RefRead1

noncomputable section

namespace Cert.ReferenceIdeal.RefValue

open Cert.ReferenceIdeal Cert.ReferenceIdeal.Gen Cert.ReferenceIdeal.Read Idealize.ShloMosaic Idealize.ShloMosaic.ValueIdx

section
variable (x0 : (⟨S50000x128, .f32⟩ : BufTy).Contents (Elt Ideal)) (x1 : (⟨S2x800000, .i32⟩ : BufTy).Contents (Elt Ideal)) (x2 : (⟨S3x128x256, .f32⟩ : BufTy).Contents (Elt Ideal)) (x3 : (⟨S256, .f32⟩ : BufTy).Contents (Elt Ideal)) (x4 : (⟨S256, .f32⟩ : BufTy).Contents (Elt Ideal)) (x5 : (⟨S256, .f32⟩ : BufTy).Contents (Elt Ideal)) (x6 : (⟨S3x256x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal))

/-! ## The propagations -/

theorem prop127_at (n : Fin 50000) (j : Fin 256) :
    val_main_v127 (F := Ideal) x0 x1 x2 x3 x4 x5 (ix2 n j) = Spec.propS x1 (fun (n : Fin 50000) (k : Fin 256) => val_main_v108 (F := Ideal) x0 x1 x2 x3 x4 x5 (ix2 n k)) n j := by
  rw [val_main_v127_apply, val_main_v126_apply, zero125_at]
  unfold val_main_v124
  rw [scatter256, zero122_at]
  simp only [Ideal.addf_def, Ideal.mulf_def]
  rw [Spec.propS_eq]
  refine congrArg₂ (· + ·) (congrArg (0 + ·) (Finset.sum_congr rfl fun e _ => ?_)) rfl
  rw [dstcol123_at, val_main_v121_apply, wb120_at]
  unfold val_main_v119
  rw [gather256]
  simp only [wrapcol118_at]
  rfl_or_done

/-- The first propagation as a function of the node and the feature. -/
theorem prop127_fn :
    (fun (n : Fin 50000) (k : Fin 256) => val_main_v127 (F := Ideal) x0 x1 x2 x3 x4 x5 (ix2 n k)) = Spec.propS x1 (fun (n : Fin 50000) (k : Fin 256) => val_main_v108 (F := Ideal) x0 x1 x2 x3 x4 x5 (ix2 n k)) :=
  funext fun n => funext fun k => prop127_at x0 x1 x2 x3 x4 x5 n k

theorem prop147_at' (n : Fin 50000) (j : Fin 256) :
    val_main_v147 (F := Ideal) x0 x1 x2 x3 x4 x5 (ix2 n j) = Spec.propS x1 (fun (n : Fin 50000) (k : Fin 256) => val_main_v127 (F := Ideal) x0 x1 x2 x3 x4 x5 (ix2 n k)) n j := by
  rw [val_main_v147_apply, val_main_v146_apply, zero145_at]
  unfold val_main_v144
  rw [scatter256, zero142_at]
  simp only [Ideal.addf_def, Ideal.mulf_def]
  rw [Spec.propS_eq]
  refine congrArg₂ (· + ·) (congrArg (0 + ·) (Finset.sum_congr rfl fun e _ => ?_)) rfl
  rw [dstcol143_at, val_main_v141_apply, wb140_at]
  unfold val_main_v139
  rw [gather256]
  simp only [wrapcol138_at]
  rfl_or_done

theorem prop147_at (n : Fin 50000) (j : Fin 256) :
    val_main_v147 (F := Ideal) x0 x1 x2 x3 x4 x5 (ix2 n j) = Spec.propS x1 (Spec.propS x1 (fun (n : Fin 50000) (k : Fin 256) => val_main_v108 (F := Ideal) x0 x1 x2 x3 x4 x5 (ix2 n k))) n j := by
  rw [prop147_at', prop127_fn]

theorem tx2_150_at (n : Fin 50000) (j : Fin 256) :
    val_main_v150 (F := Ideal) x0 x1 x2 x3 x4 x5 (ix2 n j) = Spec.tx2 x1 (fun (n : Fin 50000) (k : Fin 256) => val_main_v108 (F := Ideal) x0 x1 x2 x3 x4 x5 (ix2 n k)) n j := by
  rw [val_main_v150_apply, val_main_v149_apply, two148_at, prop147_at]
  rfl_or_done

/-! ## The three contractions and the bias -/

theorem w110_at (k : Fin 256) (j : Fin 128) :
    val_main_v110 (F := Ideal) x6 (ix2 k j) = x6 (ix3 (0 : Fin 3) k j) := by
  rw [val_main_v110_apply, val_main_v109_apply]
  refine congrArg x6 (funext fun a => Fin.ext ?_)
  have hk := k.isLt
  have hj := j.isLt
  match a with
  | ⟨0, _⟩ => rfl
  | ⟨1, _⟩ => show (k.val * 128 + j.val) / 128 % 256 = k.val; omega
  | ⟨2, _⟩ => show (k.val * 128 + j.val) % 128 = j.val; omega

theorem w129_at (k : Fin 256) (j : Fin 128) :
    val_main_v129 (F := Ideal) x6 (ix2 k j) = x6 (ix3 (1 : Fin 3) k j) := by
  rw [val_main_v129_apply, val_main_v128_apply]
  refine congrArg x6 (funext fun a => Fin.ext ?_)
  have hk := k.isLt
  have hj := j.isLt
  match a with
  | ⟨0, _⟩ => rfl
  | ⟨1, _⟩ => show (k.val * 128 + j.val) / 128 % 256 = k.val; omega
  | ⟨2, _⟩ => show (k.val * 128 + j.val) % 128 = j.val; omega

theorem w152_at (k : Fin 256) (j : Fin 128) :
    val_main_v152 (F := Ideal) x6 (ix2 k j) = x6 (ix3 (2 : Fin 3) k j) := by
  rw [val_main_v152_apply, val_main_v151_apply]
  refine congrArg x6 (funext fun a => Fin.ext ?_)
  have hk := k.isLt
  have hj := j.isLt
  match a with
  | ⟨0, _⟩ => rfl
  | ⟨1, _⟩ => show (k.val * 128 + j.val) / 128 % 256 = k.val; omega
  | ⟨2, _⟩ => show (k.val * 128 + j.val) % 128 = j.val; omega

theorem dot111_at (n : Fin 50000) (j : Fin 128) :
    val_main_v111 (F := Ideal) x0 x1 x2 x3 x4 x5 x6 (ix2 n j) = ∑ k : Fin 256, val_main_v108 (F := Ideal) x0 x1 x2 x3 x4 x5 (ix2 n k) * x6 (ix3 (0 : Fin 3) k j) := by
  rw [val_main_v111_apply]
  refine Finset.sum_congr rfl fun k _ => ?_
  rw [lidx_eq lidx_main_v111 (fun _ _ => rfl) (fun _ _ => rfl), ridx_eq ridx_main_v111 (fun _ _ => rfl) (fun _ _ => rfl),
    w110_at]

theorem dot130_at (n : Fin 50000) (j : Fin 128) :
    val_main_v130 (F := Ideal) x0 x1 x2 x3 x4 x5 x6 (ix2 n j) = ∑ k : Fin 256, Spec.propS x1 (fun (n : Fin 50000) (k : Fin 256) => val_main_v108 (F := Ideal) x0 x1 x2 x3 x4 x5 (ix2 n k)) n k * x6 (ix3 (1 : Fin 3) k j) := by
  rw [val_main_v130_apply]
  refine Finset.sum_congr rfl fun k _ => ?_
  rw [lidx_eq lidx_main_v130 (fun _ _ => rfl) (fun _ _ => rfl), ridx_eq ridx_main_v130 (fun _ _ => rfl) (fun _ _ => rfl),
    w129_at, prop127_at]

theorem dot153_at (n : Fin 50000) (j : Fin 128) :
    val_main_v153 (F := Ideal) x0 x1 x2 x3 x4 x5 x6 (ix2 n j) = ∑ k : Fin 256, Spec.tx2 x1 (fun (n : Fin 50000) (k : Fin 256) => val_main_v108 (F := Ideal) x0 x1 x2 x3 x4 x5 (ix2 n k)) n k * x6 (ix3 (2 : Fin 3) k j) := by
  rw [val_main_v153_apply]
  refine Finset.sum_congr rfl fun k _ => ?_
  rw [lidx_eq lidx_main_v153 (fun _ _ => rfl) (fun _ _ => rfl), ridx_eq ridx_main_v153 (fun _ _ => rfl) (fun _ _ => rfl),
    w152_at, tx2_150_at]

theorem acc157_at (n : Fin 50000) (j : Fin 128) :
    val_main_v157 (F := Ideal) x0 x1 x2 x3 x4 x5 x6 x7 (ix2 n j) = Spec.acc (d := 256) (d' := 128) x1 (fun (n : Fin 50000) (k : Fin 256) => val_main_v108 (F := Ideal) x0 x1 x2 x3 x4 x5 (ix2 n k)) x6 x7 n j := by
  rw [val_main_v157_apply, val_main_v154_apply, val_main_v131_apply, dot111_at, dot130_at, dot153_at,
    val_main_v156_apply, val_main_v155_apply, brow_idx idx_main_v156 idx_main_v155 (fun _ => rfl)]
  rfl_or_done

/-! ## The row normalisation -/

theorem mean161_at (n : Fin 50000) :
    val_main_v161 (F := Ideal) x0 x1 x2 x3 x4 x5 x6 x7 (ix2 n (0 : Fin 1))
      = Ideal.div (0 + ∑ k : Fin 128, val_main_v157 (F := Ideal) x0 x1 x2 x3 x4 x5 x6 x7 (ix2 n k)) (Ideal.ofBits .f32 0x43000000#32) := by
  rw [val_main_v161_apply, val_main_v159_apply, ncol_idx idx_main_v159 (fun _ => rfl), val_main_v158_apply,
    val_main_v160_apply, val_main_cst_33_apply, val_main_cst_32_apply]
  simp only [Ideal.ofBits_def, Ideal.ofBits_zero_f32, Ideal.hostDivf_def]
  refine congrArg (fun s => Ideal.div (0 + s) _) (Finset.sum_congr rfl fun k _ => ?_)
  rw [red_idx idx_main_v158 (fun _ _ => rfl) (fun _ _ => rfl)]

theorem cen163_at (n : Fin 50000) (j : Fin 128) :
    val_main_v163 (F := Ideal) x0 x1 x2 x3 x4 x5 x6 x7 (ix2 n j) = val_main_v157 (F := Ideal) x0 x1 x2 x3 x4 x5 x6 x7 (ix2 n j) - val_main_v161 (F := Ideal) x0 x1 x2 x3 x4 x5 x6 x7 (ix2 n (0 : Fin 1)) := by
  rw [val_main_v163_apply, val_main_v162_apply, ncolD_idx idx_main_v162 (fun _ => rfl)]
  rfl_or_done

theorem cen170_at (n : Fin 50000) (j : Fin 128) :
    val_main_v170 (F := Ideal) x0 x1 x2 x3 x4 x5 x6 x7 (ix2 n j) = val_main_v157 (F := Ideal) x0 x1 x2 x3 x4 x5 x6 x7 (ix2 n j) - val_main_v161 (F := Ideal) x0 x1 x2 x3 x4 x5 x6 x7 (ix2 n (0 : Fin 1)) := by
  rw [val_main_v170_apply, val_main_v169_apply, ncolD_idx idx_main_v169 (fun _ => rfl)]
  rfl_or_done

theorem var168_at (n : Fin 50000) :
    val_main_v168 (F := Ideal) x0 x1 x2 x3 x4 x5 x6 x7 (ix2 n (0 : Fin 1))
      = Ideal.div (0 + ∑ k : Fin 128, (val_main_v157 (F := Ideal) x0 x1 x2 x3 x4 x5 x6 x7 (ix2 n k) - val_main_v161 (F := Ideal) x0 x1 x2 x3 x4 x5 x6 x7 (ix2 n (0 : Fin 1)))
          * (val_main_v157 (F := Ideal) x0 x1 x2 x3 x4 x5 x6 x7 (ix2 n k) - val_main_v161 (F := Ideal) x0 x1 x2 x3 x4 x5 x6 x7 (ix2 n (0 : Fin 1)))) (Ideal.ofBits .f32 0x43000000#32) := by
  rw [val_main_v168_apply, val_main_v166_apply, ncol_idx idx_main_v166 (fun _ => rfl), val_main_v165_apply,
    val_main_v167_apply, val_main_cst_35_apply, val_main_cst_34_apply]
  simp only [Ideal.ofBits_def, Ideal.ofBits_zero_f32, Ideal.hostDivf_def]
  refine congrArg (fun s => Ideal.div (0 + s) _) (Finset.sum_congr rfl fun k _ => ?_)
  rw [red_idx idx_main_v165 (fun _ _ => rfl) (fun _ _ => rfl), val_main_v164_apply, cen163_at]
  rfl_or_done

theorem ln182_at (n : Fin 50000) (j : Fin 128) :
    val_main_v182 (F := Ideal) x0 x1 x2 x3 x4 x5 x6 x7 x8 x9 (ix2 n j)
      = Spec.lnRow (Ideal.ofBits .f32 0x43000000#32) (Ideal.ofBits .f32 0x3727C5AC#32)
          (fun j' : Fin 128 => val_main_v157 (F := Ideal) x0 x1 x2 x3 x4 x5 x6 x7 (ix2 n j')) (fun j' => x8 (ix1 j')) (fun j' => x9 (ix1 j')) j := by
  rw [val_main_v182_apply, val_main_v181_apply, val_main_v178_apply, val_main_v175_apply, cen170_at,
    val_main_v174_apply, ncolD_idx idx_main_v174 (fun _ => rfl), val_main_v173_apply, val_main_v172_apply,
    var168_at, val_main_v171_apply, val_main_cst_36_apply, val_main_v177_apply, val_main_v176_apply,
    brow_idx idx_main_v177 idx_main_v176 (fun _ => rfl), val_main_v180_apply, val_main_v179_apply,
    brow_idx idx_main_v180 idx_main_v179 (fun _ => rfl), val_main_call3_v0_apply, val_main_call3_cst_apply,
    mean161_at]
  simp only [Ideal.ofBits_def, Ideal.ofBits_zero_f32]
  rfl_or_done

/-- Layer 2 at an entry, over the specification's accumulated row. -/
theorem layer2_at (n : Fin 50000) (j : Fin 128) :
    val_main_v182 (F := Ideal) x0 x1 x2 x3 x4 x5 x6 x7 x8 x9 (ix2 n j)
      = Spec.lnRow (Ideal.ofBits .f32 0x43000000#32) (Ideal.ofBits .f32 0x3727C5AC#32)
          (fun j' : Fin 128 => Spec.acc (d := 256) (d' := 128) x1 (fun (n : Fin 50000) (k : Fin 256) => val_main_v108 (F := Ideal) x0 x1 x2 x3 x4 x5 (ix2 n k)) x6 x7 n j')
          (fun j' => x8 (ix1 j')) (fun j' => x9 (ix1 j')) j := by
  rw [ln182_at]
  simp only [acc157_at]

end

end Cert.ReferenceIdeal.RefValue

end
-- ==== Proof.RefResult.lean ====
/-
  The reference's last stage is the specification: the two layers composed into the result.
-/
import proofs.«108161_j89232240542461_2_alg».proof.Proof.RefRead2
import proofs.«108161_j89232240542461_2_alg».proof.Proof.RefRead3

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-- The last stage of the reference, as a function of the ten argument arrays, is the specification. -/
theorem result_eq (x0 : (⟨S50000x128, .f32⟩ : BufTy).Contents (Elt Ideal)) (x1 : (⟨S2x800000, .i32⟩ : BufTy).Contents (Elt Ideal)) (x2 : (⟨S3x128x256, .f32⟩ : BufTy).Contents (Elt Ideal)) (x3 : (⟨S256, .f32⟩ : BufTy).Contents (Elt Ideal)) (x4 : (⟨S256, .f32⟩ : BufTy).Contents (Elt Ideal)) (x5 : (⟨S256, .f32⟩ : BufTy).Contents (Elt Ideal)) (x6 : (⟨S3x256x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) :
    val_main_v182 (F := Ideal) x0 x1 x2 x3 x4 x5 x6 x7 x8 x9
      = fun i => Spec.G x0 x1 x2 x3 x4 x5 x6 x7 x8 x9 (i 0) (i 1) := by
  funext i
  obtain ⟨n, j, rfl⟩ : ∃ (n : Fin 50000) (j : Fin 128), i = ix2 n j := ⟨i 0, i 1, eq_ix2 i⟩
  rw [layer2_at]
  simp only [layer1_at]
  rfl_or_done

end Cert.ReferenceIdeal.RefValue

end
-- ==== Proof.RefRunValue.lean ====
/-
  The reference's run ends at the specification: every execution of the reference terminates with its result buffer
  at the specification of the argument arrays, and the arguments unchanged.
-/
import proofs.«108161_j89232240542461_2_alg».proof.Proof.RefRunP
import proofs.«108161_j89232240542461_2_alg».proof.Proof.RefResult

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-- On every device, from any memory with zero counters: every weakly fair execution of the reference terminates with
    its result buffer at the specification of the argument arrays, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v182)
        = (fun i => Spec.G (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono
    (fun _ h c => ⟨(h c).1.trans (result_eq _ _ _ _ _ _ _ _ _ _), (h c).2⟩)
    (Cert.ReferenceIdeal.Value.run (F := Ideal) m ρ)

end Cert.ReferenceIdeal.RefValue

end
-- ==== Proof.Claims.lean ====
/-
  The five claims. Both printed forms of the kernel's program run to the end, faulting nowhere, and leave their ten
  argument arrays as launched: the run follows the core's buffers through six stretches of host operations and the two
  launches of the combine kernel. The reference's program does the same, by its run over its operation list. The
  idealization rewrote nothing. At the ideal instance, from memories agreeing on the arguments, both programs end with
  the same result array: the two-layer Chebyshev graph convolution of the specification — the reference's by reading
  its stages at an index, the kernel's because its node-wise propagation with the self-loop correction is the
  reference's edge-weighted sum on real features, and every feature that is propagated is real when the inputs are.
-/
import proofs.«108161_j89232240542461_2_alg».proof.Defs
import proofs.«108161_j89232240542461_2_alg».proof.Proof.Gen.Kernel
import proofs.«108161_j89232240542461_2_alg».proof.Proof.Gen.KernelIdeal
import proofs.«108161_j89232240542461_2_alg».proof.Proof.Gen.ReferenceIdeal
import proofs.«108161_j89232240542461_2_alg».proof.Proof.Gen.Pre_finite_inputs
import proofs.«108161_j89232240542461_2_alg».proof.Proof.KRun
import proofs.«108161_j89232240542461_2_alg».proof.Proof.BRun
import proofs.«108161_j89232240542461_2_alg».proof.Proof.KValue
import proofs.«108161_j89232240542461_2_alg».proof.Proof.KPre
import proofs.«108161_j89232240542461_2_alg».proof.Proof.RefRunValue

noncomputable section

namespace Cert.Proof.Claims

open Idealize.ShloMosaic Idealize.ShloMosaic.TcCoe Idealize.SL.Sem

/-- The word-level program runs and keeps its arguments. -/
theorem frame_k : Cert.frame_Kernel := fun m ρ _ => Cert.Kernel.Hand.frame m ρ

/-- The idealized program runs and keeps its arguments. -/
theorem frame_ki : Cert.frame_KernelIdeal := fun m ρ _ => Cert.KernelIdeal.Hand.frame m ρ

/-- The reference runs and keeps its arguments: its run with the result forgotten. -/
theorem frame_ri : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- Both idealized programs end at the specification's function of the (agreeing) arguments. -/
theorem algebraic : Cert.algebraic_KernelIdeal_ReferenceIdeal := by
  intro m ρ m' ρ' hpre hagree
  refine ⟨fun c => fun i => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (i 0) (i 1), ?_, ?_⟩
  · refine (θ_run Cert.KernelIdeal.defs _ _).mono (fun r h c => ⟨(h c).1.trans ?_, (h c).2⟩)
      (Cert.KernelIdeal.Hand.run_main (F := Ideal) m ρ)
    obtain ⟨h0, h2, h3, h4, h5, -⟩ := Cert.KernelIdeal.Hand.pre_real m hpre c
    exact Cert.KernelIdeal.Hand.result_value m ρ c h0 h2 h3 h4 h5
  · refine (θ_run Cert.ReferenceIdeal.defs _ _).mono (fun r h c => ⟨(h c).1.trans ?_, (h c).2⟩)
      (Cert.ReferenceIdeal.RefValue.run m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
    rfl

end Cert.Proof.Claims

end
-- ==== Proof.lean ====
/-
  The certificate of a two-layer Chebyshev graph convolution: a kernel program that propagates node features through
  the normalised graph Laplacian node-wise (scaling rows by the inverse square-root degrees, summing gathered rows
  into their destination nodes, and removing the self-loop edges by a per-node count) and fuses each layer's three
  contractions, bias, layer norm and rectifier into one launch over blocks of 2000 nodes, against a reference that
  weights every edge and contracts the three Chebyshev terms one by one. The claims are proved in Proof/Claims.lean;
  here they are put together with the witnesses of the programs' stated side conditions.
-/
import proofs.«108161_j89232240542461_2_alg».proof.Defs
import proofs.«108161_j89232240542461_2_alg».proof.Proof.Gen.Kernel
import proofs.«108161_j89232240542461_2_alg».proof.Proof.Gen.KernelIdeal
import proofs.«108161_j89232240542461_2_alg».proof.Proof.Gen.ReferenceIdeal
import proofs.«108161_j89232240542461_2_alg».proof.Proof.Gen.Pre_finite_inputs
import proofs.«108161_j89232240542461_2_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
